-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8x1024 : Shape := ⟨3, ![1024, 8, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S1024x8x1024 : S_.BroadcastsInDim S1024x8x1024 (![] : Fin 0 → Fin S1024x8x1024.rank)
  reducesTo_S1024x8x1024_S_d0_1_2 : S1024x8x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S1024x8x1024 .f32) (main_arg1 : FVec F S3072x1024 .f32) (main_arg2 : FVec F S3072 .f32) (main_arg3 : FVec F S1024x1024 .f32) (main_arg4 : FVec F S1024 .f32) : IVec S_ 1 :=
  let main_v0 : FVec F S1024x8x1024 .f32 := Host.absf main_arg0
  let main_cst : FVec F S_ .f32 := constant S_ .f32 0x7F800000#32
  let main_v1 : FVec F S1024x8x1024 .f32 := broadcastInDim S1024x8x1024 ![] bcast_S_S1024x8x1024 main_cst
  let main_v2 : IVec S1024x8x1024 1 := cmpf .olt main_v0 main_v1
  let main_c : IVec S_ 1 := constantI S_ 1 1#1
  let main_v3 : IVec S_ 1 := (fun x v => Host.reduce IntOp.andi x v reducesTo_S1024x8x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S1024x8x1024 : Shape := ⟨3, ![1024, 8, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩
abbrev S1x1024 : Shape := ⟨2, ![1, 1024]⟩
abbrev S1024x8x48x64 : Shape := ⟨4, ![1024, 8, 48, 64]⟩
abbrev S1024x8x16x64 : Shape := ⟨4, ![1024, 8, 16, 64]⟩
abbrev S8x1024x1024 : Shape := ⟨3, ![8, 1024, 1024]⟩
abbrev S1024x1x16x64 : Shape := ⟨4, ![1024, 1, 16, 64]⟩
abbrev S1x1024x1024 : Shape := ⟨3, ![1, 1024, 1024]⟩
abbrev S1024x16x64 : Shape := ⟨3, ![1024, 16, 64]⟩
abbrev S1x16x1 : Shape := ⟨3, ![1, 16, 1]⟩
abbrev S1024x64 : Shape := ⟨2, ![1024, 64]⟩
abbrev S1024x1 : Shape := ⟨2, ![1024, 1]⟩
abbrev S1024x1x64 : Shape := ⟨3, ![1024, 1, 64]⟩

abbrev nBuf : Space → Nat
  | .hbm => 19
  | .vmem => 24
  | .smem => 0
  | _ => 0

abbrev bufTy : (tb : Table) → Fin (tcTables nBuf tb) → BufTy
  | .hbm, ⟨0, _⟩ => ⟨S1024x8x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1024x3072, .f32⟩
  | .hbm, ⟨7, _⟩ => ⟨S1024x3072, .bf16⟩
  | .hbm, ⟨8, _⟩ => ⟨S1x3072, .f32⟩
  | .hbm, ⟨9, _⟩ => ⟨S8192x3072, .bf16⟩
  | .hbm, ⟨10, _⟩ => ⟨S1024x8x48x64, .bf16⟩
  | .hbm, ⟨11, _⟩ => ⟨S1024x8x16x64, .bf16⟩
  | .hbm, ⟨12, _⟩ => ⟨S8x1024x1024, .f32⟩
  | .hbm, ⟨13, _⟩ => ⟨S8192x1024, .bf16⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S8192x1024, .f32⟩
  | .hbm, ⟨18, _⟩ => ⟨S1024x8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1x16x64, .bf16⟩
  | .local _ .vmem, ⟨9, _⟩ => ⟨S1024x1x16x64, .bf16⟩
  | .local _ .vmem, ⟨10, _⟩ => ⟨S1024x1x16x64, .bf16⟩
  | .local _ .vmem, ⟨11, _⟩ => ⟨S1024x1x16x64, .bf16⟩
  | .local _ .vmem, ⟨12, _⟩ => ⟨S1024x1x16x64, .bf16⟩
  | .local _ .vmem, ⟨13, _⟩ => ⟨S1024x1x16x64, .bf16⟩
  | .local _ .vmem, ⟨14, _⟩ => ⟨S1024x1x16x64, .bf16⟩
  | .local _ .vmem, ⟨15, _⟩ => ⟨S1024x1x16x64, .bf16⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | _, _ => ⟨S1024x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, arg0.toNat, c1_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, arg0.toNat, c2_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x1x16x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1x16x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1x16x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1x16x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S1024x8x1024_S8192x1024 : S1024x8x1024.ShapeCasts S8192x1024
  transposes_S3072x1024_S1024x3072_1_0 : S3072x1024.Transposes [1, 0] S1024x3072
  bitsLt_bf16_f32 : FTy.bits .bf16 < FTy.bits .f32
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x3072_S1024x8x48x64 : S8192x3072.ShapeCasts S1024x8x48x64
  inb_S1024x1x16x64_S1024x1x16x64_0_0_0_0 : ∀ a, (![0, 0, 0, 0] : Fin 4 → Nat) a + S1024x1x16x64.size a ≤ S1024x1x16x64.size a
  h_S1024x1x16x64 : 0 < S1024x1x16x64.numel
  shapeCasts_S1024x1x16x64_S1024x16x64 : S1024x1x16x64.ShapeCasts S1024x16x64
  shapeCasts_S1024x16x64_S1024x1x16x64 : S1024x16x64.ShapeCasts S1024x1x16x64
  packedbf16_S1024x1x16x64_S1024x1x16x64_0_0_0_0 : (Rect.unit (s := S1024x1x16x64) ![0, 0, 0, 0] S1024x1x16x64.size inb_S1024x1x16x64_S1024x1x16x64_0_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  iota_S1x16x1_d1_w32 : S1x16x1.Iotas .tc 32 [1]
  natLt_1_32 : 1 < 32
  broadcasts_S1x16x1_S1024x16x64 : S1x16x1.Broadcasts S1024x16x64
  reduces_S1024x16x64_S1024x64 : S1024x16x64.Reduces [1] S1024x64
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1024x1x64 : S1024x64.ShapeCasts S1024x1x64
  broadcasts_S1024x1x64_S1024x16x64 : S1024x1x64.Broadcasts S1024x16x64
  shapeCasts_S1024x8x16x64_S8192x1024 : S1024x8x16x64.ShapeCasts S8192x1024
  transposes_S1024x1024_S1024x1024_1_0 : S1024x1024.Transposes [1, 0] S1024x1024
  shapeCasts_S1024_S1x1024 : S1024.ShapeCasts S1x1024
  shapeCasts_S8192x1024_S1024x8x1024 : S8192x1024.ShapeCasts S1024x8x1024
  dot_S1024x1024_S1024x1024_S1024x1024_1_0_0_1_n_n_wf : DotDims.WF S1024x1024 S1024x1024 S1024x1024 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x3072.size a
  hwx0_3 : ∀ i : grid0.Coords, EltTy.bits .bf16 = 32 ∨ (Rect.block (s := S8192x3072) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1x16x64.size a ≤ S1024x8x48x64.size a
  hwx1_0 : ∀ i : grid1.Coords, EltTy.bits .bf16 = 32 ∨ (Rect.block (s := S1024x8x48x64) S1024x1x16x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1x16x64.size a ≤ S1024x8x48x64.size a
  hwx1_1 : ∀ i : grid1.Coords, EltTy.bits .bf16 = 32 ∨ (Rect.block (s := S1024x8x48x64) S1024x1x16x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1x16x64.size a ≤ S1024x8x48x64.size a
  hwx1_2 : ∀ i : grid1.Coords, EltTy.bits .bf16 = 32 ∨ (Rect.block (s := S1024x8x48x64) S1024x1x16x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1x16x64.size a ≤ S1024x8x16x64.size a
  hwx1_3 : ∀ i : grid1.Coords, EltTy.bits .bf16 = 32 ∨ (Rect.block (s := S1024x8x16x64) S1024x1x16x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S8x1024x1024.size a
  hwx1_4 : ∀ i : grid1.Coords, EltTy.bits .f32 = 32 ∨ (Rect.block (s := S8x1024x1024) S1x1024x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1024x1x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S1024x1x16x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v7) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024x8x1024 : Shape := ⟨3, ![1024, 8, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x8x3072 : Shape := ⟨3, ![1024, 8, 3072]⟩
abbrev S1x1x3072 : Shape := ⟨3, ![1, 1, 3072]⟩
abbrev S_ : Shape := ⟨0, ![]⟩
abbrev S1024x128x64 : Shape := ⟨3, ![1024, 128, 64]⟩
abbrev S128x1024x64 : Shape := ⟨3, ![128, 1024, 64]⟩
abbrev S128x1024x1024 : Shape := ⟨3, ![128, 1024, 1024]⟩
abbrev S128x1024 : Shape := ⟨2, ![128, 1024]⟩
abbrev S128x1024x1 : Shape := ⟨3, ![128, 1024, 1]⟩
abbrev S1x1x1024 : Shape := ⟨3, ![1, 1, 1024]⟩
abbrev S8x16x1024x1024 : Shape := ⟨4, ![8, 16, 1024, 1024]⟩
abbrev S8x1024x1024 : Shape := ⟨3, ![8, 1024, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1024x8x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x8x3072, .f32⟩
  | .hbm, ⟨6, _⟩ => ⟨S1x1x3072, .f32⟩
  | .hbm, ⟨7, _⟩ => ⟨S1024x8x3072, .f32⟩
  | .hbm, ⟨8, _⟩ => ⟨S1024x8x3072, .f32⟩
  | .hbm, ⟨9, _⟩ => ⟨S1024x8x1024, .f32⟩
  | .hbm, ⟨10, _⟩ => ⟨S1024x8x1024, .f32⟩
  | .hbm, ⟨11, _⟩ => ⟨S1024x8x1024, .f32⟩
  | .hbm, ⟨12, _⟩ => ⟨S_, .f32⟩
  | .hbm, ⟨13, _⟩ => ⟨S1024x8x1024, .f32⟩
  | .hbm, ⟨14, _⟩ => ⟨S1024x8x1024, .f32⟩
  | .hbm, ⟨15, _⟩ => ⟨S1024x128x64, .f32⟩
  | .hbm, ⟨16, _⟩ => ⟨S128x1024x64, .f32⟩
  | .hbm, ⟨17, _⟩ => ⟨S1024x128x64, .f32⟩
  | .hbm, ⟨18, _⟩ => ⟨S128x1024x64, .f32⟩
  | .hbm, ⟨19, _⟩ => ⟨S1024x128x64, .f32⟩
  | .hbm, ⟨20, _⟩ => ⟨S128x1024x64, .f32⟩
  | .hbm, ⟨21, _⟩ => ⟨S128x1024x1024, .f32⟩
  | .hbm, ⟨22, _⟩ => ⟨S_, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024x1, .f32⟩
  | .hbm, ⟨28, _⟩ => ⟨S128x1024x1024, .f32⟩
  | .hbm, ⟨29, _⟩ => ⟨S128x1024x1024, .f32⟩
  | .hbm, ⟨30, _⟩ => ⟨S128x1024x1024, .f32⟩
  | .hbm, ⟨31, _⟩ => ⟨S_, .f32⟩
  | .hbm, ⟨32, _⟩ => ⟨S128x1024, .f32⟩
  | .hbm, ⟨33, _⟩ => ⟨S128x1024x1, .f32⟩
  | .hbm, ⟨34, _⟩ => ⟨S128x1024x1024, .f32⟩
  | .hbm, ⟨35, _⟩ => ⟨S128x1024x1024, .f32⟩
  | .hbm, ⟨36, _⟩ => ⟨S128x1024x64, .f32⟩
  | .hbm, ⟨37, _⟩ => ⟨S1024x128x64, .f32⟩
  | .hbm, ⟨38, _⟩ => ⟨S1024x8x1024, .f32⟩
  | .hbm, ⟨39, _⟩ => ⟨S1024x8x1024, .f32⟩
  | .hbm, ⟨40, _⟩ => ⟨S1x1x1024, .f32⟩
  | .hbm, ⟨41, _⟩ => ⟨S1024x8x1024, .f32⟩
  | .hbm, ⟨42, _⟩ => ⟨S1024x8x1024, .f32⟩
  | .hbm, ⟨43, _⟩ => ⟨S8x16x1024x1024, .f32⟩
  | .hbm, ⟨44, _⟩ => ⟨S_, .f32⟩
  | .hbm, ⟨45, _⟩ => ⟨S8x1024x1024, .f32⟩
  | .hbm, ⟨46, _⟩ => ⟨S_, .f32⟩
  | .hbm, ⟨47, _⟩ => ⟨S8x1024x1024, .f32⟩
  | .hbm, ⟨48, _⟩ => ⟨S8x1024x1024, .f32⟩
  | _, _ => ⟨S1024x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S1024x8x3072_0_1_2 : S1x1x3072.BroadcastsInDim S1024x8x3072 (![0, 1, 2] : Fin 3 → Fin S1024x8x3072.rank)
  slices_S1024x8x3072_S1024x8x1024_0_0_0 : S1024x8x3072.Slices ![0, 0, 0] S1024x8x1024
  slices_S1024x8x3072_S1024x8x1024_0_0_1024 : S1024x8x3072.Slices ![0, 0, 1024] S1024x8x1024
  slices_S1024x8x3072_S1024x8x1024_0_0_2048 : S1024x8x3072.Slices ![0, 0, 2048] S1024x8x1024
  bcast_S_S1024x8x1024 : S_.BroadcastsInDim S1024x8x1024 (![] : Fin 0 → Fin S1024x8x1024.rank)
  shapeCasts_S1024x8x1024_S1024x128x64 : S1024x8x1024.ShapeCasts S1024x128x64
  transposes_S1024x128x64_S128x1024x64_1_0_2 : S1024x128x64.Transposes [1, 0, 2] S128x1024x64
  reducesTo_S128x1024x1024_S128x1024_d2 : S128x1024x1024.ReducesTo [2] S128x1024
  h_S_ : 0 < S_.numel
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024x1_S128x1024x1024_0_1_2 : S128x1024x1.BroadcastsInDim S128x1024x1024 (![0, 1, 2] : Fin 3 → Fin S128x1024x1024.rank)
  transposes_S128x1024x64_S1024x128x64_1_0_2 : S128x1024x64.Transposes [1, 0, 2] S1024x128x64
  shapeCasts_S1024x128x64_S1024x8x1024 : S1024x128x64.ShapeCasts S1024x8x1024
  bcast_S1024_S1x1x1024_2 : S1024.BroadcastsInDim S1x1x1024 (![2] : Fin 1 → Fin S1x1x1024.rank)
  bcast_S1x1x1024_S1024x8x1024_0_1_2 : S1x1x1024.BroadcastsInDim S1024x8x1024 (![0, 1, 2] : Fin 3 → Fin S1024x8x1024.rank)
  shapeCasts_S128x1024x1024_S8x16x1024x1024 : S128x1024x1024.ShapeCasts S8x16x1024x1024
  reducesTo_S8x16x1024x1024_S8x1024x1024_d1 : S8x16x1024x1024.ReducesTo [1] S8x1024x1024
  bcast_S_S8x1024x1024 : S_.BroadcastsInDim S8x1024x1024 (![] : Fin 0 → Fin S8x1024x1024.rank)
  dot_S1024x8x1024_S3072x1024_S1024x8x3072_2_1_01_0_n_n_wf : DotDims.WF S1024x8x1024 S3072x1024 S1024x8x3072 [2] [1] [0, 1] [0] [] []
  dot_S128x1024x64_S128x1024x64_S128x1024x1024_2_2_1_1_0_0_wf : DotDims.WF S128x1024x64 S128x1024x64 S128x1024x1024 [2] [2] [1] [1] [0] [0]
  dot_S128x1024x1024_S128x1024x64_S128x1024x64_2_1_1_2_0_0_wf : DotDims.WF S128x1024x1024 S128x1024x64 S128x1024x64 [2] [1] [1] [2] [0] [0]
  dot_S1024x8x1024_S1024x1024_S1024x8x1024_2_1_01_0_n_n_wf : DotDims.WF S1024x8x1024 S1024x1024 S1024x8x1024 [2] [1] [0, 1] [0] [] []

variable [Facts₀]

def dot_S1024x8x1024_S3072x1024_S1024x8x3072_2_1_01_0_n_n : DotDims S1024x8x1024 S3072x1024 S1024x8x3072 where
  lhsContracting := [2]
  rhsContracting := [1]
  lhsNonContracting := [0, 1]
  rhsNonContracting := [0]
  lhsBatch := []
  rhsBatch := []
  wf := dot_S1024x8x1024_S3072x1024_S1024x8x3072_2_1_01_0_n_n_wf
def dot_S128x1024x64_S128x1024x64_S128x1024x1024_2_2_1_1_0_0 : DotDims S128x1024x64 S128x1024x64 S128x1024x1024 where
  lhsContracting := [2]
  rhsContracting := [2]
  lhsNonContracting := [1]
  rhsNonContracting := [1]
  lhsBatch := [0]
  rhsBatch := [0]
  wf := dot_S128x1024x64_S128x1024x64_S128x1024x1024_2_2_1_1_0_0_wf
def dot_S128x1024x1024_S128x1024x64_S128x1024x64_2_1_1_2_0_0 : DotDims S128x1024x1024 S128x1024x64 S128x1024x64 where
  lhsContracting := [2]
  rhsContracting := [1]
  lhsNonContracting := [1]
  rhsNonContracting := [2]
  lhsBatch := [0]
  rhsBatch := [0]
  wf := dot_S128x1024x1024_S128x1024x64_S128x1024x64_2_1_1_2_0_0_wf
def dot_S1024x8x1024_S1024x1024_S1024x8x1024_2_1_01_0_n_n : DotDims S1024x8x1024 S1024x1024 S1024x8x1024 where
  lhsContracting := [2]
  rhsContracting := [1]
  lhsNonContracting := [0, 1]
  rhsNonContracting := [0]
  lhsBatch := []
  rhsBatch := []
  wf := dot_S1024x8x1024_S1024x1024_S1024x8x1024_2_1_01_0_n_n_wf

class Facts : Prop extends Facts₀ where

variable [Facts]
-- ==== Proof.K.Body0.lean ====
/-
  Region 0: one tile of a matrix product plus a bias row.  At a grid point the body reads a block of 1024 rows of the
  left array, a block of 1024 columns of the right array and the matching piece of the bias row, and stores into the
  output's block the product of the two blocks with the bias row added to every row.  The blocks are read off the
  arrays as the region finds them (a parameter `V`); what the body leaves in the output's buffer is that one store read
  back; the input buffers are left as found.
-/
import proofs.«128804_j1632087573280_2_alg».proof.Proof.Gen.Kernel.Launch
import proofs.«128804_j1632087573280_2_alg».proof.Proof.Gen.Kernel.Skeleton
import proofs.«128804_j1632087573280_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or carried over from the point
    before (the block index has then not moved), for any proof data that reads the arrays off `V` and leaves the
    input blocks in place: window by window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block as one rectangle. -/
abbrev r0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0

/-- What the body leaves in the output's buffer: its one store, of the product-plus-bias of the three loaded blocks. -/
def out0 (x0 : Vec F S1024x1024 .f32) (x1 : Vec F S1024x1024 .bf16) (x2 : Vec F S1x1024 .f32) : Vec F S1024x1024 .bf16 :=
  View.canon [⟨r0, k0_pay1 (View.ld x0 r0) (View.ld x1 r0) (View.ld x2 rb0)⟩]

/-- The one store covers the block. -/
theorem cover0 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

set_option maxHeartbeats 1000000 in
/-- The body on whole buffers, the inputs' at contents `x0 x1 x2` and the output's at anything, runs to the
    continuation with the inputs' as they were and the output's at `out0` of them. -/
theorem sound_kernel0 (c : Dev nD) (E : Set ℕ) (i : grid0.Coords)
    (arg2 : Memref sig .tc .vmem S1024x1024 .f32) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .bf16) (harg5 : arg5.IsWhole)
    (x0 : Vec F S1024x1024 .f32) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The region's proof data on core `c`: the arrays as the region finds them; after the body each input's buffer at
    its block and the output's at `out0` of the input blocks; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Runs1.lean ====
/-
  Region 1, the attention kernel: what its three cases share.  The grid is (batch row b, head h), h the fast axis,
  128 points.  The body first clears its two output blocks when h = 0, then at every head reads the three 16-head-wide
  input blocks (queries, keys, values of batch row b), picks head h out of each, adds the head's weights into the
  second output block and the head's mixed values into column h of the first, and when h = 15 scales the second
  output block.  So a point is in one of three cases: first head, a middle head, last head.
-/
import proofs.«128804_j1632087573280_2_alg».proof.Proof.Gen.Kernel.Launch
import proofs.«128804_j1632087573280_2_alg».proof.Proof.Gen.Kernel.Skeleton
import proofs.«128804_j1632087573280_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or carried over from the point
    before (the block index has then not moved): window by window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's first condition, "this is head 0", from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The body's second condition, "this is head 15". -/
abbrev cond1_1 (i : grid1.Coords) : Prop := (Scalar.cmpi .ne (Scalar.extui (Scalar.cmpi .eq (BitVec.ofNat 32 (i 1).val) 15#32)) 0#32) = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- One buffer of each output window, through which its contents are stated (the choice does not matter). -/
abbrev VO1_3 : View sig .tc .vmem S1024x1x16x64 .bf16 := (Memref.whole cc1_stg3_0 : Memref sig .tc .vmem S1024x1x16x64 .bf16).view
abbrev VO1_4 : View sig .tc .vmem S1x1024x1024 .f32 := (Memref.whole cc1_stg4_0 : Memref sig .tc .vmem S1x1024x1024 .f32).view

/-- Each window's current buffer at point `t`, as the pipeline passes it, and its wholeness. -/
abbrev ms1_0 (t : Fin cfg1.N) : Memref sig .tc .vmem S1024x1x16x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1x16x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1x16x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1x16x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)

end Cert.Kernel.Hand

end
-- ==== Proof.K.Run1A.lean ====
/-
  Region 1, at the first head (both output blocks are cleared first): the body's run on whole buffers.  What the stores leave in the two output buffers is found by
  running the body: the lists of stored pieces are the witness.
-/
import proofs.«128804_j1632087573280_2_alg».proof.Proof.K.Runs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers at the first head (both output blocks are cleared first), with the proof that on whole buffers — the
    three inputs' at contents `x0 x1 x2`, the outputs' at anything — the body runs to the
    continuation with the inputs' as they were and each output's with its pieces written. -/
noncomputable def kernelRun1_A (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i)
    (x0 x1 x2 : Vec F S1024x1x16x64 .bf16) :
    Σ' (L3 : List (View.Piece (Elt F) S1024x1x16x64 .bf16)), { L4 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.K.Run1B.lean ====
/-
  Region 1, at a middle head (the output blocks carried over from the head before): the body's run on whole buffers.  What the stores leave in the two output buffers is found by
  running the body: the lists of stored pieces are the witness.
-/
import proofs.«128804_j1632087573280_2_alg».proof.Proof.K.Run1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers at a middle head (the output blocks carried over from the head before), with the proof that on whole buffers — the
    three inputs' at contents `x0 x1 x2`, the outputs' at what the point before left (`xo3`, `xo4`) — the body runs to the
    continuation with the inputs' as they were and each output's with its pieces written. -/
noncomputable def kernelRun1_B (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i)
    (x0 x1 x2 : Vec F S1024x1x16x64 .bf16) (xo3 : Vec F S1024x1x16x64 .bf16) (xo4 : Vec F S1x1024x1024 .f32) :
    Σ' (L3 : List (View.Piece (Elt F) S1024x1x16x64 .bf16)), { L4 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.K.Run1C.lean ====
/-
  Region 1, at the last head (the second output block is scaled at the end): the body's run on whole buffers.  What the stores leave in the two output buffers is found by
  running the body: the lists of stored pieces are the witness.
-/
import proofs.«128804_j1632087573280_2_alg».proof.Proof.K.Run1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers at the last head (the second output block is scaled at the end), with the proof that on whole buffers — the
    three inputs' at contents `x0 x1 x2`, the outputs' at what the point before left (`xo3`, `xo4`) — the body runs to the
    continuation with the inputs' as they were and each output's with its pieces written. -/
noncomputable def kernelRun1_C (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i)
    (x0 x1 x2 : Vec F S1024x1x16x64 .bf16) (xo3 : Vec F S1024x1x16x64 .bf16) (xo4 : Vec F S1x1024x1024 .f32) :
    Σ' (L3 : List (View.Piece (Elt F) S1024x1x16x64 .bf16)), { L4 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.K.Body1.lean ====
/-
  Region 1, the attention kernel: what the two output blocks hold after each point, the proof data, and the body
  obligation.  The output blocks stay in their buffers across the sixteen heads of a batch row and are written back
  after the last, so what a point finds in them is what the point before left, except at head 0, which clears them.
-/
import proofs.«128804_j1632087573280_2_alg».proof.Proof.K.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for the first output tile its block, so they cover it. -/
theorem cover1_A_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i)
    (x0 x1 x2 : Vec F S1024x1x16x64 .bf16) (y : S1024x1x16x64.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S1024x1x16x64.size (by sl_kernel_rfl) y
/-- What case A leaves in the first output's buffer: its pieces read back. -/
def out1_A_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i)
    (x0 x1 x2 : Vec F S1024x1x16x64 .bf16) : Vec F S1024x1x16x64 .bf16 :=
  VO1_3.read (Elt F) (VO1_3.writes (Elt F) VO1_3.junk (kernelRun1_A c i arg2 harg2 arg3 harg3 arg4 harg4 arg5 harg5 arg6 harg6 hc0 hc1 x0 x1 x2).1)
/-- Case A's pieces for the second output tile its block, so they cover it. -/
theorem cover1_A_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i)
    (x0 x1 x2 : Vec F S1024x1x16x64 .bf16) (y : S1x1024x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1024x1024.size (by sl_kernel_rfl) y
/-- What case A leaves in the second output's buffer: its pieces read back. -/
def out1_A_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i)
    (x0 x1 x2 : Vec F S1024x1x16x64 .bf16) : Vec F S1x1024x1024 .f32 :=
  VO1_4.read (Elt F) (VO1_4.writes (Elt F) VO1_4.junk (kernelRun1_A c i arg2 harg2 arg3 harg3 arg4 harg4 arg5 harg5 arg6 harg6 hc0 hc1 x0 x1 x2).2.1)

/-- Case B's pieces for the first output tile its block, so they cover it. -/
theorem cover1_B_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i)
    (x0 x1 x2 : Vec F S1024x1x16x64 .bf16) (xo3 : Vec F S1024x1x16x64 .bf16) (xo4 : Vec F S1x1024x1024 .f32) (y : S1024x1x16x64.Idx) :
    ∃ pc ∈ (kernelRun1_B c i arg2 harg2 arg3 harg3 arg4 harg4 arg5 harg5 arg6 harg6 hc0 hc1 x0 x1 x2 xo3 xo4).1, y ∈ pc.1.set :=
  View.cover_of_tiledL (kernelRun1_B c i arg2 harg2 arg3 harg3 arg4 harg4 arg5 harg5 arg6 harg6 hc0 hc1 x0 x1 x2 xo3 xo4).1 S1024x1x16x64.size (by sl_kernel_rfl) y
/-- What case B leaves in the first output's buffer: its pieces read back. -/
def out1_B_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i)
    (x0 x1 x2 : Vec F S1024x1x16x64 .bf16) (xo3 : Vec F S1024x1x16x64 .bf16) (xo4 : Vec F S1x1024x1024 .f32) : Vec F S1024x1x16x64 .bf16 :=
  VO1_3.read (Elt F) (VO1_3.writes (Elt F) VO1_3.junk (kernelRun1_B c i arg2 harg2 arg3 harg3 arg4 harg4 arg5 harg5 arg6 harg6 hc0 hc1 x0 x1 x2 xo3 xo4).1)
/-- Case B's pieces for the second output tile its block, so they cover it. -/
theorem cover1_B_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i)
    (x0 x1 x2 : Vec F S1024x1x16x64 .bf16) (xo3 : Vec F S1024x1x16x64 .bf16) (xo4 : Vec F S1x1024x1024 .f32) (y : S1x1024x1024.Idx) :
    ∃ pc ∈ (kernelRun1_B c i arg2 harg2 arg3 harg3 arg4 harg4 arg5 harg5 arg6 harg6 hc0 hc1 x0 x1 x2 xo3 xo4).2.1, y ∈ pc.1.set :=
  View.cover_of_tiledL (kernelRun1_B c i arg2 harg2 arg3 harg3 arg4 harg4 arg5 harg5 arg6 harg6 hc0 hc1 x0 x1 x2 xo3 xo4).2.1 S1x1024x1024.size (by sl_kernel_rfl) y
/-- What case B leaves in the second output's buffer: its pieces read back. -/
def out1_B_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i)
    (x0 x1 x2 : Vec F S1024x1x16x64 .bf16) (xo3 : Vec F S1024x1x16x64 .bf16) (xo4 : Vec F S1x1024x1024 .f32) : Vec F S1x1024x1024 .f32 :=
  VO1_4.read (Elt F) (VO1_4.writes (Elt F) VO1_4.junk (kernelRun1_B c i arg2 harg2 arg3 harg3 arg4 harg4 arg5 harg5 arg6 harg6 hc0 hc1 x0 x1 x2 xo3 xo4).2.1)

/-- Case C's pieces for the first output tile its block, so they cover it. -/
theorem cover1_C_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i)
    (x0 x1 x2 : Vec F S1024x1x16x64 .bf16) (xo3 : Vec F S1024x1x16x64 .bf16) (xo4 : Vec F S1x1024x1024 .f32) (y : S1024x1x16x64.Idx) :
    ∃ pc ∈ (kernelRun1_C c i arg2 harg2 arg3 harg3 arg4 harg4 arg5 harg5 arg6 harg6 hc0 hc1 x0 x1 x2 xo3 xo4).1, y ∈ pc.1.set :=
  View.cover_of_tiledL (kernelRun1_C c i arg2 harg2 arg3 harg3 arg4 harg4 arg5 harg5 arg6 harg6 hc0 hc1 x0 x1 x2 xo3 xo4).1 S1024x1x16x64.size (by sl_kernel_rfl) y
/-- What case C leaves in the first output's buffer: its pieces read back. -/
def out1_C_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i)
    (x0 x1 x2 : Vec F S1024x1x16x64 .bf16) (xo3 : Vec F S1024x1x16x64 .bf16) (xo4 : Vec F S1x1024x1024 .f32) : Vec F S1024x1x16x64 .bf16 :=
  VO1_3.read (Elt F) (VO1_3.writes (Elt F) VO1_3.junk (kernelRun1_C c i arg2 harg2 arg3 harg3 arg4 harg4 arg5 harg5 arg6 harg6 hc0 hc1 x0 x1 x2 xo3 xo4).1)
/-- Case C's pieces for the second output tile its block, so they cover it. -/
theorem cover1_C_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i)
    (x0 x1 x2 : Vec F S1024x1x16x64 .bf16) (xo3 : Vec F S1024x1x16x64 .bf16) (xo4 : Vec F S1x1024x1024 .f32) (y : S1x1024x1024.Idx) :
    ∃ pc ∈ (kernelRun1_C c i arg2 harg2 arg3 harg3 arg4 harg4 arg5 harg5 arg6 harg6 hc0 hc1 x0 x1 x2 xo3 xo4).2.1, y ∈ pc.1.set :=
  View.cover_of_tiledL (kernelRun1_C c i arg2 harg2 arg3 harg3 arg4 harg4 arg5 harg5 arg6 harg6 hc0 hc1 x0 x1 x2 xo3 xo4).2.1 S1x1024x1024.size (by sl_kernel_rfl) y
/-- What case C leaves in the second output's buffer: its pieces read back. -/
def out1_C_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i)
    (x0 x1 x2 : Vec F S1024x1x16x64 .bf16) (xo3 : Vec F S1024x1x16x64 .bf16) (xo4 : Vec F S1x1024x1024 .f32) : Vec F S1x1024x1024 .f32 :=
  VO1_4.read (Elt F) (VO1_4.writes (Elt F) VO1_4.junk (kernelRun1_C c i arg2 harg2 arg3 harg3 arg4 harg4 arg5 harg5 arg6 harg6 hc0 hc1 x0 x1 x2 xo3 xo4).2.1)

/-! ## What the outputs hold after each point -/

/-- The accumulation: what the two output buffers hold after the body at position `n` — the case the position is in,
    run at the point's buffers and input blocks, the outputs found at what the position before left. -/
def outsAt1 (c : Dev nD) : (n : ℕ) → n < cfg1.N → Vec F S1024x1x16x64 .bf16 × Vec F S1x1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (fun h => absurd ((hcond1_1 ⟨0, hn⟩).mp h) (by show ¬ (0 % 16 = 15); omega)) (iblk1 V c 0 ⟨0, hn⟩) (iblk1 V c 1 ⟨0, hn⟩) (iblk1 V c 2 ⟨0, hn⟩),
      out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (fun h => absurd ((hcond1_1 ⟨0, hn⟩).mp h) (by show ¬ (0 % 16 = 15); omega)) (iblk1 V c 0 ⟨0, hn⟩) (iblk1 V c 1 ⟨0, hn⟩) (iblk1 V c 2 ⟨0, hn⟩))
  | n + 1, hn =>
    if h0 : (n + 1) % 16 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (fun h => absurd ((hcond1_1 ⟨n + 1, hn⟩).mp h) (by dsimp only; omega)) (iblk1 V c 0 ⟨n + 1, hn⟩) (iblk1 V c 1 ⟨n + 1, hn⟩) (iblk1 V c 2 ⟨n + 1, hn⟩),
        out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (fun h => absurd ((hcond1_1 ⟨n + 1, hn⟩).mp h) (by dsimp only; omega)) (iblk1 V c 0 ⟨n + 1, hn⟩) (iblk1 V c 1 ⟨n + 1, hn⟩) (iblk1 V c 2 ⟨n + 1, hn⟩))
    else if h1 : (n + 1) % 16 = 15 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2,
        out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2,
        out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

/-- At a first-head point: case A's contents. -/
theorem outsAt1_A (c : Dev nD) (t : Fin cfg1.N) (h0 : t.val % 16 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (fun h => absurd ((hcond1_1 t).mp h) (by omega)) (iblk1 V c 0 t) (iblk1 V c 1 t) (iblk1 V c 2 t),
      out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (fun h => absurd ((hcond1_1 t).mp h) (by omega)) (iblk1 V c 0 t) (iblk1 V c 1 t) (iblk1 V c 2 t)) := by
  obtain ⟨n, hn⟩ := t
  cases n with
  | zero => exact rfl
  | succ n => exact (dif_pos h0).trans rfl

/-- At a last-head point: case C's contents, over what the point before left. -/
theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2,
      out1_C_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- At a middle-head point: case B's contents, over what the point before left. -/
theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2,
      out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-! ## The proof data -/

/-- The region's proof data on core `c`: the arrays as the region finds them; after the body each input's buffer at
    its block and the two outputs' at the accumulation; the three input windows read ONE array, so each holds a third
    share of it; the invariant the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Past head 0 the first output's buffer holds what the body left at the point before: it was not written back
    in between. -/
theorem before1_3_K (c : Dev nD) (t : Fin cfg1.N) (h0 : ¬t.val % 16 = 0) (d) :
    (dat1 V c).before 3 t d = (outsAt1 V c (t.val - 1) (Nat.lt_of_le_of_lt (Nat.sub_le _ _) t.isLt)).1 := by
  have hN : t.val < 128 := lt_of_lt_of_eq t.isLt (show cfg1.N = 128 from N_1)
  rw [Dat.before_out_kept _ 3 rfl t (by omega) (Bool.eq_false_iff.mpr fun h => by have := (flush1_3 _).mp h; dsimp only at this; omega)
    (fun _ => rfl) (fun _ _ => rfl)]
  dsimp only [dat1]
/-- The same for the second output. -/
theorem before1_4_K (c : Dev nD) (t : Fin cfg1.N) (h0 : ¬t.val % 16 = 0) (d) :
    (dat1 V c).before 4 t d = (outsAt1 V c (t.val - 1) (Nat.lt_of_le_of_lt (Nat.sub_le _ _) t.isLt)).2 := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' buffers hold their blocks; the point's position says which case it is in; past
    head 0 the outputs' buffers hold what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 128 := lt_of_lt_of_eq t.isLt (show cfg1.N = 128 from N_1)
  by_cases h0 : t.val % 16 = 0
  · rw [outsAt1_A V c t h0]
    dsimp only
    unfold out1_A_3 out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (fun h => absurd ((hcond1_1 t).mp h) (by omega)) (iblk1 V c 0 t) (iblk1 V c 1 t) (iblk1 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _)
    · unfold owns; iexists _; isplitr
      swap; · iexact H4
      ipureintro; exact View.read_writes_of_cover _ _ _ _ _ (cover1_A_4 c _ _ _ _ _ _ _ _ _ _ _ _ _ _ _ _)
  · simp only [before1_3_K V c t h0, before1_4_K V c t h0]
    by_cases h1 : t.val % 16 = 15
    · rw [outsAt1_C V c t h0 h1]
      dsimp only
      unfold out1_C_3 out1_C_4
      iintro ⟨HΦ, Ho, ⟨%d0, H0⟩, ⟨%d1, H1⟩, ⟨%d2, H2⟩, ⟨%d3, H3⟩, ⟨%d4, H4⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _ _).2.2 Set.univ _)
      isplitl [H0]; · iexact H0
      isplitl [H1]; · iexact H1
      isplitl [H2]; · iexact H2
      isplitl [H3]; · iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _)
      · unfold owns; iexists _; isplitr
        swap; · iexact H4
        ipureintro; exact View.read_writes_of_cover _ _ _ _ _ (cover1_C_4 c _ _ _ _ _ _ _ _ _ _ _ _ _ _ _ _ _ _)
    · rw [outsAt1_B V c t h0 h1]
      dsimp only
      unfold out1_B_3 out1_B_4
      iintro ⟨HΦ, Ho, ⟨%d0, H0⟩, ⟨%d1, H1⟩, ⟨%d2, H2⟩, ⟨%d3, H3⟩, ⟨%d4, H4⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _ _).2.2 Set.univ _)
      isplitl [H0]; · iexact H0
      isplitl [H1]; · iexact H1
      isplitl [H2]; · iexact H2
      isplitl [H3]; · iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _)
      · unfold owns; iexists _; isplitr
        swap; · iexact H4
        ipureintro; exact View.read_writes_of_cover _ _ _ _ _ (cover1_B_4 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Shared1.lean ====
/-
  Region 1 reads ONE array through three input windows.  The array's whole buffer, held at the full share, is dealt
  to the three windows a third each (left half; left half of the right half; the rest), and the thirds, which still
  hold the entry contents after the last point, join again to the whole; the two output arrays are held whole.
-/
import proofs.«128804_j1632087573280_2_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's five windows' arrays: three. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6_0) ↦{fullShare} V main_v6_0) ∗ (((c : Thread nD τ).loc main_v6_1) ↦{fullShare} V main_v6_1)) := by
  unfold Pipeline.arrBufs
  exact Idealize.SL.BI.bigSep_eq_bigSepL_of_eq [main_v5, main_v6_0, main_v6_1] (by decide) (by decide) _

/-- The windows' arrays one by one, each at its window's share. -/
theorem arrays1_chain {c : Dev nD} (dat : Dat τ (Elt F) Unit ℕ (UR sig nD τ) ℕ cfg1 c)
    (Fa : (w : Fin cfg1.W) → Buf (Elt F) ((cfg1.win w).arr.view.loc (c : Thread nD τ))) :
    (dat.arrays Fa : sProp 𝕄)
      = iprop((((c : Thread nD τ).loc main_v5) ↦{dat.q 0} Fa 0) ∗ (((c : Thread nD τ).loc main_v5) ↦{dat.q 1} Fa 1) ∗ (((c : Thread nD τ).loc main_v5) ↦{dat.q 2} Fa 2)
          ∗ (((c : Thread nD τ).loc main_v6_0) ↦{fullShare} Fa 3) ∗ (((c : Thread nD τ).loc main_v6_1) ↦{fullShare} Fa 4)) := by
  unfold Dat.arrays
  rw [bigSep_W1]
  rw [(arr_whole1 0).set_eq_univ, (arr_whole1 3).set_eq_univ, (arr_whole1 4).set_eq_univ]
  rfl

/-- ENTRY: the three buffers whole at the entry contents make the windows' holdings before the first point. -/
theorem hsplit1 (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq, arrays1_chain]
  rw [show (dat1 V c).q 0 = fullShare.left from rfl, show (dat1 V c).q 1 = fullShare.right.left from rfl, show (dat1 V c).q 2 = fullShare.right.right from rfl,
    show (dat1 V c).arrAt 0 0 = V c main_v5 from rfl, show (dat1 V c).arrAt 1 0 = V c main_v5 from rfl, show (dat1 V c).arrAt 2 0 = V c main_v5 from rfl,
    show (dat1 V c).arrAt 3 0 = V c main_v6_0 from rfl, show (dat1 V c).arrAt 4 0 = V c main_v6_1 from rfl]
  iintro ⟨H5, H60, H61⟩
  ihave H5' := (pointsTo_share (PosShare.mem_left_op_right fullShare)).1 $$ H5
  icases H5' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  isplitl [H60]; · iexact H60
  iexact H61

/-- EXIT: the windows' holdings after the last point are the three buffers whole at any contents `V'` that has the
    shared input array as entered and the two output arrays at what the pipeline leaves. -/
theorem hjoin1 (c : Dev nD) (V' : (b : Ref sig .tc) → Buf (Elt F) ((c : Thread nD τ).loc b))
    (h5 : V' main_v5 = V c main_v5) (h60 : V' main_v6_0 = (dat1 V c).arrAt 3 cfg1.N) (h61 : V' main_v6_1 = (dat1 V c).arrAt 4 cfg1.N) :
    (dat1 V c).arrays ((dat1 V c).arrAt · cfg1.N) ⊢ (Pipeline.arrBufs (Ix := Unit) (Name := ℕ) (U := UR sig nD τ) (Lvl := ℕ) spec1 c V' : sProp 𝕄) := by
  rw [arrBufs1_eq, arrays1_chain, h5, h60, h61]
  rw [show (dat1 V c).q 0 = fullShare.left from rfl, show (dat1 V c).q 1 = fullShare.right.left from rfl, show (dat1 V c).q 2 = fullShare.right.right from rfl,
    ((dat1 V c).arrAt_in 0 rfl _).trans (A_eq1 V c 0), ((dat1 V c).arrAt_in 1 rfl _).trans (A_eq1 V c 1), ((dat1 V c).arrAt_in 2 rfl _).trans (A_eq1 V c 2)]
  iintro ⟨Hl, Hrl, Hrr, H60, H61⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  isplitl [H60]; · iexact H60
  iexact H61

end Cert.Kernel.Hand

end
-- ==== Proof.K.Body2.lean ====
/-
  Region 2: one tile of a matrix product plus a bias row.  At a grid point the body reads a block of 1024 rows of the
  left array, a block of 1024 columns of the right array and the matching piece of the bias row, and stores into the
  output's block the product of the two blocks with the bias row added to every row.  The blocks are read off the
  arrays as the region finds them (a parameter `V`); what the body leaves in the output's buffer is that one store read
  back; the input buffers are left as found.
-/
import proofs.«128804_j1632087573280_2_alg».proof.Proof.Gen.Kernel.Launch
import proofs.«128804_j1632087573280_2_alg».proof.Proof.Gen.Kernel.Skeleton
import proofs.«128804_j1632087573280_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or carried over from the point
    before (the block index has then not moved), for any proof data that reads the arrays off `V` and leaves the
    input blocks in place: window by window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole output block as one rectangle. -/
abbrev r2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0

/-- What the body leaves in the output's buffer: its one store, of the product-plus-bias of the three loaded blocks. -/
def out2 (x0 : Vec F S1024x1024 .bf16) (x1 : Vec F S1024x1024 .bf16) (x2 : Vec F S1x1024 .f32) : Vec F S1024x1024 .f32 :=
  View.canon [⟨r2, k2_pay1 (View.ld x0 r2) (View.ld x1 r2) (View.ld x2 rb2)⟩]

/-- The one store covers the block. -/
theorem cover2 (p0 : Vec F S1024x1024 .f32) (y : S1024x1024.Idx) :
    ∃ pc ∈ ([⟨r2, p0⟩] : List (View.Piece (Elt F) S1024x1024 .f32)), y ∈ pc.1.set :=
  View.cover_of_tiled [⟨r2, p0⟩] S1024x1024.size (by rfl) y

set_option maxHeartbeats 1000000 in
/-- The body on whole buffers, the inputs' at contents `x0 x1 x2` and the output's at anything, runs to the
    continuation with the inputs' as they were and the output's at `out2` of them. -/
theorem sound_kernel2 (c : Dev nD) (E : Set ℕ) (i : grid2.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (x0 : Vec F S1024x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The region's proof data on core `c`: the arrays as the region finds them; after the body each input's buffer at
    its block and the output's at `out2` of the input blocks; the invariant the scoped rest and the generator
    register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the kernel's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Main.lean ====
/-
  The whole run: @main is four stretches of host lines around three kernel regions.  The contents of every unscoped
  buffer at each of the eight boundaries are a fold from the launch memory: a host stretch applies its lines, a region
  replaces its output arrays by what its write-backs leave and keeps every other buffer.  Every weakly fair
  execution terminates with every unscoped buffer at the last boundary's contents; in particular the five argument
  arrays end as launched.
-/
import proofs.«128804_j1632087573280_2_alg».proof.Proof.K.Body0
import proofs.«128804_j1632087573280_2_alg».proof.Proof.K.Shared1
import proofs.«128804_j1632087573280_2_alg».proof.Proof.K.Body2
import proofs.«128804_j1632087573280_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first host stretch (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves (the inputs as entered, the output's write-backs folded),
    every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its two output arrays at what the pipeline leaves, every other buffer (the shared input array
    among them) as entered. -/
def B4 (c : Dev nD) : Valuation τ sig (Elt F) :=
  Function.update (Function.update (B3 m ρ c) (Proc.devRef .tc main_v6_0) ((dat1 (E3 m ρ) c).arrAt 3 cfg1.N))
    (Proc.devRef .tc main_v6_1) ((dat1 (E3 m ρ) c).arrAt 4 cfg1.N)
theorem B4_v6_0 (c : Dev nD) : B4 m ρ c (Proc.devRef .tc main_v6_0) = (dat1 (E3 m ρ) c).arrAt 3 cfg1.N := by
  unfold B4
  rw [Function.update_of_ne (StableHlo.devRef_ne_of_ne (by decide) : (Proc.devRef .tc main_v6_0 : DevRef τ sig) ≠ Proc.devRef .tc main_v6_1), Function.update_self]
theorem B4_v6_1 (c : Dev nD) : B4 m ρ c (Proc.devRef .tc main_v6_1) = (dat1 (E3 m ρ) c).arrAt 4 cfg1.N := by
  unfold B4; rw [Function.update_self]
theorem B4_of_ne (c : Dev nD) (b : Ref sig .tc) (h0 : b ≠ main_v6_0) (h1 : b ≠ main_v6_1) :
    B4 m ρ c (Proc.devRef .tc b) = B3 m ρ c (Proc.devRef .tc b) := by
  unfold B4
  rw [Function.update_of_ne (StableHlo.devRef_ne_of_ne h1 : (Proc.devRef .tc b : DevRef τ sig) ≠ Proc.devRef .tc main_v6_1),
    Function.update_of_ne (StableHlo.devRef_ne_of_ne h0 : (Proc.devRef .tc b : DevRef τ sig) ≠ Proc.devRef .tc main_v6_0)]
abbrev E4 : (c : Dev nD) → (b : Ref sig .tc) → Buf (Elt F) ((c : Thread nD τ).loc b) := fun c b => B4 m ρ c b
/-- After the third host stretch (region 2's entry). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit: its arrays at what the pipeline leaves (the inputs as entered, the output's write-backs folded),
    every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After the last host stretch: the end. -/
abbrev B7 : Dev nD → Valuation τ sig (Elt F) := fun c => StableHlo.after hostOps3 (B6 m ρ c)

/-! ### The arguments end as launched -/

/-- `main_arg0` reaches the end as launched: no host line writes it, no region may change it. -/
theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (r := main_arg0) (by decide)
    _ = B5 m ρ c (Proc.devRef .tc main_arg0) := B6_of_ne m ρ c main_arg0 (by decide)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide) (by decide)
    _ = B2 m ρ c (Proc.devRef .tc main_arg0) := StableHlo.after_of_writes_sub hostOps1 _ hostOps1_writes (r := main_arg0) (by decide)
    _ = B1 m ρ c (Proc.devRef .tc main_arg0) := B2_of_ne m ρ c main_arg0 (by decide)
    _ = B0 m ρ c (Proc.devRef .tc main_arg0) := StableHlo.after_of_writes_sub hostOps0 _ hostOps0_writes (r := main_arg0) (by decide)
    _ = m ((c : Thread nD τ).loc main_arg0) := rfl

/-- `main_arg1` reaches the end as launched: no host line writes it, no region may change it. -/
theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (r := main_arg1) (by decide)
    _ = B5 m ρ c (Proc.devRef .tc main_arg1) := B6_of_ne m ρ c main_arg1 (by decide)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide) (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl

/-- `main_arg2` reaches the end as launched: no host line writes it, no region may change it. -/
theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (r := main_arg2) (by decide)
    _ = B5 m ρ c (Proc.devRef .tc main_arg2) := B6_of_ne m ρ c main_arg2 (by decide)
    _ = B4 m ρ c (Proc.devRef .tc main_arg2) := StableHlo.after_of_writes_sub hostOps2 _ hostOps2_writes (r := main_arg2) (by decide)
    _ = B3 m ρ c (Proc.devRef .tc main_arg2) := B4_of_ne m ρ c main_arg2 (by decide) (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl

/-- `main_arg3` reaches the end as launched: no host line writes it, no region may change it. -/
theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (r := main_arg3) (by decide)
    _ = B5 m ρ c (Proc.devRef .tc main_arg3) := B6_of_ne m ρ c main_arg3 (by decide)
    _ = B4 m ρ c (Proc.devRef .tc main_arg3) := StableHlo.after_of_writes_sub hostOps2 _ hostOps2_writes (r := main_arg3) (by decide)
    _ = B3 m ρ c (Proc.devRef .tc main_arg3) := B4_of_ne m ρ c main_arg3 (by decide) (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

/-- `main_arg4` reaches the end as launched: no host line writes it, no region may change it. -/
theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := StableHlo.after_of_writes_sub hostOps3 _ hostOps3_writes (r := main_arg4) (by decide)
    _ = B5 m ρ c (Proc.devRef .tc main_arg4) := B6_of_ne m ρ c main_arg4 (by decide)
    _ = B4 m ρ c (Proc.devRef .tc main_arg4) := StableHlo.after_of_writes_sub hostOps2 _ hostOps2_writes (r := main_arg4) (by decide)
    _ = B3 m ρ c (Proc.devRef .tc main_arg4) := B4_of_ne m ρ c main_arg4 (by decide) (by decide)
    _ = B2 m ρ c (Proc.devRef .tc main_arg4) := StableHlo.after_of_writes_sub hostOps1 _ hostOps1_writes (r := main_arg4) (by decide)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
    _ = m ((c : Thread nD τ).loc main_arg4) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B7 m ρ c) ∗ ∃ r, prngReg c r)

/-! ## The regions as segments -/

set_option backward.isDefEq.respectTransparency.types false in
/-- Region 0 over the thread state: entered from every unscoped buffer at `B1`, left at `B2`.  Its arrays are
    split out of the unscoped buffers and put back at the exit contents; the generator register goes into the
    invariant and comes out; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's entry: every unscoped buffer at `B3` is the three buffers behind its windows' arrays, dealt to the
    windows, and the rest. -/
theorem entry1 (c : Dev nD) :
    (StableHlo.held (c : Thread nD τ) (Pipeline.ucRefs τ sig) (B3 m ρ c) : sProp 𝕄)
      ⊢ iprop((dat1 (E3 m ρ) c).arrays ((dat1 (E3 m ρ) c).arrAt · 0)
          ∗ Pipeline.unscopedRest (Ix := Unit) (Name := ℕ) (U := UR sig nD τ) (Lvl := ℕ) spec1 c (E3 m ρ c)) := by
  rw [← Pipeline.unscopedBufs_held (Ix := Unit) (Name := ℕ) (U := UR sig nD τ) (Lvl := ℕ) c (B3 m ρ c),
    Pipeline.unscopedBufs_split₀ cfgs 1 winFacts₀1.arr_unscoped c (Ix := Unit) (Name := ℕ) (U := UR sig nD τ) (Lvl := ℕ) (E3 m ρ c)]
  exact sep_mono (hsplit1 (E3 m ρ) c) .rfl

/-- Region 1's exit: the windows' holdings after the last point and the rest are every unscoped buffer at `B4`. -/
theorem exit1 (c : Dev nD) :
    iprop((dat1 (E3 m ρ) c).arrays ((dat1 (E3 m ρ) c).arrAt · cfg1.N)
        ∗ Pipeline.unscopedRest (Ix := Unit) (Name := ℕ) (U := UR sig nD τ) (Lvl := ℕ) spec1 c (E3 m ρ c))
      ⊢ (StableHlo.held (c : Thread nD τ) (Pipeline.ucRefs τ sig) (B4 m ρ c) : sProp 𝕄) := by
  rw [← Pipeline.unscopedBufs_held (Ix := Unit) (Name := ℕ) (U := UR sig nD τ) (Lvl := ℕ) c (B4 m ρ c),
    Pipeline.unscopedBufs_split₀ cfgs 1 winFacts₀1.arr_unscoped c (Ix := Unit) (Name := ℕ) (U := UR sig nD τ) (Lvl := ℕ) (E4 m ρ c)]
  refine sep_mono (hjoin1 (E3 m ρ) c (E4 m ρ c) (B4_of_ne m ρ c main_v5 (by decide) (by decide)) (B4_v6_0 m ρ c) (B4_v6_1 m ρ c)) (Entails.of_eq ?_)
  unfold Pipeline.unscopedRest
  exact bigSep_congr fun b hb => by
    have hb' := (Finset.mem_sdiff.mp hb).2
    rw [show E4 m ρ c b = E3 m ρ c b from B4_of_ne m ρ c b
      (fun e => hb' (Finset.mem_image.mpr ⟨3, Finset.mem_univ _, e.symm⟩)) (fun e => hb' (Finset.mem_image.mpr ⟨4, Finset.mem_univ _, e.symm⟩))]

set_option backward.isDefEq.respectTransparency.types false in
/-- Region 1 over the thread state: entered from every unscoped buffer at `B3`, left at `B4`; its three input windows
    share one array (`entry1`, `exit1`). -/
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`.  Its arrays are
    split out of the unscoped buffers and put back at the exit contents; the generator register goes into the
    invariant and comes out; nothing is owed; the kernel has no semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) admH (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (B7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h => h)

/-- THE FRAME: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c)⟩) (run_all m ρ)

end Cert.Kernel.Hand

end
-- ==== Proof.KI.Body0.lean ====
/-
  Region 0: one tile of a matrix product plus a bias row.  At a grid point the body reads a block of 1024 rows of the
  left array, a block of 1024 columns of the right array and the matching piece of the bias row, and stores into the
  output's block the product of the two blocks with the bias row added to every row.  The blocks are read off the
  arrays as the region finds them (a parameter `V`); what the body leaves in the output's buffer is that one store read
  back; the input buffers are left as found.
-/
import proofs.«128804_j1632087573280_2_alg».proof.Proof.Gen.KernelIdeal.Launch
import proofs.«128804_j1632087573280_2_alg».proof.Proof.Gen.KernelIdeal.Skeleton
import proofs.«128804_j1632087573280_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or carried over from the point
    before (the block index has then not moved), for any proof data that reads the arrays off `V` and leaves the
    input blocks in place: window by window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block as one rectangle. -/
abbrev r0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0

/-- What the body leaves in the output's buffer: its one store, of the product-plus-bias of the three loaded blocks. -/
def out0 (x0 : Vec F S1024x1024 .f32) (x1 : Vec F S1024x1024 .bf16) (x2 : Vec F S1x1024 .f32) : Vec F S1024x1024 .bf16 :=
  View.canon [⟨r0, k0_pay1 (View.ld x0 r0) (View.ld x1 r0) (View.ld x2 rb0)⟩]

/-- The one store covers the block. -/
theorem cover0 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

set_option maxHeartbeats 1000000 in
/-- The body on whole buffers, the inputs' at contents `x0 x1 x2` and the output's at anything, runs to the
    continuation with the inputs' as they were and the output's at `out0` of them. -/
theorem sound_kernel0 (c : Dev nD) (E : Set ℕ) (i : grid0.Coords)
    (arg2 : Memref sig .tc .vmem S1024x1024 .f32) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .bf16) (harg5 : arg5.IsWhole)
    (x0 : Vec F S1024x1024 .f32) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The region's proof data on core `c`: the arrays as the region finds them; after the body each input's buffer at
    its block and the output's at `out0` of the input blocks; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Runs1.lean ====
/-
  Region 1, the attention kernel: what its three cases share.  The grid is (batch row b, head h), h the fast axis,
  128 points.  The body first clears its two output blocks when h = 0, then at every head reads the three 16-head-wide
  input blocks (queries, keys, values of batch row b), picks head h out of each, adds the head's weights into the
  second output block and the head's mixed values into column h of the first, and when h = 15 scales the second
  output block.  So a point is in one of three cases: first head, a middle head, last head.
-/
import proofs.«128804_j1632087573280_2_alg».proof.Proof.Gen.KernelIdeal.Launch
import proofs.«128804_j1632087573280_2_alg».proof.Proof.Gen.KernelIdeal.Skeleton
import proofs.«128804_j1632087573280_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or carried over from the point
    before (the block index has then not moved): window by window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's first condition, "this is head 0", from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The body's second condition, "this is head 15". -/
abbrev cond1_1 (i : grid1.Coords) : Prop := (Scalar.cmpi .ne (Scalar.extui (Scalar.cmpi .eq (BitVec.ofNat 32 (i 1).val) 15#32)) 0#32) = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- One buffer of each output window, through which its contents are stated (the choice does not matter). -/
abbrev VO1_3 : View sig .tc .vmem S1024x1x16x64 .bf16 := (Memref.whole cc1_stg3_0 : Memref sig .tc .vmem S1024x1x16x64 .bf16).view
abbrev VO1_4 : View sig .tc .vmem S1x1024x1024 .f32 := (Memref.whole cc1_stg4_0 : Memref sig .tc .vmem S1x1024x1024 .f32).view

/-- Each window's current buffer at point `t`, as the pipeline passes it, and its wholeness. -/
abbrev ms1_0 (t : Fin cfg1.N) : Memref sig .tc .vmem S1024x1x16x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1x16x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1x16x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1x16x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)

end Cert.KernelIdeal.Hand

end
-- ==== Proof.KI.Run1A.lean ====
/-
  Region 1, at the first head (both output blocks are cleared first): the body's run on whole buffers.  What the stores leave in the two output buffers is found by
  running the body: the lists of stored pieces are the witness.
-/
import proofs.«128804_j1632087573280_2_alg».proof.Proof.KI.Runs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers at the first head (both output blocks are cleared first), with the proof that on whole buffers — the
    three inputs' at contents `x0 x1 x2`, the outputs' at anything — the body runs to the
    continuation with the inputs' as they were and each output's with its pieces written. -/
noncomputable def kernelRun1_A (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i)
    (x0 x1 x2 : Vec F S1024x1x16x64 .bf16) :
    Σ' (L3 : List (View.Piece (Elt F) S1024x1x16x64 .bf16)), { L4 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.Run1B.lean ====
/-
  Region 1, at a middle head (the output blocks carried over from the head before): the body's run on whole buffers.  What the stores leave in the two output buffers is found by
  running the body: the lists of stored pieces are the witness.
-/
import proofs.«128804_j1632087573280_2_alg».proof.Proof.KI.Run1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers at a middle head (the output blocks carried over from the head before), with the proof that on whole buffers — the
    three inputs' at contents `x0 x1 x2`, the outputs' at what the point before left (`xo3`, `xo4`) — the body runs to the
    continuation with the inputs' as they were and each output's with its pieces written. -/
noncomputable def kernelRun1_B (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i)
    (x0 x1 x2 : Vec F S1024x1x16x64 .bf16) (xo3 : Vec F S1024x1x16x64 .bf16) (xo4 : Vec F S1x1024x1024 .f32) :
    Σ' (L3 : List (View.Piece (Elt F) S1024x1x16x64 .bf16)), { L4 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.Run1C.lean ====
/-
  Region 1, at the last head (the second output block is scaled at the end): the body's run on whole buffers.  What the stores leave in the two output buffers is found by
  running the body: the lists of stored pieces are the witness.
-/
import proofs.«128804_j1632087573280_2_alg».proof.Proof.KI.Run1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers at the last head (the second output block is scaled at the end), with the proof that on whole buffers — the
    three inputs' at contents `x0 x1 x2`, the outputs' at what the point before left (`xo3`, `xo4`) — the body runs to the
    continuation with the inputs' as they were and each output's with its pieces written. -/
noncomputable def kernelRun1_C (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i)
    (x0 x1 x2 : Vec F S1024x1x16x64 .bf16) (xo3 : Vec F S1024x1x16x64 .bf16) (xo4 : Vec F S1x1024x1024 .f32) :
    Σ' (L3 : List (View.Piece (Elt F) S1024x1x16x64 .bf16)), { L4 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.Body1.lean ====
/-
  Region 1, the attention kernel: what the two output blocks hold after each point, the proof data, and the body
  obligation.  The output blocks stay in their buffers across the sixteen heads of a batch row and are written back
  after the last, so what a point finds in them is what the point before left, except at head 0, which clears them.
-/
import proofs.«128804_j1632087573280_2_alg».proof.Proof.KI.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for the first output tile its block, so they cover it. -/
theorem cover1_A_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i)
    (x0 x1 x2 : Vec F S1024x1x16x64 .bf16) (y : S1024x1x16x64.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S1024x1x16x64.size (by sl_kernel_rfl) y
/-- What case A leaves in the first output's buffer: its pieces read back. -/
def out1_A_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i)
    (x0 x1 x2 : Vec F S1024x1x16x64 .bf16) : Vec F S1024x1x16x64 .bf16 :=
  VO1_3.read (Elt F) (VO1_3.writes (Elt F) VO1_3.junk (kernelRun1_A c i arg2 harg2 arg3 harg3 arg4 harg4 arg5 harg5 arg6 harg6 hc0 hc1 x0 x1 x2).1)
/-- Case A's pieces for the second output tile its block, so they cover it. -/
theorem cover1_A_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i)
    (x0 x1 x2 : Vec F S1024x1x16x64 .bf16) (y : S1x1024x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1024x1024.size (by sl_kernel_rfl) y
/-- What case A leaves in the second output's buffer: its pieces read back. -/
def out1_A_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i)
    (x0 x1 x2 : Vec F S1024x1x16x64 .bf16) : Vec F S1x1024x1024 .f32 :=
  VO1_4.read (Elt F) (VO1_4.writes (Elt F) VO1_4.junk (kernelRun1_A c i arg2 harg2 arg3 harg3 arg4 harg4 arg5 harg5 arg6 harg6 hc0 hc1 x0 x1 x2).2.1)

/-- Case B's pieces for the first output tile its block, so they cover it. -/
theorem cover1_B_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i)
    (x0 x1 x2 : Vec F S1024x1x16x64 .bf16) (xo3 : Vec F S1024x1x16x64 .bf16) (xo4 : Vec F S1x1024x1024 .f32) (y : S1024x1x16x64.Idx) :
    ∃ pc ∈ (kernelRun1_B c i arg2 harg2 arg3 harg3 arg4 harg4 arg5 harg5 arg6 harg6 hc0 hc1 x0 x1 x2 xo3 xo4).1, y ∈ pc.1.set :=
  View.cover_of_tiledL (kernelRun1_B c i arg2 harg2 arg3 harg3 arg4 harg4 arg5 harg5 arg6 harg6 hc0 hc1 x0 x1 x2 xo3 xo4).1 S1024x1x16x64.size (by sl_kernel_rfl) y
/-- What case B leaves in the first output's buffer: its pieces read back. -/
def out1_B_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i)
    (x0 x1 x2 : Vec F S1024x1x16x64 .bf16) (xo3 : Vec F S1024x1x16x64 .bf16) (xo4 : Vec F S1x1024x1024 .f32) : Vec F S1024x1x16x64 .bf16 :=
  VO1_3.read (Elt F) (VO1_3.writes (Elt F) VO1_3.junk (kernelRun1_B c i arg2 harg2 arg3 harg3 arg4 harg4 arg5 harg5 arg6 harg6 hc0 hc1 x0 x1 x2 xo3 xo4).1)
/-- Case B's pieces for the second output tile its block, so they cover it. -/
theorem cover1_B_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i)
    (x0 x1 x2 : Vec F S1024x1x16x64 .bf16) (xo3 : Vec F S1024x1x16x64 .bf16) (xo4 : Vec F S1x1024x1024 .f32) (y : S1x1024x1024.Idx) :
    ∃ pc ∈ (kernelRun1_B c i arg2 harg2 arg3 harg3 arg4 harg4 arg5 harg5 arg6 harg6 hc0 hc1 x0 x1 x2 xo3 xo4).2.1, y ∈ pc.1.set :=
  View.cover_of_tiledL (kernelRun1_B c i arg2 harg2 arg3 harg3 arg4 harg4 arg5 harg5 arg6 harg6 hc0 hc1 x0 x1 x2 xo3 xo4).2.1 S1x1024x1024.size (by sl_kernel_rfl) y
/-- What case B leaves in the second output's buffer: its pieces read back. -/
def out1_B_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i)
    (x0 x1 x2 : Vec F S1024x1x16x64 .bf16) (xo3 : Vec F S1024x1x16x64 .bf16) (xo4 : Vec F S1x1024x1024 .f32) : Vec F S1x1024x1024 .f32 :=
  VO1_4.read (Elt F) (VO1_4.writes (Elt F) VO1_4.junk (kernelRun1_B c i arg2 harg2 arg3 harg3 arg4 harg4 arg5 harg5 arg6 harg6 hc0 hc1 x0 x1 x2 xo3 xo4).2.1)

/-- Case C's pieces for the first output tile its block, so they cover it. -/
theorem cover1_C_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i)
    (x0 x1 x2 : Vec F S1024x1x16x64 .bf16) (xo3 : Vec F S1024x1x16x64 .bf16) (xo4 : Vec F S1x1024x1024 .f32) (y : S1024x1x16x64.Idx) :
    ∃ pc ∈ (kernelRun1_C c i arg2 harg2 arg3 harg3 arg4 harg4 arg5 harg5 arg6 harg6 hc0 hc1 x0 x1 x2 xo3 xo4).1, y ∈ pc.1.set :=
  View.cover_of_tiledL (kernelRun1_C c i arg2 harg2 arg3 harg3 arg4 harg4 arg5 harg5 arg6 harg6 hc0 hc1 x0 x1 x2 xo3 xo4).1 S1024x1x16x64.size (by sl_kernel_rfl) y
/-- What case C leaves in the first output's buffer: its pieces read back. -/
def out1_C_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i)
    (x0 x1 x2 : Vec F S1024x1x16x64 .bf16) (xo3 : Vec F S1024x1x16x64 .bf16) (xo4 : Vec F S1x1024x1024 .f32) : Vec F S1024x1x16x64 .bf16 :=
  VO1_3.read (Elt F) (VO1_3.writes (Elt F) VO1_3.junk (kernelRun1_C c i arg2 harg2 arg3 harg3 arg4 harg4 arg5 harg5 arg6 harg6 hc0 hc1 x0 x1 x2 xo3 xo4).1)
/-- Case C's pieces for the second output tile its block, so they cover it. -/
theorem cover1_C_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i)
    (x0 x1 x2 : Vec F S1024x1x16x64 .bf16) (xo3 : Vec F S1024x1x16x64 .bf16) (xo4 : Vec F S1x1024x1024 .f32) (y : S1x1024x1024.Idx) :
    ∃ pc ∈ (kernelRun1_C c i arg2 harg2 arg3 harg3 arg4 harg4 arg5 harg5 arg6 harg6 hc0 hc1 x0 x1 x2 xo3 xo4).2.1, y ∈ pc.1.set :=
  View.cover_of_tiledL (kernelRun1_C c i arg2 harg2 arg3 harg3 arg4 harg4 arg5 harg5 arg6 harg6 hc0 hc1 x0 x1 x2 xo3 xo4).2.1 S1x1024x1024.size (by sl_kernel_rfl) y
/-- What case C leaves in the second output's buffer: its pieces read back. -/
def out1_C_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i)
    (x0 x1 x2 : Vec F S1024x1x16x64 .bf16) (xo3 : Vec F S1024x1x16x64 .bf16) (xo4 : Vec F S1x1024x1024 .f32) : Vec F S1x1024x1024 .f32 :=
  VO1_4.read (Elt F) (VO1_4.writes (Elt F) VO1_4.junk (kernelRun1_C c i arg2 harg2 arg3 harg3 arg4 harg4 arg5 harg5 arg6 harg6 hc0 hc1 x0 x1 x2 xo3 xo4).2.1)

/-! ## What the outputs hold after each point -/

/-- The accumulation: what the two output buffers hold after the body at position `n` — the case the position is in,
    run at the point's buffers and input blocks, the outputs found at what the position before left. -/
def outsAt1 (c : Dev nD) : (n : ℕ) → n < cfg1.N → Vec F S1024x1x16x64 .bf16 × Vec F S1x1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (fun h => absurd ((hcond1_1 ⟨0, hn⟩).mp h) (by show ¬ (0 % 16 = 15); omega)) (iblk1 V c 0 ⟨0, hn⟩) (iblk1 V c 1 ⟨0, hn⟩) (iblk1 V c 2 ⟨0, hn⟩),
      out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (fun h => absurd ((hcond1_1 ⟨0, hn⟩).mp h) (by show ¬ (0 % 16 = 15); omega)) (iblk1 V c 0 ⟨0, hn⟩) (iblk1 V c 1 ⟨0, hn⟩) (iblk1 V c 2 ⟨0, hn⟩))
  | n + 1, hn =>
    if h0 : (n + 1) % 16 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (fun h => absurd ((hcond1_1 ⟨n + 1, hn⟩).mp h) (by dsimp only; omega)) (iblk1 V c 0 ⟨n + 1, hn⟩) (iblk1 V c 1 ⟨n + 1, hn⟩) (iblk1 V c 2 ⟨n + 1, hn⟩),
        out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (fun h => absurd ((hcond1_1 ⟨n + 1, hn⟩).mp h) (by dsimp only; omega)) (iblk1 V c 0 ⟨n + 1, hn⟩) (iblk1 V c 1 ⟨n + 1, hn⟩) (iblk1 V c 2 ⟨n + 1, hn⟩))
    else if h1 : (n + 1) % 16 = 15 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2,
        out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2,
        out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

/-- At a first-head point: case A's contents. -/
theorem outsAt1_A (c : Dev nD) (t : Fin cfg1.N) (h0 : t.val % 16 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (fun h => absurd ((hcond1_1 t).mp h) (by omega)) (iblk1 V c 0 t) (iblk1 V c 1 t) (iblk1 V c 2 t),
      out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (fun h => absurd ((hcond1_1 t).mp h) (by omega)) (iblk1 V c 0 t) (iblk1 V c 1 t) (iblk1 V c 2 t)) := by
  obtain ⟨n, hn⟩ := t
  cases n with
  | zero => exact rfl
  | succ n => exact (dif_pos h0).trans rfl

/-- At a last-head point: case C's contents, over what the point before left. -/
theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2,
      out1_C_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- At a middle-head point: case B's contents, over what the point before left. -/
theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2,
      out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-! ## The proof data -/

/-- The region's proof data on core `c`: the arrays as the region finds them; after the body each input's buffer at
    its block and the two outputs' at the accumulation; the three input windows read ONE array, so each holds a third
    share of it; the invariant the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Past head 0 the first output's buffer holds what the body left at the point before: it was not written back
    in between. -/
theorem before1_3_K (c : Dev nD) (t : Fin cfg1.N) (h0 : ¬t.val % 16 = 0) (d) :
    (dat1 V c).before 3 t d = (outsAt1 V c (t.val - 1) (Nat.lt_of_le_of_lt (Nat.sub_le _ _) t.isLt)).1 := by
  have hN : t.val < 128 := lt_of_lt_of_eq t.isLt (show cfg1.N = 128 from N_1)
  rw [Dat.before_out_kept _ 3 rfl t (by omega) (Bool.eq_false_iff.mpr fun h => by have := (flush1_3 _).mp h; dsimp only at this; omega)
    (fun _ => rfl) (fun _ _ => rfl)]
  dsimp only [dat1]
/-- The same for the second output. -/
theorem before1_4_K (c : Dev nD) (t : Fin cfg1.N) (h0 : ¬t.val % 16 = 0) (d) :
    (dat1 V c).before 4 t d = (outsAt1 V c (t.val - 1) (Nat.lt_of_le_of_lt (Nat.sub_le _ _) t.isLt)).2 := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' buffers hold their blocks; the point's position says which case it is in; past
    head 0 the outputs' buffers hold what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 128 := lt_of_lt_of_eq t.isLt (show cfg1.N = 128 from N_1)
  by_cases h0 : t.val % 16 = 0
  · rw [outsAt1_A V c t h0]
    dsimp only
    unfold out1_A_3 out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (fun h => absurd ((hcond1_1 t).mp h) (by omega)) (iblk1 V c 0 t) (iblk1 V c 1 t) (iblk1 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _)
    · unfold owns; iexists _; isplitr
      swap; · iexact H4
      ipureintro; exact View.read_writes_of_cover _ _ _ _ _ (cover1_A_4 c _ _ _ _ _ _ _ _ _ _ _ _ _ _ _ _)
  · simp only [before1_3_K V c t h0, before1_4_K V c t h0]
    by_cases h1 : t.val % 16 = 15
    · rw [outsAt1_C V c t h0 h1]
      dsimp only
      unfold out1_C_3 out1_C_4
      iintro ⟨HΦ, Ho, ⟨%d0, H0⟩, ⟨%d1, H1⟩, ⟨%d2, H2⟩, ⟨%d3, H3⟩, ⟨%d4, H4⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _ _).2.2 Set.univ _)
      isplitl [H0]; · iexact H0
      isplitl [H1]; · iexact H1
      isplitl [H2]; · iexact H2
      isplitl [H3]; · iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _)
      · unfold owns; iexists _; isplitr
        swap; · iexact H4
        ipureintro; exact View.read_writes_of_cover _ _ _ _ _ (cover1_C_4 c _ _ _ _ _ _ _ _ _ _ _ _ _ _ _ _ _ _)
    · rw [outsAt1_B V c t h0 h1]
      dsimp only
      unfold out1_B_3 out1_B_4
      iintro ⟨HΦ, Ho, ⟨%d0, H0⟩, ⟨%d1, H1⟩, ⟨%d2, H2⟩, ⟨%d3, H3⟩, ⟨%d4, H4⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _ _).2.2 Set.univ _)
      isplitl [H0]; · iexact H0
      isplitl [H1]; · iexact H1
      isplitl [H2]; · iexact H2
      isplitl [H3]; · iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _)
      · unfold owns; iexists _; isplitr
        swap; · iexact H4
        ipureintro; exact View.read_writes_of_cover _ _ _ _ _ (cover1_B_4 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Shared1.lean ====
/-
  Region 1 reads ONE array through three input windows.  The array's whole buffer, held at the full share, is dealt
  to the three windows a third each (left half; left half of the right half; the rest), and the thirds, which still
  hold the entry contents after the last point, join again to the whole; the two output arrays are held whole.
-/
import proofs.«128804_j1632087573280_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's five windows' arrays: three. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6_0) ↦{fullShare} V main_v6_0) ∗ (((c : Thread nD τ).loc main_v6_1) ↦{fullShare} V main_v6_1)) := by
  unfold Pipeline.arrBufs
  exact Idealize.SL.BI.bigSep_eq_bigSepL_of_eq [main_v5, main_v6_0, main_v6_1] (by decide) (by decide) _

/-- The windows' arrays one by one, each at its window's share. -/
theorem arrays1_chain {c : Dev nD} (dat : Dat τ (Elt F) Unit ℕ (UR sig nD τ) ℕ cfg1 c)
    (Fa : (w : Fin cfg1.W) → Buf (Elt F) ((cfg1.win w).arr.view.loc (c : Thread nD τ))) :
    (dat.arrays Fa : sProp 𝕄)
      = iprop((((c : Thread nD τ).loc main_v5) ↦{dat.q 0} Fa 0) ∗ (((c : Thread nD τ).loc main_v5) ↦{dat.q 1} Fa 1) ∗ (((c : Thread nD τ).loc main_v5) ↦{dat.q 2} Fa 2)
          ∗ (((c : Thread nD τ).loc main_v6_0) ↦{fullShare} Fa 3) ∗ (((c : Thread nD τ).loc main_v6_1) ↦{fullShare} Fa 4)) := by
  unfold Dat.arrays
  rw [bigSep_W1]
  rw [(arr_whole1 0).set_eq_univ, (arr_whole1 3).set_eq_univ, (arr_whole1 4).set_eq_univ]
  rfl

/-- ENTRY: the three buffers whole at the entry contents make the windows' holdings before the first point. -/
theorem hsplit1 (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq, arrays1_chain]
  rw [show (dat1 V c).q 0 = fullShare.left from rfl, show (dat1 V c).q 1 = fullShare.right.left from rfl, show (dat1 V c).q 2 = fullShare.right.right from rfl,
    show (dat1 V c).arrAt 0 0 = V c main_v5 from rfl, show (dat1 V c).arrAt 1 0 = V c main_v5 from rfl, show (dat1 V c).arrAt 2 0 = V c main_v5 from rfl,
    show (dat1 V c).arrAt 3 0 = V c main_v6_0 from rfl, show (dat1 V c).arrAt 4 0 = V c main_v6_1 from rfl]
  iintro ⟨H5, H60, H61⟩
  ihave H5' := (pointsTo_share (PosShare.mem_left_op_right fullShare)).1 $$ H5
  icases H5' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  isplitl [H60]; · iexact H60
  iexact H61

/-- EXIT: the windows' holdings after the last point are the three buffers whole at any contents `V'` that has the
    shared input array as entered and the two output arrays at what the pipeline leaves. -/
theorem hjoin1 (c : Dev nD) (V' : (b : Ref sig .tc) → Buf (Elt F) ((c : Thread nD τ).loc b))
    (h5 : V' main_v5 = V c main_v5) (h60 : V' main_v6_0 = (dat1 V c).arrAt 3 cfg1.N) (h61 : V' main_v6_1 = (dat1 V c).arrAt 4 cfg1.N) :
    (dat1 V c).arrays ((dat1 V c).arrAt · cfg1.N) ⊢ (Pipeline.arrBufs (Ix := Unit) (Name := ℕ) (U := UR sig nD τ) (Lvl := ℕ) spec1 c V' : sProp 𝕄) := by
  rw [arrBufs1_eq, arrays1_chain, h5, h60, h61]
  rw [show (dat1 V c).q 0 = fullShare.left from rfl, show (dat1 V c).q 1 = fullShare.right.left from rfl, show (dat1 V c).q 2 = fullShare.right.right from rfl,
    ((dat1 V c).arrAt_in 0 rfl _).trans (A_eq1 V c 0), ((dat1 V c).arrAt_in 1 rfl _).trans (A_eq1 V c 1), ((dat1 V c).arrAt_in 2 rfl _).trans (A_eq1 V c 2)]
  iintro ⟨Hl, Hrl, Hrr, H60, H61⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  isplitl [H60]; · iexact H60
  iexact H61

end Cert.KernelIdeal.Hand

end
-- ==== Proof.KI.Body2.lean ====
/-
  Region 2: one tile of a matrix product plus a bias row.  At a grid point the body reads a block of 1024 rows of the
  left array, a block of 1024 columns of the right array and the matching piece of the bias row, and stores into the
  output's block the product of the two blocks with the bias row added to every row.  The blocks are read off the
  arrays as the region finds them (a parameter `V`); what the body leaves in the output's buffer is that one store read
  back; the input buffers are left as found.
-/
import proofs.«128804_j1632087573280_2_alg».proof.Proof.Gen.KernelIdeal.Launch
import proofs.«128804_j1632087573280_2_alg».proof.Proof.Gen.KernelIdeal.Skeleton
import proofs.«128804_j1632087573280_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or carried over from the point
    before (the block index has then not moved), for any proof data that reads the arrays off `V` and leaves the
    input blocks in place: window by window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole output block as one rectangle. -/
abbrev r2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0

/-- What the body leaves in the output's buffer: its one store, of the product-plus-bias of the three loaded blocks. -/
def out2 (x0 : Vec F S1024x1024 .bf16) (x1 : Vec F S1024x1024 .bf16) (x2 : Vec F S1x1024 .f32) : Vec F S1024x1024 .f32 :=
  View.canon [⟨r2, k2_pay1 (View.ld x0 r2) (View.ld x1 r2) (View.ld x2 rb2)⟩]

/-- The one store covers the block. -/
theorem cover2 (p0 : Vec F S1024x1024 .f32) (y : S1024x1024.Idx) :
    ∃ pc ∈ ([⟨r2, p0⟩] : List (View.Piece (Elt F) S1024x1024 .f32)), y ∈ pc.1.set :=
  View.cover_of_tiled [⟨r2, p0⟩] S1024x1024.size (by rfl) y

set_option maxHeartbeats 1000000 in
/-- The body on whole buffers, the inputs' at contents `x0 x1 x2` and the output's at anything, runs to the
    continuation with the inputs' as they were and the output's at `out2` of them. -/
theorem sound_kernel2 (c : Dev nD) (E : Set ℕ) (i : grid2.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (x0 : Vec F S1024x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The region's proof data on core `c`: the arrays as the region finds them; after the body each input's buffer at
    its block and the output's at `out2` of the input blocks; the invariant the scoped rest and the generator
    register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the kernel's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Main.lean ====
/-
  The whole run: @main is four stretches of host lines around three kernel regions.  The contents of every unscoped
  buffer at each of the eight boundaries are a fold from the launch memory: a host stretch applies its lines, a region
  replaces its output arrays by what its write-backs leave and keeps every other buffer.  Every weakly fair
  execution terminates with every unscoped buffer at the last boundary's contents; in particular the five argument
  arrays end as launched.
-/
import proofs.«128804_j1632087573280_2_alg».proof.Proof.KI.Body0
import proofs.«128804_j1632087573280_2_alg».proof.Proof.KI.Shared1
import proofs.«128804_j1632087573280_2_alg».proof.Proof.KI.Body2
import proofs.«128804_j1632087573280_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first host stretch (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves (the inputs as entered, the output's write-backs folded),
    every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its two output arrays at what the pipeline leaves, every other buffer (the shared input array
    among them) as entered. -/
def B4 (c : Dev nD) : Valuation τ sig (Elt F) :=
  Function.update (Function.update (B3 m ρ c) (Proc.devRef .tc main_v6_0) ((dat1 (E3 m ρ) c).arrAt 3 cfg1.N))
    (Proc.devRef .tc main_v6_1) ((dat1 (E3 m ρ) c).arrAt 4 cfg1.N)
theorem B4_v6_0 (c : Dev nD) : B4 m ρ c (Proc.devRef .tc main_v6_0) = (dat1 (E3 m ρ) c).arrAt 3 cfg1.N := by
  unfold B4
  rw [Function.update_of_ne (StableHlo.devRef_ne_of_ne (by decide) : (Proc.devRef .tc main_v6_0 : DevRef τ sig) ≠ Proc.devRef .tc main_v6_1), Function.update_self]
theorem B4_v6_1 (c : Dev nD) : B4 m ρ c (Proc.devRef .tc main_v6_1) = (dat1 (E3 m ρ) c).arrAt 4 cfg1.N := by
  unfold B4; rw [Function.update_self]
theorem B4_of_ne (c : Dev nD) (b : Ref sig .tc) (h0 : b ≠ main_v6_0) (h1 : b ≠ main_v6_1) :
    B4 m ρ c (Proc.devRef .tc b) = B3 m ρ c (Proc.devRef .tc b) := by
  unfold B4
  rw [Function.update_of_ne (StableHlo.devRef_ne_of_ne h1 : (Proc.devRef .tc b : DevRef τ sig) ≠ Proc.devRef .tc main_v6_1),
    Function.update_of_ne (StableHlo.devRef_ne_of_ne h0 : (Proc.devRef .tc b : DevRef τ sig) ≠ Proc.devRef .tc main_v6_0)]
abbrev E4 : (c : Dev nD) → (b : Ref sig .tc) → Buf (Elt F) ((c : Thread nD τ).loc b) := fun c b => B4 m ρ c b
/-- After the third host stretch (region 2's entry). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit: its arrays at what the pipeline leaves (the inputs as entered, the output's write-backs folded),
    every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After the last host stretch: the end. -/
abbrev B7 : Dev nD → Valuation τ sig (Elt F) := fun c => StableHlo.after hostOps3 (B6 m ρ c)

/-! ### The arguments end as launched -/

/-- `main_arg0` reaches the end as launched: no host line writes it, no region may change it. -/
theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (r := main_arg0) (by decide)
    _ = B5 m ρ c (Proc.devRef .tc main_arg0) := B6_of_ne m ρ c main_arg0 (by decide)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide) (by decide)
    _ = B2 m ρ c (Proc.devRef .tc main_arg0) := StableHlo.after_of_writes_sub hostOps1 _ hostOps1_writes (r := main_arg0) (by decide)
    _ = B1 m ρ c (Proc.devRef .tc main_arg0) := B2_of_ne m ρ c main_arg0 (by decide)
    _ = B0 m ρ c (Proc.devRef .tc main_arg0) := StableHlo.after_of_writes_sub hostOps0 _ hostOps0_writes (r := main_arg0) (by decide)
    _ = m ((c : Thread nD τ).loc main_arg0) := rfl

/-- `main_arg1` reaches the end as launched: no host line writes it, no region may change it. -/
theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (r := main_arg1) (by decide)
    _ = B5 m ρ c (Proc.devRef .tc main_arg1) := B6_of_ne m ρ c main_arg1 (by decide)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide) (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl

/-- `main_arg2` reaches the end as launched: no host line writes it, no region may change it. -/
theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (r := main_arg2) (by decide)
    _ = B5 m ρ c (Proc.devRef .tc main_arg2) := B6_of_ne m ρ c main_arg2 (by decide)
    _ = B4 m ρ c (Proc.devRef .tc main_arg2) := StableHlo.after_of_writes_sub hostOps2 _ hostOps2_writes (r := main_arg2) (by decide)
    _ = B3 m ρ c (Proc.devRef .tc main_arg2) := B4_of_ne m ρ c main_arg2 (by decide) (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl

/-- `main_arg3` reaches the end as launched: no host line writes it, no region may change it. -/
theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (r := main_arg3) (by decide)
    _ = B5 m ρ c (Proc.devRef .tc main_arg3) := B6_of_ne m ρ c main_arg3 (by decide)
    _ = B4 m ρ c (Proc.devRef .tc main_arg3) := StableHlo.after_of_writes_sub hostOps2 _ hostOps2_writes (r := main_arg3) (by decide)
    _ = B3 m ρ c (Proc.devRef .tc main_arg3) := B4_of_ne m ρ c main_arg3 (by decide) (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

/-- `main_arg4` reaches the end as launched: no host line writes it, no region may change it. -/
theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := StableHlo.after_of_writes_sub hostOps3 _ hostOps3_writes (r := main_arg4) (by decide)
    _ = B5 m ρ c (Proc.devRef .tc main_arg4) := B6_of_ne m ρ c main_arg4 (by decide)
    _ = B4 m ρ c (Proc.devRef .tc main_arg4) := StableHlo.after_of_writes_sub hostOps2 _ hostOps2_writes (r := main_arg4) (by decide)
    _ = B3 m ρ c (Proc.devRef .tc main_arg4) := B4_of_ne m ρ c main_arg4 (by decide) (by decide)
    _ = B2 m ρ c (Proc.devRef .tc main_arg4) := StableHlo.after_of_writes_sub hostOps1 _ hostOps1_writes (r := main_arg4) (by decide)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
    _ = m ((c : Thread nD τ).loc main_arg4) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B7 m ρ c) ∗ ∃ r, prngReg c r)

/-! ## The regions as segments -/

set_option backward.isDefEq.respectTransparency.types false in
/-- Region 0 over the thread state: entered from every unscoped buffer at `B1`, left at `B2`.  Its arrays are
    split out of the unscoped buffers and put back at the exit contents; the generator register goes into the
    invariant and comes out; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's entry: every unscoped buffer at `B3` is the three buffers behind its windows' arrays, dealt to the
    windows, and the rest. -/
theorem entry1 (c : Dev nD) :
    (StableHlo.held (c : Thread nD τ) (Pipeline.ucRefs τ sig) (B3 m ρ c) : sProp 𝕄)
      ⊢ iprop((dat1 (E3 m ρ) c).arrays ((dat1 (E3 m ρ) c).arrAt · 0)
          ∗ Pipeline.unscopedRest (Ix := Unit) (Name := ℕ) (U := UR sig nD τ) (Lvl := ℕ) spec1 c (E3 m ρ c)) := by
  rw [← Pipeline.unscopedBufs_held (Ix := Unit) (Name := ℕ) (U := UR sig nD τ) (Lvl := ℕ) c (B3 m ρ c),
    Pipeline.unscopedBufs_split₀ cfgs 1 winFacts₀1.arr_unscoped c (Ix := Unit) (Name := ℕ) (U := UR sig nD τ) (Lvl := ℕ) (E3 m ρ c)]
  exact sep_mono (hsplit1 (E3 m ρ) c) .rfl

/-- Region 1's exit: the windows' holdings after the last point and the rest are every unscoped buffer at `B4`. -/
theorem exit1 (c : Dev nD) :
    iprop((dat1 (E3 m ρ) c).arrays ((dat1 (E3 m ρ) c).arrAt · cfg1.N)
        ∗ Pipeline.unscopedRest (Ix := Unit) (Name := ℕ) (U := UR sig nD τ) (Lvl := ℕ) spec1 c (E3 m ρ c))
      ⊢ (StableHlo.held (c : Thread nD τ) (Pipeline.ucRefs τ sig) (B4 m ρ c) : sProp 𝕄) := by
  rw [← Pipeline.unscopedBufs_held (Ix := Unit) (Name := ℕ) (U := UR sig nD τ) (Lvl := ℕ) c (B4 m ρ c),
    Pipeline.unscopedBufs_split₀ cfgs 1 winFacts₀1.arr_unscoped c (Ix := Unit) (Name := ℕ) (U := UR sig nD τ) (Lvl := ℕ) (E4 m ρ c)]
  refine sep_mono (hjoin1 (E3 m ρ) c (E4 m ρ c) (B4_of_ne m ρ c main_v5 (by decide) (by decide)) (B4_v6_0 m ρ c) (B4_v6_1 m ρ c)) (Entails.of_eq ?_)
  unfold Pipeline.unscopedRest
  exact bigSep_congr fun b hb => by
    have hb' := (Finset.mem_sdiff.mp hb).2
    rw [show E4 m ρ c b = E3 m ρ c b from B4_of_ne m ρ c b
      (fun e => hb' (Finset.mem_image.mpr ⟨3, Finset.mem_univ _, e.symm⟩)) (fun e => hb' (Finset.mem_image.mpr ⟨4, Finset.mem_univ _, e.symm⟩))]

set_option backward.isDefEq.respectTransparency.types false in
/-- Region 1 over the thread state: entered from every unscoped buffer at `B3`, left at `B4`; its three input windows
    share one array (`entry1`, `exit1`). -/
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`.  Its arrays are
    split out of the unscoped buffers and put back at the exit contents; the generator register goes into the
    invariant and comes out; nothing is owed; the kernel has no semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) admH (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (B7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h => h)

/-- THE FRAME: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c)⟩) (run_all m ρ)

end Cert.KernelIdeal.Hand

end
-- ==== Proof.HostReads.lean ====
/-
  The host lines of @main read at an index.  The stretches only re-lay arrays: a [1024,8,1024] array as 8192 rows (row
  s·8 + b), a weight matrix transposed (and its change of float format, the identity on the values' positions), a bias
  vector as one row, the packed projection's 3072 columns as 48 head slots of 64 places, the mixed values' 16 heads
  of 64 places as 1024 columns, and 8192 rows back as [1024, 8, ·].
-/
import proofs.«128804_j1632087573280_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

/-! ## Re-layings at an index -/

section Layout
variable {α : Type}

/-- [1024,8,1024] as 8192 rows: row r is (r / 8, r % 8). -/
theorem cast_rows_apply (x : S1024x8x1024.Idx → α) (h : S1024x8x1024.ShapeCasts S8192x1024) (r : Fin 8192) (k : Fin 1024) :
    shapeCast S8192x1024 x h (ix2 r k) = x (ix3 (⟨r.val / 8, by omega⟩ : Fin 1024) (⟨r.val % 8, by omega⟩ : Fin 8) k) := by
  refine shapeCast_apply x h _ _ ?_
  rw [Shape.rowMajor_val_three, Shape.rowMajor_val_two]
  show ((r.val / 8) * 8 + r.val % 8) * 1024 + k.val = r.val * 1024 + k.val
  omega

/-- 8192 rows as [1024,8,1024]: (s, b) is row s·8 + b. -/
theorem cast_unrows_apply (x : S8192x1024.Idx → α) (h : S8192x1024.ShapeCasts S1024x8x1024) (s : Fin 1024) (b : Fin 8) (f : Fin 1024) :
    shapeCast S1024x8x1024 x h (ix3 s b f) = x (ix2 (⟨s.val * 8 + b.val, by omega⟩ : Fin 8192) f) := by
  refine shapeCast_apply x h _ _ ?_
  rw [Shape.rowMajor_val_three, Shape.rowMajor_val_two]
  rfl

/-- A vector as one row. -/
theorem cast_row3072_apply (x : S3072.Idx → α) (h : S3072.ShapeCasts S1x3072) (u : Fin 1) (f : Fin 3072) :
    shapeCast S1x3072 x h (ix2 u f) = x (ix1 f) := by
  refine shapeCast_apply x h _ _ ?_
  rw [Shape.rowMajor_val_one, Shape.rowMajor_val_two]
  show f.val = u.val * 3072 + f.val
  omega
theorem cast_row1024_apply (x : S1024.Idx → α) (h : S1024.ShapeCasts S1x1024) (u : Fin 1) (f : Fin 1024) :
    shapeCast S1x1024 x h (ix2 u f) = x (ix1 f) := by
  refine shapeCast_apply x h _ _ ?_
  rw [Shape.rowMajor_val_one, Shape.rowMajor_val_two]
  show f.val = u.val * 1024 + f.val
  omega

/-- The packed projection's 3072 columns as 48 slots of 64 places, its 8192 rows as (position, batch row). -/
theorem cast_pack_apply (x : S8192x3072.Idx → α) (h : S8192x3072.ShapeCasts S1024x8x48x64) (s : Fin 1024) (b : Fin 8) (j : Fin 48) (d : Fin 64) :
    shapeCast S1024x8x48x64 x h (ix4 s b j d) = x (ix2 (⟨s.val * 8 + b.val, by omega⟩ : Fin 8192) (⟨j.val * 64 + d.val, by omega⟩ : Fin 3072)) := by
  refine shapeCast_apply x h _ _ ?_
  rw [Shape.rowMajor_val_four, Shape.rowMajor_val_two]
  show (s.val * 8 + b.val) * 3072 + (j.val * 64 + d.val) = ((s.val * 8 + b.val) * 48 + j.val) * 64 + d.val
  omega

/-- The mixed values' (head, place) as 1024 columns, (position, batch row) as 8192 rows. -/
theorem cast_heads_apply (x : S1024x8x16x64.Idx → α) (h : S1024x8x16x64.ShapeCasts S8192x1024) (r : Fin 8192) (e : Fin 1024) :
    shapeCast S8192x1024 x h (ix2 r e)
      = x (ix4 (⟨r.val / 8, by omega⟩ : Fin 1024) (⟨r.val % 8, by omega⟩ : Fin 8) (⟨e.val / 64, by omega⟩ : Fin 16) (⟨e.val % 64, by omega⟩ : Fin 64)) := by
  refine shapeCast_apply x h _ _ ?_
  rw [Shape.rowMajor_val_four, Shape.rowMajor_val_two]
  show (((r.val / 8) * 8 + r.val % 8) * 16 + e.val / 64) * 64 + e.val % 64 = r.val * 1024 + e.val
  omega

/-- A [3072,1024] matrix transposed, at (k, f). -/
theorem transpose_w_apply (x : S3072x1024.Idx → α) (h : S3072x1024.Transposes [1, 0] S1024x3072) (k : Fin 1024) (f : Fin 3072) :
    transpose S1024x3072 [1, 0] x h (ix2 k f) = x (ix2 f k) :=
  transpose_apply [1, 0] x h _ _ fun b => by match b with | ⟨0, _⟩ => rfl | ⟨1, _⟩ => rfl
theorem transpose_wo_apply (x : S1024x1024.Idx → α) (h : S1024x1024.Transposes [1, 0] S1024x1024) (k : Fin 1024) (f : Fin 1024) :
    transpose S1024x1024 [1, 0] x h (ix2 k f) = x (ix2 f k) :=
  transpose_apply [1, 0] x h _ _ fun b => by match b with | ⟨0, _⟩ => rfl | ⟨1, _⟩ => rfl

end Layout

/-! ## The four stretches' results, from the contents `W` before the stretch -/

variable (W : Valuation τ sig (Elt F))

theorem host0_v0 : StableHlo.after hostOps0 W (Proc.devRef .tc main_v0)
    = shapeCast S8192x1024 (W (Proc.devRef .tc main_arg0)) shapeCasts_S1024x8x1024_S8192x1024 := by
  after_results; rfl
theorem host0_v2 : StableHlo.after hostOps0 W (Proc.devRef .tc main_v2)
    = truncf .bf16 (transpose S1024x3072 [1, 0] (W (Proc.devRef .tc main_arg1)) transposes_S3072x1024_S1024x3072_1_0) bitsLt_bf16_f32 := by
  after_results
theorem host0_v3 : StableHlo.after hostOps0 W (Proc.devRef .tc main_v3)
    = shapeCast S1x3072 (W (Proc.devRef .tc main_arg2)) shapeCasts_S3072_S1x3072 := by
  after_results; rfl
theorem host1_v5 : StableHlo.after hostOps1 W (Proc.devRef .tc main_v5)
    = shapeCast S1024x8x48x64 (W (Proc.devRef .tc main_v4)) shapeCasts_S8192x3072_S1024x8x48x64 := by
  after_results; rfl
theorem host2_v7 : StableHlo.after hostOps2 W (Proc.devRef .tc main_v7)
    = shapeCast S8192x1024 (W (Proc.devRef .tc main_v6_0)) shapeCasts_S1024x8x16x64_S8192x1024 := by
  after_results; rfl
theorem host2_v9 : StableHlo.after hostOps2 W (Proc.devRef .tc main_v9)
    = truncf .bf16 (transpose S1024x1024 [1, 0] (W (Proc.devRef .tc main_arg3)) transposes_S1024x1024_S1024x1024_1_0) bitsLt_bf16_f32 := by
  after_results
theorem host2_v10 : StableHlo.after hostOps2 W (Proc.devRef .tc main_v10)
    = shapeCast S1x1024 (W (Proc.devRef .tc main_arg4)) shapeCasts_S1024_S1x1024 := by
  after_results; rfl
theorem host3_v12 : StableHlo.after hostOps3 W (Proc.devRef .tc main_v12)
    = shapeCast S1024x8x1024 (W (Proc.devRef .tc main_v11)) shapeCasts_S8192x1024_S1024x8x1024 := by
  after_results; rfl

end Cert.KernelIdeal.Hand

end
-- ==== Proof.Spec.lean ====
/-
  The specification: multi-head self-attention over the extended reals, one function of the five argument
  arrays for each of the two results.

  A query array x[s, b, e] (1024 positions, 8 batch rows, 1024 features) is projected by the packed weight
  w[f, e] and bias (3072 columns: three parts — queries, keys, values — of 16 heads of 64 features each),
  `qkv s b f = (∑ e, x[s,b,e] · w[f,e]) + bias[f]`.  For a batch row b and a head h the score of position s
  against position s' is `(∑ d, q[s,b,h,d] · k[s',b,h,d]) · 1/8`; a row of scores is turned into weights by the
  shifted exponential, `exp (score − row maximum)` divided by the row's sum of those.  The second result is the
  weights summed over the heads times 1/16.  The weighted sum of the value rows, `∑ s', weight · v[s',b,h,d]`,
  laid out again as 1024 features (feature e belongs to head e / 64, place e % 64), is projected by the output
  weight and bias: the first result.
-/
import Idealize.ShloMosaic.PureOps.Ideal
import Idealize.ShloMosaic.Lib.ValueIdx

noncomputable section

open scoped BigOperators

namespace Cert.Attn

open Idealize.ShloMosaic Idealize.ShloMosaic.ValueIdx

/-- The argument arrays, as functions of their indices. -/
abbrev AX : Type := (⟨3, ![1024, 8, 1024]⟩ : Shape).Idx → EReal
abbrev AW : Type := (⟨2, ![3072, 1024]⟩ : Shape).Idx → EReal
abbrev AB : Type := (⟨1, ![3072]⟩ : Shape).Idx → EReal
abbrev AWo : Type := (⟨2, ![1024, 1024]⟩ : Shape).Idx → EReal
abbrev ABo : Type := (⟨1, ![1024]⟩ : Shape).Idx → EReal

/-- Every entry of an array is a real number (neither infinity). -/
def IsReal {ι : Type} (f : ι → EReal) : Prop := ∀ i, ∃ r : ℝ, f i = (r : EReal)

/-- Column of the packed projection: part p (0 queries, 1 keys, 2 values), head h, place d. -/
def col (p : Fin 3) (h : Fin 16) (d : Fin 64) : Fin 3072 := ⟨p.val * 1024 + h.val * 64 + d.val, by omega⟩

/-- The head and the place inside the head of feature e. -/
def headOf (e : Fin 1024) : Fin 16 := ⟨e.val / 64, by omega⟩
def placeOf (e : Fin 1024) : Fin 64 := ⟨e.val % 64, Nat.mod_lt _ (by decide)⟩

/-- The packed projection at position s, batch row b, column f. -/
def qkv (x : AX) (w : AW) (bi : AB) (s : Fin 1024) (b : Fin 8) (f : Fin 3072) : EReal :=
  (∑ e : Fin 1024, x (ix3 s b e) * w (ix2 f e)) + bi (ix1 f)

/-- The scaled score of position s against position s' in batch row b, head h: the sum first, then the factor 1/8. -/
def score (x : AX) (w : AW) (bi : AB) (b : Fin 8) (h : Fin 16) (s s' : Fin 1024) : EReal :=
  (∑ d : Fin 64, qkv x w bi s b (col 0 h d) * qkv x w bi s' b (col 1 h d)) * Ideal.ofBits .f32 0x3E000000#32

/-- The maximum of a row of scores (from −∞). -/
def rowMax (x : AX) (w : AW) (bi : AB) (b : Fin 8) (h : Fin 16) (s : Fin 1024) : EReal :=
  (Finset.univ : Finset (Fin 1024)).fold max (Ideal.ofBits .f32 0xFF800000#32) (fun s' => score x w bi b h s s')

/-- The shifted exponential of a score. -/
def expo (x : AX) (w : AW) (bi : AB) (b : Fin 8) (h : Fin 16) (s s' : Fin 1024) : EReal :=
  Ideal.exp (score x w bi b h s s' - rowMax x w bi b h s)

/-- The attention weight: the shifted exponential over its row's sum. -/
def weight (x : AX) (w : AW) (bi : AB) (b : Fin 8) (h : Fin 16) (s s' : Fin 1024) : EReal :=
  Ideal.div (expo x w bi b h s s') (∑ s'' : Fin 1024, expo x w bi b h s s'')

/-- SECOND RESULT: the weights summed over the heads, times 1/16. -/
def avg (x : AX) (w : AW) (bi : AB) : (⟨3, ![8, 1024, 1024]⟩ : Shape).Idx → EReal := fun i =>
  (∑ h : Fin 16, weight x w bi (i 0) h (i 1) (i 2)) * Ideal.ofBits .f32 0x3D800000#32

/-- The weighted sum of the value rows at position s, batch row b, head h, place d. -/
def mix (x : AX) (w : AW) (bi : AB) (s : Fin 1024) (b : Fin 8) (h : Fin 16) (d : Fin 64) : EReal :=
  ∑ s' : Fin 1024, weight x w bi b h s s' * qkv x w bi s' b (col 2 h d)

/-- FIRST RESULT: the output projection of the mixed values. -/
def out (x : AX) (w : AW) (bi : AB) (wo : AWo) (bo : ABo) : (⟨3, ![1024, 8, 1024]⟩ : Shape).Idx → EReal := fun i =>
  (∑ e : Fin 1024, mix x w bi (i 0) (i 1) (headOf e) (placeOf e) * wo (ix2 (i 2) e)) + bo (ix1 (i 2))

end Cert.Attn

end
-- ==== Proof.AttnZ.lean ====
/-
  Attention read off the PACKED projection: an array Z[s, b, j, d] of 1024 positions, 8 batch rows, 48 = 3·16 head
  slots (slots 0–15 the queries' heads, 16–31 the keys', 32–47 the values') and 64 places.  The same formulas as the
  specification, with the packed array in place of the projection of the arguments; the specification is these at
  Z[s, b, j, d] = qkv s b (j·64 + d).
-/
import proofs.«128804_j1632087573280_2_alg».proof.Proof.Spec

noncomputable section

open scoped BigOperators

namespace Cert.AttnZ

open Idealize.ShloMosaic Idealize.ShloMosaic.ValueIdx Cert.Attn

/-- The packed array. -/
abbrev AZ : Type := (⟨4, ![1024, 8, 48, 64]⟩ : Shape).Idx → EReal

/-- Head slot of part p (0 queries, 1 keys, 2 values) and head h. -/
def slot (p : Fin 3) (h : Fin 16) : Fin 48 := ⟨p.val * 16 + h.val, by omega⟩

def score (Z : AZ) (b : Fin 8) (h : Fin 16) (s s' : Fin 1024) : EReal :=
  (∑ d : Fin 64, Z (ix4 s b (slot 0 h) d) * Z (ix4 s' b (slot 1 h) d)) * Ideal.ofBits .f32 0x3E000000#32

def rowMax (Z : AZ) (b : Fin 8) (h : Fin 16) (s : Fin 1024) : EReal :=
  (Finset.univ : Finset (Fin 1024)).fold max (Ideal.ofBits .f32 0xFF800000#32) (fun s' => score Z b h s s')

def expo (Z : AZ) (b : Fin 8) (h : Fin 16) (s s' : Fin 1024) : EReal :=
  Ideal.exp (score Z b h s s' - rowMax Z b h s)

def weight (Z : AZ) (b : Fin 8) (h : Fin 16) (s s' : Fin 1024) : EReal :=
  Ideal.div (expo Z b h s s') (∑ s'' : Fin 1024, expo Z b h s s'')

/-- The weights summed over the heads, times 1/16, at batch row b, positions s, s'. -/
def avgAt (Z : AZ) (b : Fin 8) (s s' : Fin 1024) : EReal :=
  (∑ h : Fin 16, weight Z b h s s') * Ideal.ofBits .f32 0x3D800000#32
def avg (Z : AZ) : (⟨3, ![8, 1024, 1024]⟩ : Shape).Idx → EReal := fun i => avgAt Z (i 0) (i 1) (i 2)

/-- The weighted sum of the value rows at position s, batch row b, head h, place d. -/
def mixAt (Z : AZ) (s : Fin 1024) (b : Fin 8) (h : Fin 16) (d : Fin 64) : EReal :=
  ∑ s' : Fin 1024, weight Z b h s s' * Z (ix4 s' b (slot 2 h) d)
/-- The same laid out [position, batch row, head, place]. -/
def mix (Z : AZ) : (⟨4, ![1024, 8, 16, 64]⟩ : Shape).Idx → EReal := fun i => mixAt Z (i 0) (i 1) (i 2) (i 3)

/-- The packed projection of the arguments. -/
def pack (x : AX) (w : AW) (bi : AB) : AZ := fun i =>
  qkv x w bi (i 0) (i 1) ⟨(i 2).val * 64 + (i 3).val, by have h2 : (i 2).val < 48 := (i 2).isLt; have h3 : (i 3).val < 64 := (i 3).isLt; show (i 2).val * 64 + (i 3).val < 3072; omega⟩

theorem pack_slot (x : AX) (w : AW) (bi : AB) (s : Fin 1024) (b : Fin 8) (p : Fin 3) (h : Fin 16) (d : Fin 64) :
    pack x w bi (ix4 s b (slot p h) d) = qkv x w bi s b (col p h d) := by
  unfold pack
  refine congrArg (qkv x w bi s b) (Fin.ext ?_)
  show (p.val * 16 + h.val) * 64 + d.val = p.val * 1024 + h.val * 64 + d.val
  omega

theorem score_pack (x : AX) (w : AW) (bi : AB) (b : Fin 8) (h : Fin 16) (s s' : Fin 1024) :
    score (pack x w bi) b h s s' = Cert.Attn.score x w bi b h s s' := by
  unfold score Cert.Attn.score
  simp only [pack_slot]

theorem rowMax_pack (x : AX) (w : AW) (bi : AB) (b : Fin 8) (h : Fin 16) (s : Fin 1024) :
    rowMax (pack x w bi) b h s = Cert.Attn.rowMax x w bi b h s := by
  unfold rowMax Cert.Attn.rowMax
  simp only [score_pack]

theorem expo_pack (x : AX) (w : AW) (bi : AB) (b : Fin 8) (h : Fin 16) (s s' : Fin 1024) :
    expo (pack x w bi) b h s s' = Cert.Attn.expo x w bi b h s s' := by
  unfold expo Cert.Attn.expo
  rw [score_pack, rowMax_pack]

theorem weight_pack (x : AX) (w : AW) (bi : AB) (b : Fin 8) (h : Fin 16) (s s' : Fin 1024) :
    weight (pack x w bi) b h s s' = Cert.Attn.weight x w bi b h s s' := by
  unfold weight Cert.Attn.weight
  simp only [expo_pack]

theorem avg_pack (x : AX) (w : AW) (bi : AB) : avg (pack x w bi) = Cert.Attn.avg x w bi := by
  funext i
  unfold avg avgAt Cert.Attn.avg
  exact congrArg (fun z => z * _) (Finset.sum_congr rfl fun h _ => weight_pack x w bi (i 0) h (i 1) (i 2))

theorem mix_pack (x : AX) (w : AW) (bi : AB) (s : Fin 1024) (b : Fin 8) (h : Fin 16) (d : Fin 64) :
    mixAt (pack x w bi) s b h d = Cert.Attn.mix x w bi s b h d := by
  unfold mixAt Cert.Attn.mix
  simp only [weight_pack, pack_slot]

end Cert.AttnZ

end
-- ==== Proof.ArrDef.lean ====
/-
  The product of an array with a matrix, a one-row array added to every row: entry (p, q) is the sum over k of
  A (p, k) · B (k, q), plus b (0, q).  One function of its three operands over the extended reals, at any extents.
-/
import Idealize.ShloMosaic.PureOps.Ideal
import Idealize.ShloMosaic.Lib.ValueIdx

noncomputable section

open scoped BigOperators

namespace Cert.KernelIdeal.Hand

open Idealize.ShloMosaic Idealize.ShloMosaic.ValueIdx

/-- Entry `i` of the product of `A` with `B` plus the row `b`: the sum over `k` of `A (i 0, k) · B (k, i 1)`, plus `b (0, i 1)`. -/
def prodBias {M K N : ℕ} (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun i => (∑ k : Fin K, A (ix2 (n0 := M) (i 0) k) * B (ix2 k (n1 := N) (i 1))) + b (ix2 (0 : Fin 1) (n1 := N) (i 1))

theorem prodBias_apply {M K N : ℕ} (A : (⟨2, ![M, K]⟩ : Shape).Idx → EReal) (B : (⟨2, ![K, N]⟩ : Shape).Idx → EReal)
    (b : (⟨2, ![1, N]⟩ : Shape).Idx → EReal) (p : Fin M) (q : Fin N) :
    prodBias A B b (ix2 p q) = (∑ k : Fin K, A (ix2 p k) * B (ix2 k q)) + b (ix2 (0 : Fin 1) q) := rfl

end Cert.KernelIdeal.Hand

end
-- ==== Proof.KernelValue.lean ====
/-
  The kernel program's two results as the specification, given the three regions' output arrays.

  The host stretches only re-lay arrays. Region 0 multiplies the 8192 rows of the query array (row s * 8 + b is
  position s, batch row b) by the transposed packed weight and adds the bias row: its output is the packed projection.
  Laid out as 48 head slots of 64 places it is region 1's input, so region 1's outputs are the mixed values and the
  head average of the packed projection of the arguments; the second is the specification's second result, and no later
  stretch or region writes it. The mixed values, laid out again as 8192 rows of 1024 features (feature e is head
  e / 64, place e % 64), are multiplied by the transposed output weight with the output bias added, and the rows are
  laid out as [1024, 8, 1024]: the specification's first result.
-/
import proofs.«128804_j1632087573280_2_alg».proof.Proof.KI.Main
import proofs.«128804_j1632087573280_2_alg».proof.Proof.HostReads
import proofs.«128804_j1632087573280_2_alg».proof.Proof.AttnZ
import proofs.«128804_j1632087573280_2_alg».proof.Proof.ArrDef

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Region 0's three input arrays as it enters them (the rows of the query array, the transposed packed weight, the
    bias row), and region 2's (the rows of the mixed values, the transposed output weight, the output bias row),
    as arrays of extended reals. -/
abbrev in0_l : S8192x1024.Idx → EReal := E1 m ρ c main_v0
abbrev in0_r : S1024x3072.Idx → EReal := E1 m ρ c main_v2
abbrev in0_b : S1x3072.Idx → EReal := E1 m ρ c main_v3
abbrev in2_l : S8192x1024.Idx → EReal := E5 m ρ c main_v7
abbrev in2_r : S1024x1024.Idx → EReal := E5 m ρ c main_v9
abbrev in2_b : S1x1024.Idx → EReal := E5 m ρ c main_v10

/-- The five argument arrays as launched. -/
abbrev a0 : Cert.Attn.AX := m ((c : Thread nD τ).loc main_arg0)
abbrev a1 : Cert.Attn.AW := m ((c : Thread nD τ).loc main_arg1)
abbrev a2 : Cert.Attn.AB := m ((c : Thread nD τ).loc main_arg2)
abbrev a3 : Cert.Attn.AWo := m ((c : Thread nD τ).loc main_arg3)
abbrev a4 : Cert.Attn.ABo := m ((c : Thread nD τ).loc main_arg4)

/-- Row s * 8 + b of the arrays of 8192 rows. -/
def rowOf (s : Fin 1024) (b : Fin 8) : Fin 8192 := ⟨s.val * 8 + b.val, by omega⟩

theorem rowOf_div (s : Fin 1024) (b : Fin 8) :
    (⟨(rowOf s b).val / 8, by have := (rowOf s b).isLt; omega⟩ : Fin 1024) = s :=
  Fin.ext (by show (s.val * 8 + b.val) / 8 = s.val; omega)

theorem rowOf_mod (s : Fin 1024) (b : Fin 8) : (⟨(rowOf s b).val % 8, by omega⟩ : Fin 8) = b :=
  Fin.ext (by show (s.val * 8 + b.val) % 8 = b.val; omega)

/-! ## Region 0: the packed projection -/

/-- Row s * 8 + b of region 0's left array is the query array at position s, batch row b. -/
theorem E1_v0 (s : Fin 1024) (b : Fin 8) (k : Fin 1024) :
    in0_l m ρ c (ix2 (rowOf s b) k) = a0 m c (ix3 s b k) := by
  have e : in0_l m ρ c = shapeCast S8192x1024 (B0 m ρ c (Proc.devRef .tc main_arg0)) shapeCasts_S1024x8x1024_S8192x1024 :=
    host0_v0 (B0 m ρ c)
  rw [e, cast_rows_apply, rowOf_div, rowOf_mod]

/-- Region 0's right array is the packed weight transposed. -/
theorem E1_v2 (k : Fin 1024) (f : Fin 3072) : in0_r m ρ c (ix2 k f) = a1 m c (ix2 f k) := by
  have e : in0_r m ρ c = _ := host0_v2 (B0 m ρ c)
  rw [e, truncf_apply, transpose_w_apply]

/-- Region 0's bias row is the bias vector. -/
theorem E1_v3 (u : Fin 1) (f : Fin 3072) : in0_b m ρ c (ix2 u f) = a2 m c (ix1 f) := by
  have e : in0_b m ρ c = shapeCast S1x3072 (B0 m ρ c (Proc.devRef .tc main_arg2)) shapeCasts_S3072_S1x3072 :=
    host0_v3 (B0 m ρ c)
  rw [e, cast_row3072_apply]

/-- Region 0's output at row s * 8 + b, column f, is the packed projection at position s, batch row b, column f. -/
theorem B2_v4
    (h0 : (dat0 (F := Ideal) (E1 m ρ) c).arrAt 3 cfg0.N
            = prodBias (E1 m ρ c main_v0) (E1 m ρ c main_v2) (E1 m ρ c main_v3))
    (s : Fin 1024) (b : Fin 8) (f : Fin 3072) :
    (B2 m ρ c (Proc.devRef .tc main_v4) : S8192x3072.Idx → EReal) (ix2 (rowOf s b) f)
      = Cert.Attn.qkv (a0 m c) (a1 m c) (a2 m c) s b f := by
  have e : (B2 m ρ c (Proc.devRef .tc main_v4) : S8192x3072.Idx → EReal) = _ := (B2_arr m ρ c 3).trans h0
  rw [e, prodBias_apply]
  show (∑ k : Fin 1024, in0_l m ρ c (ix2 (rowOf s b) k) * in0_r m ρ c (ix2 k f)) + in0_b m ρ c (ix2 0 f) = _
  have hsum : ∀ k : Fin 1024, in0_l m ρ c (ix2 (rowOf s b) k) * in0_r m ρ c (ix2 k f)
      = a0 m c (ix3 s b k) * a1 m c (ix2 f k) := fun k => by rw [E1_v0, E1_v2]
  rw [Finset.sum_congr rfl fun k _ => hsum k, E1_v3]
  rfl

/-- Region 1's input array is the packed projection of the arguments, laid out in head slots. -/
theorem E3_v5
    (h0 : (dat0 (F := Ideal) (E1 m ρ) c).arrAt 3 cfg0.N
            = prodBias (E1 m ρ c main_v0) (E1 m ρ c main_v2) (E1 m ρ c main_v3)) :
    (E3 m ρ c main_v5 : Cert.AttnZ.AZ) = Cert.AttnZ.pack (a0 m c) (a1 m c) (a2 m c) := by
  have e : (E3 m ρ c main_v5 : Cert.AttnZ.AZ)
      = shapeCast S1024x8x48x64 (B2 m ρ c (Proc.devRef .tc main_v4)) shapeCasts_S8192x3072_S1024x8x48x64 :=
    host1_v5 (B2 m ρ c)
  rw [e]
  funext i
  obtain ⟨s, b, j, d, rfl⟩ : ∃ (s : Fin 1024) (b : Fin 8) (j : Fin 48) (d : Fin 64), i = ix4 s b j d :=
    ⟨i 0, i 1, i 2, i 3, eq_ix4 i⟩
  rw [cast_pack_apply]
  exact B2_v4 m ρ c h0 s b _

/-! ## Region 1's outputs -/

/-- Region 1's first output is the mixed values of the packed projection. -/
theorem B4_mix
    (h0 : (dat0 (F := Ideal) (E1 m ρ) c).arrAt 3 cfg0.N
            = prodBias (E1 m ρ c main_v0) (E1 m ρ c main_v2) (E1 m ρ c main_v3))
    (h13 : (dat1 (F := Ideal) (E3 m ρ) c).arrAt 3 cfg1.N = Cert.AttnZ.mix (E3 m ρ c main_v5)) :
    (B4 m ρ c (Proc.devRef .tc main_v6_0) : S1024x8x16x64.Idx → EReal)
      = Cert.AttnZ.mix (Cert.AttnZ.pack (a0 m c) (a1 m c) (a2 m c)) := by
  rw [B4_v6_0, h13, E3_v5 m ρ c h0]

/-- The output weight reaches region 2's entry as launched. -/
theorem B4_arg3 : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide) (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

/-- The output bias reaches region 2's entry as launched. -/
theorem B4_arg4 : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide) (by decide)
    _ = B2 m ρ c (Proc.devRef .tc main_arg4) := StableHlo.after_of_writes_sub hostOps1 _ hostOps1_writes (r := main_arg4) (by decide)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
    _ = m ((c : Thread nD τ).loc main_arg4) := rfl

/-! ## Region 2: the output projection -/

/-- Row s * 8 + b, column e of region 2's left array is the mixed value at head e / 64, place e % 64. -/
theorem E5_v7
    (h0 : (dat0 (F := Ideal) (E1 m ρ) c).arrAt 3 cfg0.N
            = prodBias (E1 m ρ c main_v0) (E1 m ρ c main_v2) (E1 m ρ c main_v3))
    (h13 : (dat1 (F := Ideal) (E3 m ρ) c).arrAt 3 cfg1.N = Cert.AttnZ.mix (E3 m ρ c main_v5))
    (s : Fin 1024) (b : Fin 8) (e : Fin 1024) :
    in2_l m ρ c (ix2 (rowOf s b) e)
      = Cert.AttnZ.mixAt (Cert.AttnZ.pack (a0 m c) (a1 m c) (a2 m c)) s b (Cert.Attn.headOf e) (Cert.Attn.placeOf e) := by
  have e' : in2_l m ρ c = _ := host2_v7 (B4 m ρ c)
  rw [e', cast_heads_apply, rowOf_div, rowOf_mod, B4_mix m ρ c h0 h13]
  rfl

/-- Region 2's right array is the output weight transposed. -/
theorem E5_v9 (k f : Fin 1024) : in2_r m ρ c (ix2 k f) = a3 m c (ix2 f k) := by
  have e : in2_r m ρ c = _ := host2_v9 (B4 m ρ c)
  rw [e, truncf_apply, transpose_wo_apply, B4_arg3]

/-- Region 2's bias row is the output bias. -/
theorem E5_v10 (u : Fin 1) (f : Fin 1024) : in2_b m ρ c (ix2 u f) = a4 m c (ix1 f) := by
  have e : in2_b m ρ c = _ := host2_v10 (B4 m ρ c)
  rw [e, cast_row1024_apply, B4_arg4]

/-- THE FIRST RESULT: given the three regions' output arrays, the kernel program's first result is the
    specification's output projection of the mixed values. -/
theorem out_val
    (h0 : (dat0 (F := Ideal) (E1 m ρ) c).arrAt 3 cfg0.N
            = prodBias (E1 m ρ c main_v0) (E1 m ρ c main_v2) (E1 m ρ c main_v3))
    (h13 : (dat1 (F := Ideal) (E3 m ρ) c).arrAt 3 cfg1.N = Cert.AttnZ.mix (E3 m ρ c main_v5))
    (h2 : (dat2 (F := Ideal) (E5 m ρ) c).arrAt 3 cfg2.N
            = prodBias (E5 m ρ c main_v7) (E5 m ρ c main_v9) (E5 m ρ c main_v10)) :
    B7 m ρ c (Proc.devRef .tc main_v12) = Cert.Attn.out (m ((c : Thread nD τ).loc main_arg0)) (m ((c : Thread nD τ).loc main_arg1))
      (m ((c : Thread nD τ).loc main_arg2)) (m ((c : Thread nD τ).loc main_arg3)) (m ((c : Thread nD τ).loc main_arg4)) := by
  have e12 : B7 m ρ c (Proc.devRef .tc main_v12) = _ := host3_v12 (B6 m ρ c)
  have e11 : (B6 m ρ c (Proc.devRef .tc main_v11) : S8192x1024.Idx → EReal) = _ := (B6_arr m ρ c 3).trans h2
  rw [e12, e11]
  funext i
  obtain ⟨s, b, f, rfl⟩ : ∃ (s : Fin 1024) (b : Fin 8) (f : Fin 1024), i = ix3 s b f := ⟨i 0, i 1, i 2, eq_ix3 i⟩
  rw [cast_unrows_apply]
  refine (prodBias_apply _ _ _ (rowOf s b) f).trans ?_
  show (∑ k : Fin 1024, in2_l m ρ c (ix2 (rowOf s b) k) * in2_r m ρ c (ix2 k f)) + in2_b m ρ c (ix2 0 f) = _
  have hsum : ∀ k : Fin 1024, in2_l m ρ c (ix2 (rowOf s b) k) * in2_r m ρ c (ix2 k f)
      = Cert.Attn.mix (a0 m c) (a1 m c) (a2 m c) s b (Cert.Attn.headOf k) (Cert.Attn.placeOf k) * a3 m c (ix2 f k) :=
    fun k => by rw [E5_v7 m ρ c h0 h13, E5_v9, Cert.AttnZ.mix_pack]
  rw [Finset.sum_congr rfl fun k _ => hsum k, E5_v10]
  rfl

/-- THE SECOND RESULT: given region 0's and region 1's output arrays, the kernel program's second result is the
    specification's head average of the attention weights. -/
theorem avg_val
    (h0 : (dat0 (F := Ideal) (E1 m ρ) c).arrAt 3 cfg0.N
            = prodBias (E1 m ρ c main_v0) (E1 m ρ c main_v2) (E1 m ρ c main_v3))
    (h14 : (dat1 (F := Ideal) (E3 m ρ) c).arrAt 4 cfg1.N = Cert.AttnZ.avg (E3 m ρ c main_v5)) :
    B7 m ρ c (Proc.devRef .tc main_v6_1) = Cert.Attn.avg (m ((c : Thread nD τ).loc main_arg0)) (m ((c : Thread nD τ).loc main_arg1))
      (m ((c : Thread nD τ).loc main_arg2)) := by
  have h1 : B7 m ρ c (Proc.devRef .tc main_v6_1) = B6 m ρ c (Proc.devRef .tc main_v6_1) :=
    StableHlo.after_of_writes_sub hostOps3 _ hostOps3_writes (r := main_v6_1) (by decide)
  have h2 : B6 m ρ c (Proc.devRef .tc main_v6_1) = B5 m ρ c (Proc.devRef .tc main_v6_1) :=
    B6_of_ne m ρ c main_v6_1 (by decide)
  have h3 : B5 m ρ c (Proc.devRef .tc main_v6_1) = B4 m ρ c (Proc.devRef .tc main_v6_1) :=
    StableHlo.after_of_writes_sub hostOps2 _ hostOps2_writes (r := main_v6_1) (by decide)
  rw [h1, h2, h3, B4_v6_1, h14, E3_v5 m ρ c h0]
  exact Cert.AttnZ.avg_pack _ _ _

end Cert.KernelIdeal.Hand

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.PayA.lean ====
import proofs.«128804_j1632087573280_2_alg».proof.Proof.Gen.KernelIdeal.Skeleton
import proofs.«128804_j1632087573280_2_alg».proof.Proof.LibIndex

noncomputable section

open scoped BigOperators

namespace Cert.Pay

open Cert.KernelIdeal Cert.KernelIdeal.Gen Idealize.ShloMosaic Idealize.ShloMosaic.ValueIdx Cert.LayoutLib

variable {α : Type}

/-- Sums and products of equal extended reals are equal. -/
theorem add_eq_add {a a' b b' : EReal} (h1 : a = a') (h2 : b = b') : a + b = a' + b' := by rw [h1, h2]
theorem mul_eq_mul {a a' b b' : EReal} (h1 : a = a') (h2 : b = b') : a * b = a' * b' := by rw [h1, h2]

/-! ## General lemmas at an index -/

/-- A cast of an array to its own shape reads the array. -/
theorem shapeCast_self_apply {s : Shape} (x : s.Idx → α) (h : s.ShapeCasts s) (j : s.Idx) : shapeCast s x h j = x j :=
  shapeCast_apply x h j j rfl

/-- A plain `[M, K] × [K, N]` product accumulated into the zero splat, read at `(p, q)`: the sum over the shared axis. -/
theorem matmul_plain_apply {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) (p : Fin M) (q : Fin N) :
    matmul D none L R (constant ⟨2, ![M, N]⟩ .f32 0x00000000#32) (ix2 p q) = ∑ k : Fin K, L (ix2 p k) * R (ix2 k q) :=
  (Ideal.matmul_constant_zero_apply D none L R (ix2 p q)).trans (dot_plain_sum D hD L R p q)

/-- A sum along the rows of a rank-two array (accumulated from the zero word), read at row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-! ## The two projection kernels -/

/-- The first projection's stored block: the product with the weight block plus the bias row. -/
theorem k0_pay1_apply (v0 : Vec Ideal S1024x1024 .f32) (v3 : Vec Ideal S1024x1024 .bf16) (v6 : Vec Ideal S1x1024 .f32)
    (r c : Fin 1024) :
    k0_pay1 (F := Ideal) v0 v3 v6 (ix2 r c) = (∑ k : Fin 1024, v0 (ix2 r k) * v3 (ix2 k c)) + v6 (ix2 0 c) := by
  unfold Gen.k0_pay1
  refine add_eq_add ?_ ?_
  · refine (matmul_plain_apply _ rfl _ _ r c).trans ?_
    refine Finset.sum_congr rfl fun k _ => ?_
    exact mul_eq_mul (shapeCast_self_apply _ _ _) (shapeCast_self_apply _ _ _)
  · refine (broadcastTo_1b_ab_apply _ _ r c).trans ?_
    exact shapeCast_self_apply _ _ _

/-- The output projection's stored block likewise. -/
theorem k2_pay1_apply (v0 : Vec Ideal S1024x1024 .bf16) (v2 : Vec Ideal S1024x1024 .bf16) (v5 : Vec Ideal S1x1024 .f32)
    (r c : Fin 1024) :
    k2_pay1 (F := Ideal) v0 v2 v5 (ix2 r c) = (∑ k : Fin 1024, v0 (ix2 r k) * v2 (ix2 k c)) + v5 (ix2 0 c) := by
  unfold Gen.k2_pay1
  refine add_eq_add ?_ ?_
  · refine (matmul_plain_apply _ rfl _ _ r c).trans ?_
    refine Finset.sum_congr rfl fun k _ => ?_
    exact mul_eq_mul (shapeCast_self_apply _ _ _) (shapeCast_self_apply _ _ _)
  · refine (broadcastTo_1b_ab_apply _ _ r c).trans ?_
    exact shapeCast_self_apply _ _ _

/-! ## The attention kernel: the normalised weights, the running sum of them, the final scale, the zero fills -/

/-- The weights: the exponential over its row's sum. -/
theorem k1_pay1_apply (v36 : FVec Ideal S1024x1024 .f32) (s s' : Fin 1024) :
    k1_pay1 (F := Ideal) v36 (ix2 s s') = Ideal.div (Ideal.exp (v36 (ix2 s s'))) (∑ t : Fin 1024, Ideal.exp (v36 (ix2 s t))) := by
  unfold Gen.k1_pay1
  refine congrArg (Ideal.div (Ideal.exp (v36 (ix2 s s')))) ?_
  refine (broadcastTo_col_apply _ _ s s').trans ?_
  refine (shapeCast_col_apply _ _ s (0 : Fin 1)).trans ?_
  exact rowSum_apply _ _ _ _ s

/-- The running sum of the weights over the heads. -/
theorem k1_pay2_apply (v36 : FVec Ideal S1024x1024 .f32) (v42 : Vec Ideal S1x1024x1024 .f32) (s s' : Fin 1024) :
    k1_pay2 (F := Ideal) v36 v42 (ix3 0 s s') = v42 (ix3 0 s s') + k1_pay1 (F := Ideal) v36 (ix2 s s') := by
  unfold Gen.k1_pay2
  refine (shapeCast_ab_1ab_apply _ _ (0 : Fin 1) s s').trans ?_
  exact add_eq_add (shapeCast_1ab_ab_apply _ _ s s') rfl

/-- The last head's scaling of the summed weights. -/
theorem k1_pay4_apply (v66 : Vec Ideal S1x1024x1024 .f32) (s s' : Fin 1024) :
    k1_pay4 (F := Ideal) v66 (ix3 0 s s') = v66 (ix3 0 s s') * Ideal.ofBits .f32 0x3D800000#32 := by
  unfold Gen.k1_pay4
  refine (shapeCast_ab_1ab_apply _ _ (0 : Fin 1) s s').trans ?_
  exact mul_eq_mul (shapeCast_1ab_ab_apply _ _ s s') rfl

/-- The sixteen-bit zero word is zero. -/
theorem ofBits_zero_bf16 : Ideal.ofBits .bf16 0x0000#16 = 0 := by simp [Ideal.ofBits, Ideal.ieee]

/-- The first head's zero fill of the output block. -/
theorem k1_pay5_apply (s : Fin 1024) (u : Fin 1) (j : Fin 16) (d : Fin 64) :
    k1_pay5 (F := Ideal) (ix4 s u j d) = 0 := by
  unfold Gen.k1_pay5
  exact ofBits_zero_bf16

/-- The first head's zero fill of the weights block. -/
theorem k1_pay6_apply (u : Fin 1) (s s' : Fin 1024) :
    k1_pay6 (F := Ideal) (ix3 u s s') = 0 := by
  unfold Gen.k1_pay6
  exact Ideal.ofBits_zero_f32

end Cert.Pay

end
-- ==== Proof.Arr0.lean ====
/-
  Region 0's output array as one function of the arrays the region finds: the product of the left array [8192, 1024]
  with the right array [1024, 3072] plus the bias row.  The grid is 8 × 3; point t is row block t / 3 and column block t % 3:
  it reads rows 1024 (t / 3) … + 1023 of the left array, columns 1024 (t % 3) … + 1023 of the right array and of the bias
  row, and writes back that block of rows and columns of the output.  What a point writes back is that block of the one
  whole-array function; the twenty-four blocks cover the array.
-/
import proofs.«128804_j1632087573280_2_alg».proof.Proof.KI.Body0
import proofs.«128804_j1632087573280_2_alg».proof.Proof.PayA
import proofs.«128804_j1632087573280_2_alg».proof.Proof.ArrDef
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

theorem hz0 : (![0, 0] : Fin 2 → Nat) = fun _ => 0 := funext fun a => by fin_cases a <;> rfl

/-- The index maps over the grid: point `t` is row block `t / 3`, column block `t % 3`; the left block moves down the
    rows, the right block and the bias block along the columns, the output's block both ways. -/
theorem idx0 : ∀ t : Fin cfg0.N, win0_0.index t (0 : Fin 2) = t.val / 3
    ∧ win0_0.index t (1 : Fin 2) = 0
    ∧ win0_1.index t (0 : Fin 2) = 0
    ∧ win0_1.index t (1 : Fin 2) = t.val % 3
    ∧ win0_2.index t (0 : Fin 2) = 0
    ∧ win0_2.index t (1 : Fin 2) = t.val % 3
    ∧ win0_3.index t (0 : Fin 2) = t.val / 3
    ∧ win0_3.index t (1 : Fin 2) = t.val % 3 :=
  (by decide +kernel : ∀ t : Fin grid0.N, _)

/-- The stored block at an entry, when the three loaded blocks are the arrays' entries the row map `ρ` and the
    column map `σ` name. -/
theorem pay0_at (x0 : Vec Ideal S1024x1024 .f32) (x1 : Vec Ideal S1024x1024 .bf16) (x2 : Vec Ideal S1x1024 .f32)
    (A : S8192x1024.Idx → EReal) (B : S1024x3072.Idx → EReal) (b : S1x3072.Idx → EReal)
    (ρ : Fin 1024 → Fin 8192) (σ : Fin 1024 → Fin 3072)
    (h0 : ∀ r k : Fin 1024, x0 (ix2 r k) = A (ix2 (ρ r) k))
    (h1 : ∀ k q : Fin 1024, x1 (ix2 k q) = B (ix2 k (σ q)))
    (h2 : ∀ q : Fin 1024, x2 (ix2 (0 : Fin 1) q) = b (ix2 (0 : Fin 1) (σ q)))
    (y : S1024x1024.Idx) (i : S8192x3072.Idx) (hi0 : (i 0).val = (ρ (y 0)).val) (hi1 : (i 1).val = (σ (y 1)).val) :
    k0_pay1 (F := Ideal) x0 x1 x2 y = prodBias A B b i := by
  obtain ⟨r, q, rfl⟩ : ∃ (r q : Fin 1024), y = ix2 r q := ⟨y 0, y 1, eq_ix2 y⟩
  have e0 : i 0 = ρ r := Fin.ext hi0
  have e1 : i 1 = σ q := Fin.ext hi1
  have hi : i = ix2 (ρ r) (σ q) := (eq_ix2 i).trans (by rw [e0, e1]; rfl)
  rw [hi, Cert.Pay.k0_pay1_apply, prodBias_apply, h2]
  congr 1
  exact Finset.sum_congr rfl fun k _ => by rw [h0, h1]

variable (V : (c : Dev nD) → (b : Ref sig .tc) → Buf (Elt Ideal) ((c : Thread nD τ).loc b))

/-- The left block at point `t` is rows `1024 (t / 3) … + 1023` of the left array. -/
theorem iblk0_0_apply (c : Dev nD) (t : Fin cfg0.N) (r k : Fin 1024) (i : S8192x1024.Idx)
    (hi0 : (i 0).val = t.val / 3 * 1024 + r.val) (hi1 : (i 1).val = k.val) :
    (iblk0 V c 0 t : Vec Ideal S1024x1024 .f32) (ix2 r k) = (V c main_v0 : S8192x1024.Idx → EReal) i := by
  obtain ⟨e0, e1, -⟩ := idx0 t
  unfold iblk0
  rw [View.read_apply]
  show V c main_v0 _ = V c main_v0 _
  congr 1
  funext a
  apply Fin.ext
  match a with
  | ⟨0, _⟩ => show win0_0.index t 0 * 1024 + 1 * r.val = (i 0).val; rw [e0, hi0]; omega
  | ⟨1, _⟩ => show win0_0.index t 1 * 1024 + 1 * k.val = (i 1).val; rw [e1, hi1]; omega

/-- The right block at point `t` is columns `1024 (t % 3) … + 1023` of the right array. -/
theorem iblk0_1_apply (c : Dev nD) (t : Fin cfg0.N) (k q : Fin 1024) (i : S1024x3072.Idx)
    (hi0 : (i 0).val = k.val) (hi1 : (i 1).val = t.val % 3 * 1024 + q.val) :
    (iblk0 V c 1 t : Vec Ideal S1024x1024 .bf16) (ix2 k q) = (V c main_v2 : S1024x3072.Idx → EReal) i := by
  obtain ⟨-, -, e2, e3, -⟩ := idx0 t
  unfold iblk0
  rw [View.read_apply]
  show V c main_v2 _ = V c main_v2 _
  congr 1
  funext a
  apply Fin.ext
  match a with
  | ⟨0, _⟩ => show win0_1.index t 0 * 1024 + 1 * k.val = (i 0).val; rw [e2, hi0]; omega
  | ⟨1, _⟩ => show win0_1.index t 1 * 1024 + 1 * q.val = (i 1).val; rw [e3, hi1]; omega

/-- The bias block at point `t` is columns `1024 (t % 3) … + 1023` of the bias row. -/
theorem iblk0_2_apply (c : Dev nD) (t : Fin cfg0.N) (q : Fin 1024) (i : S1x3072.Idx)
    (hi0 : (i 0).val = 0) (hi1 : (i 1).val = t.val % 3 * 1024 + q.val) :
    (iblk0 V c 2 t : Vec Ideal S1x1024 .f32) (ix2 (0 : Fin 1) q) = (V c main_v3 : S1x3072.Idx → EReal) i := by
  obtain ⟨-, -, -, -, e4, e5, -⟩ := idx0 t
  unfold iblk0
  rw [View.read_apply]
  show V c main_v3 _ = V c main_v3 _
  congr 1
  funext a
  apply Fin.ext
  match a with
  | ⟨0, _⟩ => show win0_2.index t 0 * 1 + 1 * 0 = (i 0).val; rw [e4, hi0]
  | ⟨1, _⟩ => show win0_2.index t 1 * 1024 + 1 * q.val = (i 1).val; rw [e5, hi1]; omega

/-- The array after the region: the product of the left array with the right array plus the bias row. -/
abbrev G0 (c : Dev nD) : S8192x3072.Idx → EReal := prodBias (V c main_v0) (V c main_v2) (V c main_v3)

/-- What point `t` writes back is block `t` of that array. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0
  rw [View.canon_unit_zero hz0]
  simp only [View.ld_unit_zero (S := S1024x1024) hz0, View.ld_unit_zero (S := S1x1024) hz0]
  obtain ⟨-, -, -, -, -, -, e6, e7⟩ := idx0 t
  have ht : t.val < 24 := by have h := t.isLt; have hN : cfg0.N = 24 := N_0; omega
  funext y
  have hy0 : (y 0).val < 1024 := (y 0).isLt
  have hy1 : (y 1).val < 1024 := (y 1).isLt
  show k0_pay1 (F := Ideal) (iblk0 V c 0 t) (iblk0 V c 1 t) (iblk0 V c 2 t) y = G0 V c (((cfg0.win 3).blk t).view.emb y)
  refine pay0_at _ _ _ _ _ _ (fun r => ⟨t.val / 3 * 1024 + r.val, by omega⟩) (fun q => ⟨t.val % 3 * 1024 + q.val, by omega⟩)
    ?_ ?_ ?_ y _ ?_ ?_
  · intro r k; exact iblk0_0_apply V c t r k _ rfl rfl
  · intro k q; exact iblk0_1_apply V c t k q _ rfl rfl
  · intro q; exact iblk0_2_apply V c t q _ rfl rfl
  · show win0_3.index t 0 * 1024 + 1 * (y 0).val = t.val / 3 * 1024 + (y 0).val; rw [e6]; omega
  · show win0_3.index t 1 * 1024 + 1 * (y 1).val = t.val % 3 * 1024 + (y 1).val; rw [e7]; omega

/-- An index of the array is in point `t`'s block iff each coordinate is in the block's range on its axis. -/
theorem mem_blk0 (t : Fin cfg0.N) (i : S8192x3072.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v4).slice (win0_3.rect t)).set ↔ _
  rw [View.set_slice_whole, Rect.mem_set_unit]
  exact Iff.rfl

/-- Every index of the array is in the block of the point its row block and column block name. -/
theorem cover0_arr (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 24 := N_0
  let t : Fin cfg0.N := ⟨(i 0).val / 1024 * 3 + (i 1).val / 1024, by rw [hN]; omega⟩
  obtain ⟨-, -, -, -, -, -, e6, e7⟩ := idx0 t
  have ht : t.val = (i 0).val / 1024 * 3 + (i 1).val / 1024 := rfl
  refine ⟨t, flush0_3 t, ?_⟩
  rw [mem_blk0]
  intro a
  match a with
  | ⟨0, _⟩ => show win0_3.index t 0 * 1024 ≤ (i 0).val ∧ (i 0).val < win0_3.index t 0 * 1024 + 1024; rw [e6, ht]; omega
  | ⟨1, _⟩ => show win0_3.index t 1 * 1024 ≤ (i 1).val ∧ (i 1).val < win0_3.index t 1 * 1024 + 1024; rw [e7, ht]; omega

/-- THE ARRAY after the region: the product of the left array with the right array plus the bias row. -/
theorem arr0 (c : Dev nD) :
    (dat0 (F := Ideal) V c).arrAt 3 cfg0.N = prodBias (V c main_v0) (V c main_v2) (V c main_v3) :=
  (dat0 (F := Ideal) V c).arrAt_eq_of_cover 3 (G0 V c) (fun t _ => flushed0_eq V c t) cover0_arr

end Cert.KernelIdeal.Hand

end
-- ==== Proof.Arr2.lean ====
/-
  Region 2's output array as one function of the arrays the region finds: the product of the left array [8192, 1024]
  with the right array [1024, 1024] plus the bias row.  The grid has eight points; point t reads rows 1024 t … 1024 t + 1023
  of the left array, all of the right array and of the bias row, and writes back rows 1024 t … 1024 t + 1023 of the output.
  What a point writes back is that block of the one whole-array function; the eight blocks cover the array.
-/
import proofs.«128804_j1632087573280_2_alg».proof.Proof.KI.Body2
import proofs.«128804_j1632087573280_2_alg».proof.Proof.PayA
import proofs.«128804_j1632087573280_2_alg».proof.Proof.ArrDef
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

theorem hz2 : (![0, 0] : Fin 2 → Nat) = fun _ => 0 := funext fun a => by fin_cases a <;> rfl

/-- The index maps over the grid: the left block moves down the rows with the output's, the right block and the bias
    block stay, and the output's block is the point's. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- The stored block at an entry, when the three loaded blocks are the arrays' entries the row map `ρ` names. -/
theorem pay2_at (x0 : Vec Ideal S1024x1024 .bf16) (x1 : Vec Ideal S1024x1024 .bf16) (x2 : Vec Ideal S1x1024 .f32)
    (A : S8192x1024.Idx → EReal) (B : S1024x1024.Idx → EReal) (b : S1x1024.Idx → EReal) (ρ : Fin 1024 → Fin 8192)
    (h0 : ∀ r k : Fin 1024, x0 (ix2 r k) = A (ix2 (ρ r) k))
    (h1 : ∀ k q : Fin 1024, x1 (ix2 k q) = B (ix2 k q))
    (h2 : ∀ q : Fin 1024, x2 (ix2 (0 : Fin 1) q) = b (ix2 (0 : Fin 1) q))
    (y : S1024x1024.Idx) (i : S8192x1024.Idx) (hi0 : (i 0).val = (ρ (y 0)).val) (hi1 : (i 1).val = (y 1).val) :
    k2_pay1 (F := Ideal) x0 x1 x2 y = prodBias A B b i := by
  obtain ⟨r, q, rfl⟩ : ∃ (r q : Fin 1024), y = ix2 r q := ⟨y 0, y 1, eq_ix2 y⟩
  have e0 : i 0 = ρ r := Fin.ext hi0
  have e1 : i 1 = q := Fin.ext hi1
  have hi : i = ix2 (ρ r) q := (eq_ix2 i).trans (by rw [e0, e1]; rfl)
  rw [hi, Cert.Pay.k2_pay1_apply, prodBias_apply, h2]
  congr 1
  exact Finset.sum_congr rfl fun k _ => by rw [h0, h1]

variable (V : (c : Dev nD) → (b : Ref sig .tc) → Buf (Elt Ideal) ((c : Thread nD τ).loc b))

/-- The left block at point `t` is rows `1024 t … 1024 t + 1023` of the left array. -/
theorem iblk2_0_apply (c : Dev nD) (t : Fin cfg2.N) (r k : Fin 1024) (i : S8192x1024.Idx)
    (hi0 : (i 0).val = t.val * 1024 + r.val) (hi1 : (i 1).val = k.val) :
    (iblk2 V c 0 t : Vec Ideal S1024x1024 .bf16) (ix2 r k) = (V c main_v7 : S8192x1024.Idx → EReal) i := by
  obtain ⟨e0, e1, -⟩ := idx2 t
  unfold iblk2
  rw [View.read_apply]
  show V c main_v7 _ = V c main_v7 _
  congr 1
  funext a
  apply Fin.ext
  match a with
  | ⟨0, _⟩ => show win2_0.index t 0 * 1024 + 1 * r.val = (i 0).val; rw [e0, hi0]; omega
  | ⟨1, _⟩ => show win2_0.index t 1 * 1024 + 1 * k.val = (i 1).val; rw [e1, hi1]; omega

/-- The right block at every point is the right array. -/
theorem iblk2_1_apply (c : Dev nD) (t : Fin cfg2.N) (k q : Fin 1024) :
    (iblk2 V c 1 t : Vec Ideal S1024x1024 .bf16) (ix2 k q) = (V c main_v9 : S1024x1024.Idx → EReal) (ix2 k q) := by
  obtain ⟨-, -, e2, e3, -⟩ := idx2 t
  unfold iblk2
  rw [View.read_apply]
  show V c main_v9 _ = V c main_v9 _
  congr 1
  funext a
  apply Fin.ext
  match a with
  | ⟨0, _⟩ => show win2_1.index t 0 * 1024 + 1 * k.val = k.val; rw [e2]; omega
  | ⟨1, _⟩ => show win2_1.index t 1 * 1024 + 1 * q.val = q.val; rw [e3]; omega

/-- The bias block at every point is the bias row. -/
theorem iblk2_2_apply (c : Dev nD) (t : Fin cfg2.N) (q : Fin 1024) :
    (iblk2 V c 2 t : Vec Ideal S1x1024 .f32) (ix2 (0 : Fin 1) q) = (V c main_v10 : S1x1024.Idx → EReal) (ix2 (0 : Fin 1) q) := by
  obtain ⟨-, -, -, -, e4, e5, -⟩ := idx2 t
  unfold iblk2
  rw [View.read_apply]
  show V c main_v10 _ = V c main_v10 _
  congr 1
  funext a
  apply Fin.ext
  match a with
  | ⟨0, _⟩ => show win2_2.index t 0 * 1 + 1 * 0 = 0; rw [e4]
  | ⟨1, _⟩ => show win2_2.index t 1 * 1024 + 1 * q.val = q.val; rw [e5]; omega

/-- The array after the region: the product of the left array with the right array plus the bias row. -/
abbrev G2 (c : Dev nD) : S8192x1024.Idx → EReal := prodBias (V c main_v7) (V c main_v9) (V c main_v10)

/-- What point `t` writes back is block `t` of that array. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2
  rw [View.canon_unit_zero hz2]
  simp only [View.ld_unit_zero (S := S1024x1024) hz2, View.ld_unit_zero (S := S1x1024) hz2]
  obtain ⟨-, -, -, -, -, -, e6, e7⟩ := idx2 t
  have ht : t.val < 8 := by have h := t.isLt; have hN : cfg2.N = 8 := N_2; omega
  funext y
  have hy0 : (y 0).val < 1024 := (y 0).isLt
  show k2_pay1 (F := Ideal) (iblk2 V c 0 t) (iblk2 V c 1 t) (iblk2 V c 2 t) y = G2 V c (((cfg2.win 3).blk t).view.emb y)
  refine pay2_at _ _ _ _ _ _ (fun r => ⟨t.val * 1024 + r.val, by omega⟩) ?_ ?_ ?_ y _ ?_ ?_
  · intro r k; exact iblk2_0_apply V c t r k _ rfl rfl
  · intro k q; exact iblk2_1_apply V c t k q
  · intro q; exact iblk2_2_apply V c t q
  · show win2_3.index t 0 * 1024 + 1 * (y 0).val = t.val * 1024 + (y 0).val; rw [e6]; omega
  · show win2_3.index t 1 * 1024 + 1 * (y 1).val = (y 1).val; rw [e7]; omega

/-- An index of the array is in point `t`'s block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v11).slice (win2_3.rect t)).set ↔ _
  rw [View.set_slice_whole, Rect.mem_set_unit]
  exact Iff.rfl

/-- Every index of the array is in the block of the point its row names. -/
theorem cover2_arr (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  let t : Fin cfg2.N := ⟨(i 0).val / 1024, by rw [hN]; omega⟩
  obtain ⟨-, -, -, -, -, -, e6, e7⟩ := idx2 t
  have ht : t.val = (i 0).val / 1024 := rfl
  refine ⟨t, flush2_3 t, ?_⟩
  rw [mem_blk2]
  intro a
  match a with
  | ⟨0, _⟩ => show win2_3.index t 0 * 1024 ≤ (i 0).val ∧ (i 0).val < win2_3.index t 0 * 1024 + 1024; rw [e6, ht]; omega
  | ⟨1, _⟩ => show win2_3.index t 1 * 1024 ≤ (i 1).val ∧ (i 1).val < win2_3.index t 1 * 1024 + 1024; rw [e7]; omega

/-- THE ARRAY after the region: the product of the left array with the right array plus the bias row. -/
theorem arr2 (c : Dev nD) :
    (dat2 (F := Ideal) V c).arrAt 3 cfg2.N = prodBias (V c main_v7) (V c main_v9) (V c main_v10) :=
  (dat2 (F := Ideal) V c).arrAt_eq_of_cover 3 (G2 V c) (fun t _ => flushed2_eq V c t) cover2_arr

end Cert.KernelIdeal.Hand

end
-- ==== Proof.Att1.lean ====
import proofs.«128804_j1632087573280_2_alg».proof.Proof.KI.Body1
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## What each case's stores leave in the two output blocks, as the payloads of the blocks read -/

/-- A middle head leaves, in the first output block holding `xo3`, the block plus the head's mixed values in the head's column. -/
theorem out_B_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i) (x0 x1 x2 : Vec F S1024x1x16x64 .bf16) (xo3 : Vec F S1024x1x16x64 .bf16) (xo4 : Vec F S1x1024x1024 .f32) :
    out1_B_3 c i arg2 harg2 arg3 harg3 arg4 harg4 arg5 harg5 arg6 harg6 hc0 hc1 x0 x1 x2 xo3 xo4
      = k1_pay3 (k1_pay7 i) (k1_pay9 i x2) (k1_pay10 i x0 x1) xo3 := by
  unfold out1_B_3
  rw [View.read_writes_eq_canon _ _ _ (cover1_B_3 c i arg2 harg2 arg3 harg3 arg4 harg4 arg5 harg5 arg6 harg6 hc0 hc1 x0 x1 x2 xo3 xo4)]
  unfold kernelRun1_B
  dsimp only
  sl_unfold_words
  rw [View.canon_unit_zero hz4]
  simp only [View.readAt_eq_ld, harg2.read_unread, harg3.read_unread, harg4.read_unread, harg5.read_unread, harg6.read_unread,
    View.ld_unit_zero (S := S1024x1x16x64) hz4, View.ld_unit_zero (S := S1x1024x1024) hz3]

/-- A middle head leaves, in the second output block holding `xo4`, the block plus the head's weights. -/
theorem out_B_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : ¬cond1_1 i) (x0 x1 x2 : Vec F S1024x1x16x64 .bf16) (xo3 : Vec F S1024x1x16x64 .bf16) (xo4 : Vec F S1x1024x1024 .f32) :
    out1_B_4 c i arg2 harg2 arg3 harg3 arg4 harg4 arg5 harg5 arg6 harg6 hc0 hc1 x0 x1 x2 xo3 xo4
      = k1_pay2 (k1_pay10 i x0 x1) xo4 := by
  unfold out1_B_4
  rw [View.read_writes_eq_canon _ _ _ (cover1_B_4 c i arg2 harg2 arg3 harg3 arg4 harg4 arg5 harg5 arg6 harg6 hc0 hc1 x0 x1 x2 xo3 xo4)]
  unfold kernelRun1_B
  dsimp only
  sl_unfold_words
  rw [View.canon_unit_zero hz3]
  simp only [View.readAt_eq_ld, harg2.read_unread, harg3.read_unread, harg4.read_unread, harg5.read_unread, harg6.read_unread,
    View.ld_unit_zero (S := S1024x1x16x64) hz4, View.ld_unit_zero (S := S1x1024x1024) hz3]

/-- The last head leaves in the first output block what a middle head does. -/
theorem out_C_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i) (x0 x1 x2 : Vec F S1024x1x16x64 .bf16) (xo3 : Vec F S1024x1x16x64 .bf16) (xo4 : Vec F S1x1024x1024 .f32) :
    out1_C_3 c i arg2 harg2 arg3 harg3 arg4 harg4 arg5 harg5 arg6 harg6 hc0 hc1 x0 x1 x2 xo3 xo4
      = k1_pay3 (k1_pay7 i) (k1_pay9 i x2) (k1_pay10 i x0 x1) xo3 := by
  unfold out1_C_3
  rw [View.read_writes_eq_canon _ _ _ (cover1_C_3 c i arg2 harg2 arg3 harg3 arg4 harg4 arg5 harg5 arg6 harg6 hc0 hc1 x0 x1 x2 xo3 xo4)]
  unfold kernelRun1_C
  dsimp only
  sl_unfold_words
  rw [View.canon_unit_zero hz4]
  simp only [View.readAt_eq_ld, harg2.read_unread, harg3.read_unread, harg4.read_unread, harg5.read_unread, harg6.read_unread,
    View.ld_unit_zero (S := S1024x1x16x64) hz4, View.ld_unit_zero (S := S1x1024x1024) hz3]

/-- The last head adds its weights into the second output block and then scales the block. -/
theorem out_C_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : ¬cond1_0 i) (hc1 : cond1_1 i) (x0 x1 x2 : Vec F S1024x1x16x64 .bf16) (xo3 : Vec F S1024x1x16x64 .bf16) (xo4 : Vec F S1x1024x1024 .f32) :
    out1_C_4 c i arg2 harg2 arg3 harg3 arg4 harg4 arg5 harg5 arg6 harg6 hc0 hc1 x0 x1 x2 xo3 xo4
      = k1_pay4 (k1_pay2 (k1_pay10 i x0 x1) xo4) := by
  unfold out1_C_4
  rw [View.read_writes_eq_canon _ _ _ (cover1_C_4 c i arg2 harg2 arg3 harg3 arg4 harg4 arg5 harg5 arg6 harg6 hc0 hc1 x0 x1 x2 xo3 xo4)]
  unfold kernelRun1_C
  dsimp only
  sl_unfold_words
  rw [View.canon_cons_unit_zero (S := S1x1024x1024) hz3, View.readCov_unit_zero (S := S1x1024x1024) _ hz3]
  simp only [View.readAt_eq_ld, harg2.read_unread, harg3.read_unread, harg4.read_unread, harg5.read_unread, harg6.read_unread,
    View.ld_unit_zero (S := S1024x1x16x64) hz4, View.ld_unit_zero (S := S1x1024x1024) hz3]

/-- The first head clears the first output block and then adds its mixed values in its column. -/
theorem out_A_3 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i) (x0 x1 x2 : Vec F S1024x1x16x64 .bf16) :
    out1_A_3 c i arg2 harg2 arg3 harg3 arg4 harg4 arg5 harg5 arg6 harg6 hc0 hc1 x0 x1 x2
      = k1_pay3 (k1_pay7 i) (k1_pay9 i x2) (k1_pay10 i x0 x1) (k1_pay5 (F := F)) := by
  unfold out1_A_3
  rw [View.read_writes_eq_canon _ _ _ (cover1_A_3 c i arg2 harg2 arg3 harg3 arg4 harg4 arg5 harg5 arg6 harg6 hc0 hc1 x0 x1 x2)]
  unfold kernelRun1_A
  dsimp only
  sl_unfold_words
  rw [View.canon_cons_unit_zero (S := S1024x1x16x64) hz4, View.readCov_unit_zero (S := S1024x1x16x64) _ hz4]
  simp only [View.readAt_eq_ld, harg2.read_unread, harg3.read_unread, harg4.read_unread, harg5.read_unread, harg6.read_unread,
    View.ld_unit_zero (S := S1024x1x16x64) hz4, View.ld_unit_zero (S := S1x1024x1024) hz3]

/-- The first head clears the second output block and then adds its weights. -/
theorem out_A_4 (c : Dev nD) (i : grid1.Coords) (arg2 : Memref sig .tc .vmem S1024x1x16x64 .bf16) (harg2 : arg2.IsWhole) (arg3 : Memref sig .tc .vmem S1024x1x16x64 .bf16) (harg3 : arg3.IsWhole) (arg4 : Memref sig .tc .vmem S1024x1x16x64 .bf16) (harg4 : arg4.IsWhole) (arg5 : Memref sig .tc .vmem S1024x1x16x64 .bf16) (harg5 : arg5.IsWhole) (arg6 : Memref sig .tc .vmem S1x1024x1024 .f32) (harg6 : arg6.IsWhole) (hc0 : cond1_0 i) (hc1 : ¬cond1_1 i) (x0 x1 x2 : Vec F S1024x1x16x64 .bf16) :
    out1_A_4 c i arg2 harg2 arg3 harg3 arg4 harg4 arg5 harg5 arg6 harg6 hc0 hc1 x0 x1 x2
      = k1_pay2 (k1_pay10 i x0 x1) (k1_pay6 (F := F)) := by
  unfold out1_A_4
  rw [View.read_writes_eq_canon _ _ _ (cover1_A_4 c i arg2 harg2 arg3 harg3 arg4 harg4 arg5 harg5 arg6 harg6 hc0 hc1 x0 x1 x2)]
  unfold kernelRun1_A
  dsimp only
  sl_unfold_words
  rw [View.canon_cons_unit_zero (S := S1x1024x1024) hz3, View.readCov_unit_zero (S := S1x1024x1024) _ hz3]
  simp only [View.readAt_eq_ld, harg2.read_unread, harg3.read_unread, harg4.read_unread, harg5.read_unread, harg6.read_unread,
    View.ld_unit_zero (S := S1024x1x16x64) hz4, View.ld_unit_zero (S := S1x1024x1024) hz3]

end Cert.KernelIdeal.Hand

end
-- ==== Proof.Att2.lean ====
import proofs.«128804_j1632087573280_2_alg».proof.Proof.KI.Runs1
import proofs.«128804_j1632087573280_2_alg».proof.Proof.AttnZ
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

open Cert.AttnZ

variable {F : FTy → Type} [FloatOps F]
variable (V : (c : Dev nD) → (b : Ref sig .tc) → Buf (Elt F) ((c : Thread nD τ).loc b))

/-! ## The grid point and the block indices

Point `t` of the grid is batch row `t / 16`, head `t % 16`; the three input windows read block `(0, t / 16, p, 0)` of
the packed array, `p = 0, 1, 2`, each of sixteen head slots. -/

theorem N1 : cfg1.N = 128 := N_1

theorem coords1 : ∀ t : Fin cfg1.N, ((grid1.coords t) 0).val = t.val / 16 ∧ ((grid1.coords t) 1).val = t.val % 16 :=
  (by decide +kernel : ∀ t : Fin grid1.N, ((grid1.coords t) 0).val = t.val / 16 ∧ ((grid1.coords t) 1).val = t.val % 16)

theorem index1_0 : ∀ t : Fin cfg1.N, win1_0.index t (0 : Fin 4) = 0 ∧ win1_0.index t (1 : Fin 4) = t.val / 16
    ∧ win1_0.index t (2 : Fin 4) = 0 ∧ win1_0.index t (3 : Fin 4) = 0 :=
  (by decide +kernel : ∀ t : Fin grid1.N, win1_0.index t (0 : Fin 4) = 0 ∧ win1_0.index t (1 : Fin 4) = t.val / 16
    ∧ win1_0.index t (2 : Fin 4) = 0 ∧ win1_0.index t (3 : Fin 4) = 0)
theorem index1_1 : ∀ t : Fin cfg1.N, win1_1.index t (0 : Fin 4) = 0 ∧ win1_1.index t (1 : Fin 4) = t.val / 16
    ∧ win1_1.index t (2 : Fin 4) = 1 ∧ win1_1.index t (3 : Fin 4) = 0 :=
  (by decide +kernel : ∀ t : Fin grid1.N, win1_1.index t (0 : Fin 4) = 0 ∧ win1_1.index t (1 : Fin 4) = t.val / 16
    ∧ win1_1.index t (2 : Fin 4) = 1 ∧ win1_1.index t (3 : Fin 4) = 0)
theorem index1_2 : ∀ t : Fin cfg1.N, win1_2.index t (0 : Fin 4) = 0 ∧ win1_2.index t (1 : Fin 4) = t.val / 16
    ∧ win1_2.index t (2 : Fin 4) = 2 ∧ win1_2.index t (3 : Fin 4) = 0 :=
  (by decide +kernel : ∀ t : Fin grid1.N, win1_2.index t (0 : Fin 4) = 0 ∧ win1_2.index t (1 : Fin 4) = t.val / 16
    ∧ win1_2.index t (2 : Fin 4) = 2 ∧ win1_2.index t (3 : Fin 4) = 0)
theorem index1_3 : ∀ t : Fin cfg1.N, win1_3.index t (0 : Fin 4) = 0 ∧ win1_3.index t (1 : Fin 4) = t.val / 16
    ∧ win1_3.index t (2 : Fin 4) = 0 ∧ win1_3.index t (3 : Fin 4) = 0 :=
  (by decide +kernel : ∀ t : Fin grid1.N, win1_3.index t (0 : Fin 4) = 0 ∧ win1_3.index t (1 : Fin 4) = t.val / 16
    ∧ win1_3.index t (2 : Fin 4) = 0 ∧ win1_3.index t (3 : Fin 4) = 0)
theorem index1_4 : ∀ t : Fin cfg1.N, win1_4.index t (0 : Fin 3) = t.val / 16 ∧ win1_4.index t (1 : Fin 3) = 0
    ∧ win1_4.index t (2 : Fin 3) = 0 :=
  (by decide +kernel : ∀ t : Fin grid1.N, win1_4.index t (0 : Fin 3) = t.val / 16 ∧ win1_4.index t (1 : Fin 3) = 0
    ∧ win1_4.index t (2 : Fin 3) = 0)

/-! ## The input blocks at an index -/

/-- The queries' block at point `t`: batch row `t / 16`, head slots 0–15 of the packed array. -/
theorem iblk1_0_apply (c : Dev nD) (t : Fin cfg1.N) (b : Fin 8) (hb : b.val = t.val / 16) (s : Fin 1024) (u : Fin 1) (j : Fin 16) (d : Fin 64) :
    (iblk1 V c 0 t : Vec F S1024x1x16x64 .bf16) (ix4 s u j d)
      = (V c main_v5 : Vec F S1024x8x48x64 .bf16) (ix4 s b (slot 0 j) d) := by
  obtain ⟨h0, h1, h2, h3⟩ := index1_0 t
  have hu : u.val = 0 := by omega
  unfold iblk1
  rw [View.read_apply]
  show V c main_v5 _ = V c main_v5 _
  refine congrArg (V c main_v5) (funext fun a => Fin.ext ?_)
  match a with
  | ⟨0, _⟩ => show win1_0.index t 0 * 1024 + 1 * s.val = s.val; rw [h0]; omega
  | ⟨1, _⟩ => show win1_0.index t 1 * 1 + 1 * u.val = b.val; rw [h1, hb]; omega
  | ⟨2, _⟩ => show win1_0.index t 2 * 16 + 1 * j.val = 0 * 16 + j.val; rw [h2]; omega
  | ⟨3, _⟩ => show win1_0.index t 3 * 64 + 1 * d.val = d.val; rw [h3]; omega

/-- The keys' block: head slots 16–31. -/
theorem iblk1_1_apply (c : Dev nD) (t : Fin cfg1.N) (b : Fin 8) (hb : b.val = t.val / 16) (s : Fin 1024) (u : Fin 1) (j : Fin 16) (d : Fin 64) :
    (iblk1 V c 1 t : Vec F S1024x1x16x64 .bf16) (ix4 s u j d)
      = (V c main_v5 : Vec F S1024x8x48x64 .bf16) (ix4 s b (slot 1 j) d) := by
  obtain ⟨h0, h1, h2, h3⟩ := index1_1 t
  have hu : u.val = 0 := by omega
  unfold iblk1
  rw [View.read_apply]
  show V c main_v5 _ = V c main_v5 _
  refine congrArg (V c main_v5) (funext fun a => Fin.ext ?_)
  match a with
  | ⟨0, _⟩ => show win1_1.index t 0 * 1024 + 1 * s.val = s.val; rw [h0]; omega
  | ⟨1, _⟩ => show win1_1.index t 1 * 1 + 1 * u.val = b.val; rw [h1, hb]; omega
  | ⟨2, _⟩ => show win1_1.index t 2 * 16 + 1 * j.val = 1 * 16 + j.val; rw [h2]; omega
  | ⟨3, _⟩ => show win1_1.index t 3 * 64 + 1 * d.val = d.val; rw [h3]; omega

/-- The values' block: head slots 32–47. -/
theorem iblk1_2_apply (c : Dev nD) (t : Fin cfg1.N) (b : Fin 8) (hb : b.val = t.val / 16) (s : Fin 1024) (u : Fin 1) (j : Fin 16) (d : Fin 64) :
    (iblk1 V c 2 t : Vec F S1024x1x16x64 .bf16) (ix4 s u j d)
      = (V c main_v5 : Vec F S1024x8x48x64 .bf16) (ix4 s b (slot 2 j) d) := by
  obtain ⟨h0, h1, h2, h3⟩ := index1_2 t
  have hu : u.val = 0 := by omega
  unfold iblk1
  rw [View.read_apply]
  show V c main_v5 _ = V c main_v5 _
  refine congrArg (V c main_v5) (funext fun a => Fin.ext ?_)
  match a with
  | ⟨0, _⟩ => show win1_2.index t 0 * 1024 + 1 * s.val = s.val; rw [h0]; omega
  | ⟨1, _⟩ => show win1_2.index t 1 * 1 + 1 * u.val = b.val; rw [h1, hb]; omega
  | ⟨2, _⟩ => show win1_2.index t 2 * 16 + 1 * j.val = 2 * 16 + j.val; rw [h2]; omega
  | ⟨3, _⟩ => show win1_2.index t 3 * 64 + 1 * d.val = d.val; rw [h3]; omega

end Cert.KernelIdeal.Hand

end
-- ==== Proof.PayB.lean ====
import proofs.«128804_j1632087573280_2_alg».proof.Proof.Gen.KernelIdeal.Skeleton
import proofs.«128804_j1632087573280_2_alg».proof.Proof.LibIndex
import proofs.«128804_j1632087573280_2_alg».proof.Proof.PayA

noncomputable section

open scoped BigOperators

namespace Cert.Pay

open Cert.KernelIdeal Cert.KernelIdeal.Gen Idealize.ShloMosaic Idealize.ShloMosaic.ValueIdx Cert.LayoutLib

variable {α : Type}

/-! ## Layout operations of rank three and four at an index -/

/-- An `[a, 1, b, c]` array cast to `[a, b, c]` reads, at `(p, q, r)`, the operand at `(p, 0, q, r)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- An `[a, b, c]` array cast to `[a, 1, b, c]` reads, at `(p, u, q, r)`, the operand at `(p, q, r)`. -/
theorem shapeCast_abc_a1bc_apply {a b c : ℕ} (x : (⟨3, ![a, b, c]⟩ : Shape).Idx → α)
    (h : (⟨3, ![a, b, c]⟩ : Shape).ShapeCasts ⟨4, ![a, 1, b, c]⟩) (p : Fin a) (u : Fin 1) (q : Fin b) (r : Fin c) :
    shapeCast ⟨4, ![a, 1, b, c]⟩ x h (ix4 p u q r) = x (ix3 p q r) :=
  shapeCast_apply x h _ _ (by
    have hu : u.val = 0 := by omega
    rw [Shape.rowMajor_val_four, Shape.rowMajor_val_three]
    show (p.val * b + q.val) * c + r.val = ((p.val * 1 + u.val) * b + q.val) * c + r.val
    rw [hu, Nat.mul_one, Nat.add_zero])

/-- An `[a, c]` array cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- A `[1, b, 1]` array broadcast to `[a, b, c]` reads, at `(p, q, r)`, the operand at `(0, q, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (q : Fin b) (r : Fin c) :
    broadcastTo ⟨3, ![a, b, c]⟩ v h (ix3 p q r) = v (ix3 (0 : Fin 1) q (0 : Fin 1)) := by
  refine broadcastTo_apply v h (ix3 p q r) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- An `[a, 1, c]` array broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- The source index over `(p, q)` with coordinate `k` on the summed middle axis is `(p, k, q)`. -/
theorem lift_mid {a b c : ℕ} (h : (⟨3, ![a, b, c]⟩ : Shape).Reduces [(1 : Fin 3)] ⟨2, ![a, c]⟩) (p : Fin a) (q : Fin c)
    (k : Fin b) : h.lift (ix2 p q) k = ix3 p k q :=
  funext fun x => Fin.ext (by match x with | ⟨0, _⟩ => rfl | ⟨1, _⟩ => rfl | ⟨2, _⟩ => rfl)

/-- A sum along the middle axis of a rank-three array (accumulated from the zero word), read at `(p, q)`. -/
theorem midSum_apply {a b c : ℕ} (src : FVec Ideal ⟨3, ![a, b, c]⟩ .f32)
    (h : (⟨3, ![a, b, c]⟩ : Shape).Reduces [(1 : Fin 3)] ⟨2, ![a, c]⟩) (hφ : FKind.Formats .f32)
    (hacc : (0x00000000#32 : BitVec 32) = 0x00000000#32) (p : Fin a) (q : Fin c) :
    multiReduction .add [(1 : Fin 3)] ⟨2, ![a, c]⟩ src 0x00000000#32 h hφ hacc (ix2 p q) = ∑ k : Fin b, src (ix3 p k q) :=
  (Ideal.multiReduction_add_single src 0x00000000#32 h hφ hacc (ix2 p q)).trans
    (Finset.sum_congr rfl fun k _ => congrArg src (lift_mid h p q k))

/-! ## The head selector -/

/-- The head selector of a grid point: one at the grid point's head, zero at every other head. -/
def sel (i : grid1.Coords) (j : Fin 16) : EReal := if j.val = (i 1).val then 1 else 0

/-- The comparison of the head coordinate with the grid point's head, as one bit. -/
theorem k1_pay7_apply (i : grid1.Coords) (u : Fin 1) (j : Fin 16) (u' : Fin 1) :
    k1_pay7 i (ix3 u j u') = BitVec.ofBool (decide (j.val = (i 1).val)) := by
  have hi : (i 1).val < 16 := (i 1).isLt
  have hj : j.val < 16 := j.isLt
  show BitVec.ofBool (BitVec.ofNat 32 (0 * 16 + j.val) == BitVec.ofNat 32 (i 1).val) = _
  refine congrArg BitVec.ofBool ?_
  rw [Bool.eq_iff_iff, beq_iff_eq, decide_eq_true_iff]
  constructor
  · intro h
    have h' := congrArg BitVec.toNat h
    simp only [BitVec.toNat_ofNat] at h'
    omega
  · intro h
    rw [h, Nat.zero_mul, Nat.zero_add]

/-- The bit widened and converted to a float is the selector. -/
theorem selF32_apply (i : grid1.Coords) (u : Fin 1) (j : Fin 16) (u' : Fin 1) :
    (sitofp .f32 (extui 32 (k1_pay7 i) natLt_1_32) : FVec Ideal S1x16x1 .f32) (ix3 u j u') = sel i j := by
  show ((((k1_pay7 i (ix3 u j u')).setWidth 32).toInt : ℝ) : EReal) = sel i j
  rw [k1_pay7_apply]
  unfold sel
  have e1 : ((BitVec.ofBool true).setWidth 32).toInt = 1 := by decide
  have e0 : ((BitVec.ofBool false).setWidth 32).toInt = 0 := by decide
  by_cases h : j.val = (i 1).val
  · rw [if_pos h, decide_eq_true h, e1, Int.cast_one, EReal.coe_one]
  · rw [if_neg h, decide_eq_false h, e0, Int.cast_zero, EReal.coe_zero]

/-- The selector in the sixteen-bit format. -/
theorem k1_pay8_apply (i : grid1.Coords) (u : Fin 1) (j : Fin 16) (u' : Fin 1) :
    k1_pay8 (F := Ideal) i (ix3 u j u') = sel i j := by
  unfold Gen.k1_pay8
  exact selF32_apply i u j u'

/-- The selector is one at the grid point's head and zero elsewhere. -/
theorem sel_self (i : grid1.Coords) (hh : Fin 16) (h : hh.val = (i 1).val) : sel i hh = 1 := if_pos h
theorem sel_ne (i : grid1.Coords) (hh j : Fin 16) (h : hh.val = (i 1).val) (hj : j ≠ hh) : sel i j = 0 :=
  if_neg fun e => hj (Fin.ext (e.trans h.symm))

/-- A sum against the selector picks the grid point's head. -/
theorem sum_mul_sel (i : grid1.Coords) (f : Fin 16 → EReal) (hh : Fin 16) (h : hh.val = (i 1).val) :
    ∑ j : Fin 16, f j * sel i j = f hh := by
  rw [Finset.sum_eq_single hh (fun j _ hj => by rw [sel_ne i hh j h hj, mul_zero]) (fun hn => absurd (Finset.mem_univ hh) hn)]
  rw [sel_self i hh h, mul_one]

/-! ## The selected head of a sixteen-head block -/

/-- The head selection: the block times the selector, summed over the heads. -/
theorem k1_pay9_apply (i : grid1.Coords) (v7 : Vec Ideal S1024x1x16x64 .bf16) (s : Fin 1024) (d : Fin 64) :
    k1_pay9 (F := Ideal) i v7 (ix2 s d) = ∑ j : Fin 16, v7 (ix4 s 0 j d) * sel i j := by
  unfold Gen.k1_pay9
  refine (truncf_apply (ψ := .bf16) (φ := .f32) _ _ _).trans ?_
  refine (midSum_apply _ _ _ _ s d).trans ?_
  refine Finset.sum_congr rfl fun j _ => ?_
  refine (extf_apply (ψ := .f32) (φ := .bf16) _ _ _).trans ?_
  refine (mulf_apply (φ := .bf16) _ _ _).trans ?_
  exact mul_eq_mul (shapeCast_a1bc_abc_apply _ _ s j d)
    ((broadcastTo_1b1_abc_apply _ _ s j d).trans (k1_pay8_apply i 0 j 0))

/-- At the grid point's head the selection reads that head's entry. -/
theorem k1_pay9_apply_head (i : grid1.Coords) (v7 : Vec Ideal S1024x1x16x64 .bf16) (s : Fin 1024) (d : Fin 64)
    (hh : Fin 16) (h : hh.val = (i 1).val) : k1_pay9 (F := Ideal) i v7 (ix2 s d) = v7 (ix4 s 0 hh d) :=
  (k1_pay9_apply i v7 s d).trans (sum_mul_sel i (fun j => v7 (ix4 s 0 j d)) hh h)

end Cert.Pay

end
-- ==== Proof.PayC.lean ====
import proofs.«128804_j1632087573280_2_alg».proof.Proof.Gen.KernelIdeal.Skeleton
import proofs.«128804_j1632087573280_2_alg».proof.Proof.LibIndex
import proofs.«128804_j1632087573280_2_alg».proof.Proof.PayB

noncomputable section

open scoped BigOperators

namespace Cert.Pay

open Cert.KernelIdeal Cert.KernelIdeal.Gen Idealize.ShloMosaic Idealize.ShloMosaic.ValueIdx Cert.LayoutLib

/-! ## A product contracting the last axis of both operands -/

/-- The `[M, K] × [N, K]` product's sum over its contraction index, at output `(p, q)`, is the sum over `k : Fin K` of
    the left operand at `(p, k)` times the right operand at `(q, k)`. -/
theorem dot_trhs_sum {M K N : ℕ} (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- Such a product accumulated into the zero splat, read at `(p, q)`. -/
theorem matmul_trhs_apply {M K N : ℕ} (D : DotDims ⟨2, ![M, K]⟩ ⟨2, ![N, K]⟩ ⟨2, ![M, N]⟩) (hD : D = DotDims.transposedRhs M K N)
    {φ₁ φ₂ : FTy} (L : FVec Ideal ⟨2, ![M, K]⟩ φ₁) (R : FVec Ideal ⟨2, ![N, K]⟩ φ₂) (p : Fin M) (q : Fin N) :
    matmul D none L R (constant ⟨2, ![M, N]⟩ .f32 0x00000000#32) (ix2 p q) = ∑ k : Fin K, L (ix2 p k) * R (ix2 q k) :=
  (Ideal.matmul_constant_zero_apply D none L R (ix2 p q)).trans (dot_trhs_sum D hD L R p q)

/-! ## A row's maximum taken away from the row -/

theorem sub_eq_sub {a a' b b' : EReal} (h1 : a = a') (h2 : b = b') : a - b = a' - b' := by rw [h1, h2]

/-- An array minus its rows' maxima (each taken from −∞, cast to a column and broadcast along the row), at `(p, q)`. -/
theorem sub_rowMax_apply {a b : ℕ} (x : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩)
    (p : Fin a) (q : Fin b) :
    subf x (broadcastTo ⟨2, ![a, b]⟩
        (shapeCast ⟨2, ![a, 1]⟩ (multiReduction .maximumf [(1 : Fin 2)] ⟨1, ![a]⟩ x 0xFF800000#32 h hφ hacc) hc) hb) (ix2 p q)
      = x (ix2 p q) - (Finset.univ : Finset (Fin b)).fold max (Ideal.ofBits .f32 0xFF800000#32) (fun t => x (ix2 p t)) := by
  refine (subf_apply (φ := .f32) _ _ _).trans ?_
  refine sub_eq_sub rfl ?_
  refine (broadcastTo_col_apply _ _ p q).trans ?_
  refine (shapeCast_col_apply _ _ p (0 : Fin 1)).trans ?_
  refine (Ideal.multiReduction_maximumf_single x 0xFF800000#32 h hφ hacc (ix1 p)).trans ?_
  exact Finset.fold_congr fun t _ => congrArg x (lift_row h p t)

/-! ## The scores of a head, minus their row maxima -/

/-- The selected head of a sixteen-head block at `(s, d)`: the block times the selector, summed over the heads. -/
def headOf (i : grid1.Coords) (v : Vec Ideal S1024x1x16x64 .bf16) (s : Fin 1024) (d : Fin 64) : EReal :=
  ∑ j : Fin 16, v (ix4 s 0 j d) * sel i j

/-- The scaled score of position `s` against position `s'`: the sum first, then the factor 1/8. -/
def sc (i : grid1.Coords) (v3 v5 : Vec Ideal S1024x1x16x64 .bf16) (s s' : Fin 1024) : EReal :=
  (∑ d : Fin 64, headOf i v3 s d * headOf i v5 s' d) * Ideal.ofBits .f32 0x3E000000#32

theorem headOf_def (i : grid1.Coords) (v : Vec Ideal S1024x1x16x64 .bf16) (s : Fin 1024) (d : Fin 64) :
    headOf i v s d = ∑ j : Fin 16, v (ix4 s 0 j d) * sel i j := rfl

theorem sc_def (i : grid1.Coords) (v3 v5 : Vec Ideal S1024x1x16x64 .bf16) (s s' : Fin 1024) :
    sc i v3 v5 s s' = (∑ d : Fin 64, (∑ j : Fin 16, v3 (ix4 s 0 j d) * sel i j) * (∑ j : Fin 16, v5 (ix4 s' 0 j d) * sel i j))
      * Ideal.ofBits .f32 0x3E000000#32 := rfl

/-- At the grid point's head the selected head reads that head's entry. -/
theorem headOf_head (i : grid1.Coords) (v : Vec Ideal S1024x1x16x64 .bf16) (s : Fin 1024) (d : Fin 64)
    (hh : Fin 16) (h : hh.val = (i 1).val) : headOf i v s d = v (ix4 s 0 hh d) :=
  sum_mul_sel i (fun j => v (ix4 s 0 j d)) hh h

/-- The scaled product of two selected heads, at `(s, t)`. -/
theorem scoreBlock_apply (i : grid1.Coords) (v3 v5 : Vec Ideal S1024x1x16x64 .bf16) (s t : Fin 1024) :
    mulf (matmul dot_S1024x64_S1024x64_S1024x1024_1_1_0_0_n_n none (k1_pay9 (F := Ideal) i v3) (k1_pay9 (F := Ideal) i v5)
          (constant S1024x1024 .f32 0x00000000#32))
        (broadcast S1024x1024 (Scalar.ofBits (F := Ideal) .f32 0x3E000000#32)) (ix2 s t)
      = sc i v3 v5 s t := by
  refine (mulf_apply (φ := .f32) _ _ _).trans ?_
  refine mul_eq_mul ?_ rfl
  refine (matmul_trhs_apply _ rfl _ _ s t).trans ?_
  exact Finset.sum_congr rfl fun d _ => mul_eq_mul (k1_pay9_apply i v3 s d) (k1_pay9_apply i v5 t d)

/-- The scores minus their row maxima. -/
theorem k1_pay10_apply (i : grid1.Coords) (v3 v5 : Vec Ideal S1024x1x16x64 .bf16) (s s' : Fin 1024) :
    k1_pay10 (F := Ideal) i v3 v5 (ix2 s s')
      = sc i v3 v5 s s' - (Finset.univ : Finset (Fin 1024)).fold max (Ideal.ofBits .f32 0xFF800000#32) (fun t => sc i v3 v5 s t) := by
  unfold Gen.k1_pay10
  refine (sub_rowMax_apply _ _ _ _ _ _ s s').trans ?_
  exact sub_eq_sub (scoreBlock_apply i v3 v5 s s') (Finset.fold_congr fun t _ => scoreBlock_apply i v3 v5 s t)

/-! ## The head's mixed values added into its place of the output block -/

/-- The output block after a head: the block before plus the weights times the head's values, at that head only. -/
theorem k1_pay3_apply (i : grid1.Coords) (v29 : FVec Ideal S1024x64 .bf16) (v36 : FVec Ideal S1024x1024 .f32)
    (v56 : Vec Ideal S1024x1x16x64 .bf16) (s : Fin 1024) (j : Fin 16) (d : Fin 64) :
    k1_pay3 (F := Ideal) (k1_pay7 i) v29 v36 v56 (ix4 s 0 j d)
      = v56 (ix4 s 0 j d) + (∑ t : Fin 1024, k1_pay1 (F := Ideal) v36 (ix2 s t) * v29 (ix2 t d)) * sel i j := by
  unfold Gen.k1_pay3
  refine (shapeCast_abc_a1bc_apply _ _ s 0 j d).trans ?_
  refine (addf_apply (φ := .bf16) _ _ _).trans ?_
  refine add_eq_add (shapeCast_a1bc_abc_apply _ _ s j d) ?_
  refine (truncf_apply (ψ := .bf16) (φ := .f32) _ _ _).trans ?_
  refine (mulf_apply (φ := .f32) _ _ _).trans ?_
  refine mul_eq_mul ?_ ?_
  · refine (broadcastTo_a1c_abc_apply _ _ s j d).trans ?_
    refine (shapeCast_ac_a1c_apply _ _ s 0 d).trans ?_
    refine (matmul_plain_apply _ rfl _ _ s d).trans ?_
    exact Finset.sum_congr rfl fun t _ => mul_eq_mul (truncf_apply (ψ := .bf16) (φ := .f32) _ _ _) rfl
  · refine (broadcastTo_1b1_abc_apply _ _ s j d).trans ?_
    exact selF32_apply i 0 j 0

end Cert.Pay

end
-- ==== Proof.Att3.lean ====
import proofs.«128804_j1632087573280_2_alg».proof.Proof.PayC
import proofs.«128804_j1632087573280_2_alg».proof.Proof.AttnZ

noncomputable section

open scoped BigOperators

namespace Cert.KernelIdeal.Hand

open Cert.KernelIdeal Cert.KernelIdeal.Gen Idealize.ShloMosaic Idealize.ShloMosaic.ValueIdx Cert.Pay Cert.AttnZ

/-! ## One grid point's payloads as the attention formulas over the packed array

At a grid point `i` with batch row `b` and head `hh`, the three input blocks are the queries', keys' and values' sixteen
heads of batch row `b` of the packed array `Z`.  Everything here is stated over the blocks as variables. -/

/-- The three input blocks of a grid point are batch row `b`'s three parts of the packed array. -/
structure Blocks (Z : AZ) (b : Fin 8) (x0 x1 x2 : Vec Ideal S1024x1x16x64 .bf16) : Prop where
  q : ∀ (s : Fin 1024) (j : Fin 16) (d : Fin 64), x0 (ix4 s 0 j d) = Z (ix4 s b (slot 0 j) d)
  k : ∀ (s : Fin 1024) (j : Fin 16) (d : Fin 64), x1 (ix4 s 0 j d) = Z (ix4 s b (slot 1 j) d)
  v : ∀ (s : Fin 1024) (j : Fin 16) (d : Fin 64), x2 (ix4 s 0 j d) = Z (ix4 s b (slot 2 j) d)

variable {Z : AZ} {b : Fin 8} {x0 x1 x2 : Vec Ideal S1024x1x16x64 .bf16}

/-- The scaled scores of the point's head. -/
theorem sc_eq_score (i : grid1.Coords) (hh : Fin 16) (hv : hh.val = (i 1).val) (B : Blocks Z b x0 x1 x2) (s s' : Fin 1024) :
    sc i x0 x1 s s' = score Z b hh s s' := by
  unfold sc score
  refine mul_eq_mul (Finset.sum_congr rfl fun d _ => ?_) rfl
  exact mul_eq_mul ((headOf_head i x0 s d hh hv).trans (B.q s hh d)) ((headOf_head i x1 s' d hh hv).trans (B.k s' hh d))

/-- The scores minus their row maxima. -/
theorem pay10_eq (i : grid1.Coords) (hh : Fin 16) (hv : hh.val = (i 1).val) (B : Blocks Z b x0 x1 x2) (s s' : Fin 1024) :
    k1_pay10 (F := Ideal) i x0 x1 (ix2 s s') = score Z b hh s s' - rowMax Z b hh s := by
  refine (k1_pay10_apply i x0 x1 s s').trans ?_
  unfold rowMax
  exact sub_eq_sub (sc_eq_score i hh hv B s s') (Finset.fold_congr fun t _ => sc_eq_score i hh hv B s t)

/-- The weights of the point's head. -/
theorem weight_eq (i : grid1.Coords) (hh : Fin 16) (hv : hh.val = (i 1).val) (B : Blocks Z b x0 x1 x2) (s s' : Fin 1024) :
    k1_pay1 (F := Ideal) (k1_pay10 (F := Ideal) i x0 x1) (ix2 s s') = weight Z b hh s s' := by
  refine (k1_pay1_apply _ s s').trans ?_
  unfold weight expo
  rw [pay10_eq i hh hv B s s']
  exact congrArg (Ideal.div _) (Finset.sum_congr rfl fun t _ => by rw [pay10_eq i hh hv B s t])

/-- The head's mixed values. -/
theorem mix_eq (i : grid1.Coords) (hh : Fin 16) (hv : hh.val = (i 1).val) (B : Blocks Z b x0 x1 x2) (s : Fin 1024) (d : Fin 64) :
    (∑ t : Fin 1024, k1_pay1 (F := Ideal) (k1_pay10 (F := Ideal) i x0 x1) (ix2 s t) * k1_pay9 (F := Ideal) i x2 (ix2 t d))
      = mixAt Z s b hh d := by
  unfold mixAt
  refine Finset.sum_congr rfl fun t _ => ?_
  exact mul_eq_mul (weight_eq i hh hv B s t) ((k1_pay9_apply_head i x2 t d hh hv).trans (B.v t hh d))

/-- The first output block after the point: the block before plus the head's mixed values in the head's column. -/
theorem pay3_eq (i : grid1.Coords) (hh : Fin 16) (hv : hh.val = (i 1).val) (B : Blocks Z b x0 x1 x2)
    (xo3 : Vec Ideal S1024x1x16x64 .bf16) (s : Fin 1024) (j : Fin 16) (d : Fin 64) :
    k1_pay3 (F := Ideal) (k1_pay7 i) (k1_pay9 (F := Ideal) i x2) (k1_pay10 (F := Ideal) i x0 x1) xo3 (ix4 s 0 j d)
      = xo3 (ix4 s 0 j d) + mixAt Z s b hh d * sel i j := by
  refine (k1_pay3_apply i _ _ xo3 s j d).trans ?_
  exact add_eq_add rfl (mul_eq_mul (mix_eq i hh hv B s d) rfl)

/-- The second output block after the point: the block before plus the head's weights. -/
theorem pay2_eq (i : grid1.Coords) (hh : Fin 16) (hv : hh.val = (i 1).val) (B : Blocks Z b x0 x1 x2)
    (xo4 : Vec Ideal S1x1024x1024 .f32) (s s' : Fin 1024) :
    k1_pay2 (F := Ideal) (k1_pay10 (F := Ideal) i x0 x1) xo4 (ix3 0 s s') = xo4 (ix3 0 s s') + weight Z b hh s s' := by
  refine (k1_pay2_apply _ xo4 s s').trans ?_
  exact add_eq_add rfl (weight_eq i hh hv B s s')

/-! ## The sums over the heads up to a head -/

/-- The sum of `f` over the heads up to head `k`. -/
def upTo (f : Fin 16 → EReal) (k : ℕ) : EReal := ∑ h' : Fin 16, if h'.val ≤ k then f h' else 0

theorem upTo_zero (f : Fin 16 → EReal) (hh : Fin 16) (h0 : hh.val = 0) : upTo f 0 = f hh := by
  unfold upTo
  rw [Finset.sum_eq_single hh (fun j _ hj => if_neg fun hle => hj (Fin.ext (by omega)))
    (fun hn => absurd (Finset.mem_univ hh) hn), if_pos (by omega)]

theorem upTo_succ (f : Fin 16 → EReal) (k : ℕ) (hh : Fin 16) (hk : hh.val = k + 1) : upTo f (k + 1) = upTo f k + f hh := by
  unfold upTo
  have e : f hh = ∑ h' : Fin 16, if h' = hh then f h' else 0 := by
    rw [Finset.sum_ite_eq' Finset.univ hh f, if_pos (Finset.mem_univ hh)]
  rw [e, ← Finset.sum_add_distrib]
  refine Finset.sum_congr rfl fun h' _ => ?_
  by_cases h1 : h'.val ≤ k
  · rw [if_pos h1, if_pos (by omega), if_neg (fun e' => by rw [e'] at h1; omega), add_zero]
  · by_cases h2 : h' = hh
    · rw [if_neg h1, if_pos h2, if_pos (by rw [h2]; omega), zero_add]
    · rw [if_neg h1, if_neg h2, if_neg (fun hle => h2 (Fin.ext (by omega))), add_zero]

theorem upTo_all (f : Fin 16 → EReal) : upTo f 15 = ∑ h' : Fin 16, f h' := by
  unfold upTo
  exact Finset.sum_congr rfl fun h' _ => if_pos (by have := h'.isLt; omega)

end Cert.KernelIdeal.Hand

end
-- ==== Proof.Att4a.lean ====
import proofs.«128804_j1632087573280_2_alg».proof.Proof.Att1
import proofs.«128804_j1632087573280_2_alg».proof.Proof.Att2
import proofs.«128804_j1632087573280_2_alg».proof.Proof.Att3
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

open Cert.AttnZ Cert.Pay

variable (V : (c : Dev nD) → (b : Ref sig .tc) → Buf (Elt Ideal) ((c : Thread nD τ).loc b))

/-! ## What the two output buffers hold after a point, as payloads of the point's blocks -/

/-- The input blocks at point `t` are batch row `t / 16`'s three parts of the packed array. -/
theorem blocks_at (c : Dev nD) (t : Fin cfg1.N) (b : Fin 8) (hb : b.val = t.val / 16) :
    Blocks (V c main_v5) b (iblk1 V c 0 t) (iblk1 V c 1 t) (iblk1 V c 2 t) :=
  ⟨fun s j d => iblk1_0_apply V c t b hb s 0 j d, fun s j d => iblk1_1_apply V c t b hb s 0 j d,
    fun s j d => iblk1_2_apply V c t b hb s 0 j d⟩

theorem outs_A_1 (c : Dev nD) (t : Fin cfg1.N) (h0 : t.val % 16 = 0) :
    (outsAt1 V c t.val t.isLt).1 = k1_pay3 (F := Ideal) (k1_pay7 (grid1.coords t)) (k1_pay9 (F := Ideal) (grid1.coords t) (iblk1 V c 2 t))
        (k1_pay10 (F := Ideal) (grid1.coords t) (iblk1 V c 0 t) (iblk1 V c 1 t)) (k1_pay5 (F := Ideal)) := by
  rw [outsAt1_A V c t h0]
  dsimp only
  exact out_A_3 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (fun h => absurd ((hcond1_1 t).mp h) (by omega))
    (iblk1 V c 0 t) (iblk1 V c 1 t) (iblk1 V c 2 t)

theorem outs_A_2 (c : Dev nD) (t : Fin cfg1.N) (h0 : t.val % 16 = 0) :
    (outsAt1 V c t.val t.isLt).2 = k1_pay2 (F := Ideal) (k1_pay10 (F := Ideal) (grid1.coords t) (iblk1 V c 0 t) (iblk1 V c 1 t)) (k1_pay6 (F := Ideal)) := by
  rw [outsAt1_A V c t h0]
  dsimp only
  exact out_A_4 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (fun h => absurd ((hcond1_1 t).mp h) (by omega))
    (iblk1 V c 0 t) (iblk1 V c 1 t) (iblk1 V c 2 t)

theorem outs_B_1 (c : Dev nD) (t : Fin cfg1.N) (h0 : ¬t.val % 16 = 0) (h1 : ¬t.val % 16 = 15) :
    (outsAt1 V c t.val t.isLt).1 = k1_pay3 (F := Ideal) (k1_pay7 (grid1.coords t)) (k1_pay9 (F := Ideal) (grid1.coords t) (iblk1 V c 2 t))
        (k1_pay10 (F := Ideal) (grid1.coords t) (iblk1 V c 0 t) (iblk1 V c 1 t)) (outsAt1 V c (t.val - 1) (Nat.lt_of_le_of_lt (Nat.sub_le _ _) t.isLt)).1 := by
  rw [outsAt1_B V c t h0 h1]
  dsimp only
  exact out_B_3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (fun h => h1 ((hcond1_1 t).mp h))
    (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2

theorem outs_B_2 (c : Dev nD) (t : Fin cfg1.N) (h0 : ¬t.val % 16 = 0) (h1 : ¬t.val % 16 = 15) :
    (outsAt1 V c t.val t.isLt).2 = k1_pay2 (F := Ideal) (k1_pay10 (F := Ideal) (grid1.coords t) (iblk1 V c 0 t) (iblk1 V c 1 t)) (outsAt1 V c (t.val - 1) (Nat.lt_of_le_of_lt (Nat.sub_le _ _) t.isLt)).2 := by
  rw [outsAt1_B V c t h0 h1]
  dsimp only
  exact out_B_4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (fun h => h1 ((hcond1_1 t).mp h))
    (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2

theorem outs_C_1 (c : Dev nD) (t : Fin cfg1.N) (h0 : ¬t.val % 16 = 0) (h1 : t.val % 16 = 15) :
    (outsAt1 V c t.val t.isLt).1 = k1_pay3 (F := Ideal) (k1_pay7 (grid1.coords t)) (k1_pay9 (F := Ideal) (grid1.coords t) (iblk1 V c 2 t))
        (k1_pay10 (F := Ideal) (grid1.coords t) (iblk1 V c 0 t) (iblk1 V c 1 t)) (outsAt1 V c (t.val - 1) (Nat.lt_of_le_of_lt (Nat.sub_le _ _) t.isLt)).1 := by
  rw [outsAt1_C V c t h0 h1]
  dsimp only
  exact out_C_3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1)
    (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2

theorem outs_C_2 (c : Dev nD) (t : Fin cfg1.N) (h0 : ¬t.val % 16 = 0) (h1 : t.val % 16 = 15) :
    (outsAt1 V c t.val t.isLt).2 = k1_pay4 (F := Ideal) (k1_pay2 (F := Ideal) (k1_pay10 (F := Ideal) (grid1.coords t) (iblk1 V c 0 t) (iblk1 V c 1 t)) (outsAt1 V c (t.val - 1) (Nat.lt_of_le_of_lt (Nat.sub_le _ _) t.isLt)).2) := by
  rw [outsAt1_C V c t h0 h1]
  dsimp only
  exact out_C_4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1)
    (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2

end Cert.KernelIdeal.Hand

end
-- ==== Proof.Att4b.lean ====
import proofs.«128804_j1632087573280_2_alg».proof.Proof.Att4a
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

open Cert.AttnZ Cert.Pay

variable (V : (c : Dev nD) → (b : Ref sig .tc) → Buf (Elt Ideal) ((c : Thread nD τ).loc b))

/-! ## One column at a time: the first output block after each head -/

/-- From a cleared block, the first head's column. -/
theorem col_first (i : grid1.Coords) (hh : Fin 16) (hv : hh.val = (i 1).val) (h0 : hh.val = 0) (f : Fin 16 → EReal) (j : Fin 16) :
    (0 : EReal) + f hh * sel i j = if j.val ≤ 0 then f j else 0 := by
  by_cases hj : j = hh
  · subst hj
    rw [sel_self i j hv, mul_one, zero_add, if_pos (by omega)]
  · rw [sel_ne i hh j hv hj, mul_zero, add_zero, if_neg (fun hle => hj (Fin.ext (by omega)))]

/-- From the columns up to head `k`, the columns up to head `k + 1`. -/
theorem col_next (i : grid1.Coords) (hh : Fin 16) (hv : hh.val = (i 1).val) (k : ℕ) (hk : hh.val = k + 1) (f : Fin 16 → EReal)
    (j : Fin 16) : (if j.val ≤ k then f j else 0) + f hh * sel i j = if j.val ≤ k + 1 then f j else 0 := by
  by_cases hj : j = hh
  · subst hj
    rw [sel_self i j hv, mul_one, if_neg (by omega), zero_add, if_pos (by omega)]
  · rw [sel_ne i hh j hv hj, mul_zero, add_zero]
    have hne : j.val ≠ k + 1 := fun e => hj (Fin.ext (e.trans hk.symm))
    by_cases hle : j.val ≤ k
    · rw [if_pos hle, if_pos (by omega)]
    · rw [if_neg hle, if_neg (by omega)]

/-- The accumulation does not depend on how the position's bound is proved or the position spelt. -/
theorem outsAt1_congr (c : Dev nD) {n m : ℕ} (e : n = m) (hn : n < cfg1.N) (hm : m < cfg1.N) :
    outsAt1 V c n hn = outsAt1 V c m hm := by
  subst e; rfl

/-! ## The invariant -/

/-- After position `n` (batch row `n / 16`, head `n % 16`) the first output buffer holds the mixed values of the heads up to
    `n % 16` and zero in the later columns; the second holds the weights summed over those heads, scaled by 1/16 after the last. -/
theorem inv (c : Dev nD) : ∀ (n : ℕ) (hn : n < cfg1.N) (b : Fin 8) (hb : b.val = n / 16),
    (∀ (s : Fin 1024) (j : Fin 16) (d : Fin 64), ((outsAt1 V c n hn).1 : Vec Ideal S1024x1x16x64 .bf16) (ix4 s 0 j d)
        = if j.val ≤ n % 16 then mixAt (V c main_v5) s b j d else 0)
    ∧ (∀ (s s' : Fin 1024), ((outsAt1 V c n hn).2 : Vec Ideal S1x1024x1024 .f32) (ix3 0 s s')
        = if n % 16 = 15 then avgAt (V c main_v5) b s s' else upTo (fun h' => weight (V c main_v5) b h' s s') (n % 16))
  | 0, hn, b, hb => by
    obtain ⟨hh, hhv⟩ : ∃ hh : Fin 16, hh.val = 0 % 16 := ⟨⟨0 % 16, Nat.mod_lt _ (by omega)⟩, rfl⟩
    have hv : hh.val = ((grid1.coords (⟨0, hn⟩ : Fin cfg1.N)) 1).val := hhv.trans ((coords1 ⟨0, hn⟩).2).symm
    have hh0 : hh.val = 0 := hhv
    have B := blocks_at V c ⟨0, hn⟩ b hb
    refine ⟨fun s j d => ?_, fun s s' => ?_⟩
    · rw [outs_A_1 V c ⟨0, hn⟩ rfl, pay3_eq (grid1.coords ⟨0, hn⟩) hh hv B _ s j d, k1_pay5_apply s 0 j d]
      exact col_first (grid1.coords ⟨0, hn⟩) hh hv hh0 (fun j => mixAt (V c main_v5) s b j d) j
    · rw [outs_A_2 V c ⟨0, hn⟩ rfl, pay2_eq (grid1.coords ⟨0, hn⟩) hh hv B _ s s', k1_pay6_apply 0 s s', zero_add,
        if_neg (by omega)]
      exact (upTo_zero (fun h' => weight (V c main_v5) b h' s s') hh hh0).symm
  | n + 1, hn, b, hb => by
    have hN : n + 1 < 128 := lt_of_lt_of_eq hn N1
    have hlt : (n + 1) % 16 < 16 := Nat.mod_lt _ (by omega)
    obtain ⟨hh, hhv⟩ : ∃ hh : Fin 16, hh.val = (n + 1) % 16 := ⟨⟨(n + 1) % 16, hlt⟩, rfl⟩
    have hv : hh.val = ((grid1.coords (⟨n + 1, hn⟩ : Fin cfg1.N)) 1).val := hhv.trans ((coords1 ⟨n + 1, hn⟩).2).symm
    have B := blocks_at V c ⟨n + 1, hn⟩ b hb
    by_cases h0 : (n + 1) % 16 = 0
    · refine ⟨fun s j d => ?_, fun s s' => ?_⟩
      · rw [outs_A_1 V c ⟨n + 1, hn⟩ h0, pay3_eq (grid1.coords ⟨n + 1, hn⟩) hh hv B _ s j d, k1_pay5_apply s 0 j d, h0]
        exact col_first (grid1.coords ⟨n + 1, hn⟩) hh hv (hhv.trans h0) (fun j => mixAt (V c main_v5) s b j d) j
      · rw [outs_A_2 V c ⟨n + 1, hn⟩ h0, pay2_eq (grid1.coords ⟨n + 1, hn⟩) hh hv B _ s s', k1_pay6_apply 0 s s',
          zero_add, if_neg (by omega), h0]
        exact (upTo_zero (fun h' => weight (V c main_v5) b h' s s') hh (hhv.trans h0)).symm
    · have hk : (n + 1) % 16 = n % 16 + 1 := by omega
      have hn15 : ¬n % 16 = 15 := by omega
      obtain ⟨ih1, ih2⟩ := inv c n (Nat.lt_of_succ_lt hn) b (by omega)
      have e : outsAt1 V c ((⟨n + 1, hn⟩ : Fin cfg1.N).val - 1) (Nat.lt_of_le_of_lt (Nat.sub_le _ _) (⟨n + 1, hn⟩ : Fin cfg1.N).isLt)
          = outsAt1 V c n (Nat.lt_of_succ_lt hn) := outsAt1_congr V c (Nat.add_sub_cancel n 1) _ _
      by_cases h1 : (n + 1) % 16 = 15
      · refine ⟨fun s j d => ?_, fun s s' => ?_⟩
        · rw [outs_C_1 V c ⟨n + 1, hn⟩ h0 h1, pay3_eq (grid1.coords ⟨n + 1, hn⟩) hh hv B _ s j d, e, ih1 s j d, hk]
          exact col_next (grid1.coords ⟨n + 1, hn⟩) hh hv (n % 16) (hhv.trans hk) (fun j => mixAt (V c main_v5) s b j d) j
        · rw [outs_C_2 V c ⟨n + 1, hn⟩ h0 h1, k1_pay4_apply _ s s', pay2_eq (grid1.coords ⟨n + 1, hn⟩) hh hv B _ s s',
            e, ih2 s s', if_neg hn15, if_pos h1,
            ← upTo_succ (fun h' => weight (V c main_v5) b h' s s') (n % 16) hh (hhv.trans hk),
            show n % 16 + 1 = 15 from by omega, upTo_all]
          rfl
      · refine ⟨fun s j d => ?_, fun s s' => ?_⟩
        · rw [outs_B_1 V c ⟨n + 1, hn⟩ h0 h1, pay3_eq (grid1.coords ⟨n + 1, hn⟩) hh hv B _ s j d, e, ih1 s j d, hk]
          exact col_next (grid1.coords ⟨n + 1, hn⟩) hh hv (n % 16) (hhv.trans hk) (fun j => mixAt (V c main_v5) s b j d) j
        · rw [outs_B_2 V c ⟨n + 1, hn⟩ h0 h1, pay2_eq (grid1.coords ⟨n + 1, hn⟩) hh hv B _ s s',
            e, ih2 s s', if_neg hn15, if_neg h1,
            ← upTo_succ (fun h' => weight (V c main_v5) b h' s s') (n % 16) hh (hhv.trans hk), hk]

end Cert.KernelIdeal.Hand

end
-- ==== Proof.Att5.lean ====
import proofs.«128804_j1632087573280_2_alg».proof.Proof.Att4b
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

open Cert.AttnZ Cert.Pay

variable (V : (c : Dev nD) → (b : Ref sig .tc) → Buf (Elt Ideal) ((c : Thread nD τ).loc b))

/-! ## The blocks written back, and the two result arrays -/

/-- At the last head of a batch row the first output's block is that batch row of the mixed values. -/
theorem flushed1_3 (c : Dev nD) (t : Fin cfg1.N) (hf : (cfg1.win 3).flush t = true) :
    (dat1 V c).flushed 3 t = ((cfg1.win 3).blk t).view.read (Elt Ideal) (mix (V c main_v5)) := by
  have h15 : t.val % 16 = 15 := (flush1_3 t).mp hf
  have hN : t.val < 128 := lt_of_lt_of_eq t.isLt N1
  obtain ⟨i0, i1, i2, i3⟩ := index1_3 t
  show (cfg1.win 3).cut (grid1.coords t) ((dat1 V c).after 3 t) = _
  rw [after1_3]
  funext y
  have h0 : (y 0).val < 1024 := (y 0).isLt
  have h1 : (y 1).val < 1 := (y 1).isLt
  have h2 : (y 2).val < 16 := (y 2).isLt
  have h3 : (y 3).val < 64 := (y 3).isLt
  have eL : ((cfg1.win 3).xinj (grid1.coords t) y : S1024x1x16x64.Idx)
      = ix4 (⟨(y 0).val, h0⟩ : Fin 1024) (0 : Fin 1) (⟨(y 2).val, h2⟩ : Fin 16) (⟨(y 3).val, h3⟩ : Fin 64) :=
    funext fun a => Fin.ext (by
      match a with
      | ⟨0, _⟩ => rfl
      | ⟨1, _⟩ => show (y 1).val = 0; omega
      | ⟨2, _⟩ => rfl
      | ⟨3, _⟩ => rfl)
  have eR : (((cfg1.win 3).blk t).view.emb y : S1024x8x16x64.Idx)
      = ix4 (⟨(y 0).val, h0⟩ : Fin 1024) (⟨t.val / 16, by omega⟩ : Fin 8) (⟨(y 2).val, h2⟩ : Fin 16) (⟨(y 3).val, h3⟩ : Fin 64) :=
    funext fun a => Fin.ext (by
      match a with
      | ⟨0, _⟩ => show win1_3.index t 0 * 1024 + 1 * (y 0).val = (y 0).val; rw [i0]; omega
      | ⟨1, _⟩ => show win1_3.index t 1 * 1 + 1 * (y 1).val = t.val / 16; rw [i1]; omega
      | ⟨2, _⟩ => show win1_3.index t 2 * 16 + 1 * (y 2).val = (y 2).val; rw [i2]; omega
      | ⟨3, _⟩ => show win1_3.index t 3 * 64 + 1 * (y 3).val = (y 3).val; rw [i3]; omega)
  rw [View.read_apply]
  show ((outsAt1 V c t.val t.isLt).1 : Vec Ideal S1024x1x16x64 .bf16) ((cfg1.win 3).xinj (grid1.coords t) y)
    = mix (V c main_v5) (((cfg1.win 3).blk t).view.emb y)
  refine (congrArg (outsAt1 V c t.val t.isLt).1 eL).trans (Eq.trans ?_ (congrArg (mix (V c main_v5)) eR).symm)
  refine ((inv V c t.val t.isLt (⟨t.val / 16, by omega⟩ : Fin 8) rfl).1 _ _ _).trans ?_
  rw [h15, if_pos (by show (y 2).val ≤ 15; omega)]
  rfl

/-- At the last head of a batch row the second output's block is that batch row of the averaged weights. -/
theorem flushed1_4 (c : Dev nD) (t : Fin cfg1.N) (hf : (cfg1.win 4).flush t = true) :
    (dat1 V c).flushed 4 t = ((cfg1.win 4).blk t).view.read (Elt Ideal) (avg (V c main_v5)) := by
  have h15 : t.val % 16 = 15 := (flush1_4 t).mp hf
  have hN : t.val < 128 := lt_of_lt_of_eq t.isLt N1
  obtain ⟨i0, i1, i2⟩ := index1_4 t
  show (cfg1.win 4).cut (grid1.coords t) ((dat1 V c).after 4 t) = _
  rw [after1_4]
  funext y
  have h0 : (y 0).val < 1 := (y 0).isLt
  have h1 : (y 1).val < 1024 := (y 1).isLt
  have h2 : (y 2).val < 1024 := (y 2).isLt
  have eL : ((cfg1.win 4).xinj (grid1.coords t) y : S1x1024x1024.Idx)
      = ix3 (0 : Fin 1) (⟨(y 1).val, h1⟩ : Fin 1024) (⟨(y 2).val, h2⟩ : Fin 1024) :=
    funext fun a => Fin.ext (by
      match a with
      | ⟨0, _⟩ => show (y 0).val = 0; omega
      | ⟨1, _⟩ => rfl
      | ⟨2, _⟩ => rfl)
  have eR : (((cfg1.win 4).blk t).view.emb y : S8x1024x1024.Idx)
      = ix3 (⟨t.val / 16, by omega⟩ : Fin 8) (⟨(y 1).val, h1⟩ : Fin 1024) (⟨(y 2).val, h2⟩ : Fin 1024) :=
    funext fun a => Fin.ext (by
      match a with
      | ⟨0, _⟩ => show win1_4.index t 0 * 1 + 1 * (y 0).val = t.val / 16; rw [i0]; omega
      | ⟨1, _⟩ => show win1_4.index t 1 * 1024 + 1 * (y 1).val = (y 1).val; rw [i1]; omega
      | ⟨2, _⟩ => show win1_4.index t 2 * 1024 + 1 * (y 2).val = (y 2).val; rw [i2]; omega)
  rw [View.read_apply]
  show ((outsAt1 V c t.val t.isLt).2 : Vec Ideal S1x1024x1024 .f32) ((cfg1.win 4).xinj (grid1.coords t) y)
    = avg (V c main_v5) (((cfg1.win 4).blk t).view.emb y)
  refine (congrArg (outsAt1 V c t.val t.isLt).2 eL).trans (Eq.trans ?_ (congrArg (avg (V c main_v5)) eR).symm)
  refine ((inv V c t.val t.isLt (⟨t.val / 16, by omega⟩ : Fin 8) rfl).2 _ _).trans ?_
  rw [if_pos h15]
  rfl

/-- The first result array of the region: the mixed values, laid out [position, batch row, head, place]. -/
theorem arr1_3 (c : Dev nD) : (dat1 (F := Ideal) V c).arrAt 3 cfg1.N = mix (V c main_v5) :=
  (dat1 V c).arrAt_eq_of_cover 3 (mix (V c main_v5)) (flushed1_3 V c) fun i => by
    have hi0 : (i 0 : Nat) < 1024 := (i 0).isLt
    have hi1 : (i 1 : Nat) < 8 := (i 1).isLt
    have hi2 : (i 2 : Nat) < 16 := (i 2).isLt
    have hi3 : (i 3 : Nat) < 64 := (i 3).isLt
    have htN : 16 * (i 1 : Nat) + 15 < cfg1.N := by rw [N1]; omega
    refine ⟨⟨16 * (i 1 : Nat) + 15, htN⟩, (flush1_3 _).mpr (by show (16 * (i 1 : Nat) + 15) % 16 = 15; omega), ?_⟩
    obtain ⟨i0, i1, i2, i3⟩ := index1_3 ⟨16 * (i 1 : Nat) + 15, htN⟩
    show i ∈ ((View.whole main_v6_0).slice (win1_3.rect ⟨16 * (i 1 : Nat) + 15, htN⟩)).set
    rw [View.set_slice_whole, Rect.mem_set_unit]
    intro a
    match a with
    | ⟨0, _⟩ =>
      show win1_3.index ⟨16 * (i 1 : Nat) + 15, htN⟩ 0 * 1024 ≤ (i 0 : Nat) ∧ (i 0 : Nat) < win1_3.index ⟨16 * (i 1 : Nat) + 15, htN⟩ 0 * 1024 + 1024
      rw [i0]; omega
    | ⟨1, _⟩ =>
      show win1_3.index ⟨16 * (i 1 : Nat) + 15, htN⟩ 1 * 1 ≤ (i 1 : Nat) ∧ (i 1 : Nat) < win1_3.index ⟨16 * (i 1 : Nat) + 15, htN⟩ 1 * 1 + 1
      rw [i1]; show (16 * (i 1 : Nat) + 15) / 16 * 1 ≤ (i 1 : Nat) ∧ (i 1 : Nat) < (16 * (i 1 : Nat) + 15) / 16 * 1 + 1; omega
    | ⟨2, _⟩ =>
      show win1_3.index ⟨16 * (i 1 : Nat) + 15, htN⟩ 2 * 16 ≤ (i 2 : Nat) ∧ (i 2 : Nat) < win1_3.index ⟨16 * (i 1 : Nat) + 15, htN⟩ 2 * 16 + 16
      rw [i2]; omega
    | ⟨3, _⟩ =>
      show win1_3.index ⟨16 * (i 1 : Nat) + 15, htN⟩ 3 * 64 ≤ (i 3 : Nat) ∧ (i 3 : Nat) < win1_3.index ⟨16 * (i 1 : Nat) + 15, htN⟩ 3 * 64 + 64
      rw [i3]; omega

/-- The second result array of the region: the weights averaged over the heads. -/
theorem arr1_4 (c : Dev nD) : (dat1 (F := Ideal) V c).arrAt 4 cfg1.N = avg (V c main_v5) :=
  (dat1 V c).arrAt_eq_of_cover 4 (avg (V c main_v5)) (flushed1_4 V c) fun i => by
    have hi0 : (i 0 : Nat) < 8 := (i 0).isLt
    have hi1 : (i 1 : Nat) < 1024 := (i 1).isLt
    have hi2 : (i 2 : Nat) < 1024 := (i 2).isLt
    have htN : 16 * (i 0 : Nat) + 15 < cfg1.N := by rw [N1]; omega
    refine ⟨⟨16 * (i 0 : Nat) + 15, htN⟩, (flush1_4 _).mpr (by show (16 * (i 0 : Nat) + 15) % 16 = 15; omega), ?_⟩
    obtain ⟨i0, i1, i2⟩ := index1_4 ⟨16 * (i 0 : Nat) + 15, htN⟩
    show i ∈ ((View.whole main_v6_1).slice (win1_4.rect ⟨16 * (i 0 : Nat) + 15, htN⟩)).set
    rw [View.set_slice_whole, Rect.mem_set_unit]
    intro a
    match a with
    | ⟨0, _⟩ =>
      show win1_4.index ⟨16 * (i 0 : Nat) + 15, htN⟩ 0 * 1 ≤ (i 0 : Nat) ∧ (i 0 : Nat) < win1_4.index ⟨16 * (i 0 : Nat) + 15, htN⟩ 0 * 1 + 1
      rw [i0]; show (16 * (i 0 : Nat) + 15) / 16 * 1 ≤ (i 0 : Nat) ∧ (i 0 : Nat) < (16 * (i 0 : Nat) + 15) / 16 * 1 + 1; omega
    | ⟨1, _⟩ =>
      show win1_4.index ⟨16 * (i 0 : Nat) + 15, htN⟩ 1 * 1024 ≤ (i 1 : Nat) ∧ (i 1 : Nat) < win1_4.index ⟨16 * (i 0 : Nat) + 15, htN⟩ 1 * 1024 + 1024
      rw [i1]; omega
    | ⟨2, _⟩ =>
      show win1_4.index ⟨16 * (i 0 : Nat) + 15, htN⟩ 2 * 1024 ≤ (i 2 : Nat) ∧ (i 2 : Nat) < win1_4.index ⟨16 * (i 0 : Nat) + 15, htN⟩ 2 * 1024 + 1024
      rw [i2]; omega

end Cert.KernelIdeal.Hand

end
-- ==== Proof.ValueRun.lean ====
/-
  The idealized kernel program's run with its two results named: every weakly fair execution terminates with the first
  result at the output projection of the mixed values and the second at the head-averaged attention weights — the
  specification's two functions of the argument arrays — and the arguments unchanged.  The run gives every unscoped
  buffer at the last boundary's contents; the three regions' output arrays as whole-array functions, chained through
  the host lines' re-layings, make those contents the specification.
-/
import proofs.«128804_j1632087573280_2_alg».proof.Proof.KI.Main
import proofs.«128804_j1632087573280_2_alg».proof.Proof.KernelValue
import proofs.«128804_j1632087573280_2_alg».proof.Proof.Arr0
import proofs.«128804_j1632087573280_2_alg».proof.Proof.Arr2
import proofs.«128804_j1632087573280_2_alg».proof.Proof.Att5

noncomputable section

namespace Cert.KernelIdeal.Hand

open Cert.KernelIdeal Cert.KernelIdeal.Gen
open Idealize.ShloMosaic Idealize.ShloMosaic.TcCoe Idealize.SL.Sem

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread nD τ).loc main_v6_1) = Cert.Attn.avg (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v12 (by decide))).trans (out_val m ρ c (arr0 (E1 m ρ) c) (arr1_3 (E3 m ρ) c) (arr2 (E5 m ρ) c)),
     (h c _ (mem_uc main_v6_1 (by decide))).trans (avg_val m ρ c (arr0 (E1 m ρ) c) (arr1_4 (E3 m ρ) c)),
     (h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c)⟩) (run_all m ρ)

end Cert.KernelIdeal.Hand

end
-- ==== Proof.RefA.lean ====
/-
  The reference's packed projection and its three parts, read at an index.

  The sum of the input contraction and the broadcast bias is the specification's packed projection. Each part
  (queries, keys, values) is a column slice of it, reshaped from [1024, 8, 1024] to [1024, 128, 64] and transposed
  to [128, 1024, 64]: row r = b * 16 + h of the result holds batch row b and head h, so entry (r, s, d) is column
  p * 1024 + h * 64 + d of the projection at position s, batch row b. The queries carry the factor 1/8.
-/
import proofs.«128804_j1632087573280_2_alg».proof.Proof.Gen.ReferenceIdeal.Read
import proofs.«128804_j1632087573280_2_alg».proof.Proof.Spec

noncomputable section

open scoped BigOperators

namespace Cert.RefA

open Idealize.ShloMosaic Idealize.ShloMosaic.ValueIdx Cert.ReferenceIdeal Cert.ReferenceIdeal.Read Cert.Attn

/-- The batch row and the head of row r of the arrays of 128 rows: r = b * 16 + h. -/
def bOf (r : Fin 128) : Fin 8 := ⟨r.val / 16, by omega⟩
def hOf (r : Fin 128) : Fin 16 := ⟨r.val % 16, by omega⟩

/-- The sum of the input projection and the bias, at position s, batch row b, column f, is the packed projection. -/
theorem v3_at (x0 : AX) (x1 : AW) (x2 : AB) (s : Fin 1024) (b : Fin 8) (f : Fin 3072) :
    val_main_v3 (F := Ideal) x0 x1 x2 (ix3 s b f) = qkv x0 x1 x2 s b f := by
  rw [val_main_v3_apply, val_main_v0_apply, val_main_v2_apply, val_main_v1_apply]
  have hl : ∀ k : Fin 1024, lidx_main_v0 (ix3 s b f) k = ix3 s b k := fun k => funext fun a =>
    match a with | ⟨0, _⟩ => rfl | ⟨1, _⟩ => rfl | ⟨2, _⟩ => rfl
  have hr : ∀ k : Fin 1024, ridx_main_v0 (ix3 s b f) k = ix2 f k := fun k => funext fun a =>
    match a with | ⟨0, _⟩ => rfl | ⟨1, _⟩ => rfl
  have hb : idx_main_v1 (idx_main_v2 (ix3 s b f)) = ix1 f := funext fun a =>
    match a with | ⟨0, _⟩ => rfl
  simp only [hl, hr, hb]
  rfl

/-- Row r, position s, place d of the reshaped and transposed first part reads column (0, head, d) of the
    packed projection at position s and the row's batch row. -/
theorem idx_q (r : Fin 128) (s : Fin 1024) (d : Fin 64) :
    idx_main_v4 (idx_main_v9 (idx_main_v10 (ix3 r s d))) = ix3 s (bOf r) (col 0 (hOf r) d) := by
  have hr := r.isLt; have hs := s.isLt; have hd := d.isLt
  funext a
  match a with
  | ⟨0, _⟩ => exact Fin.ext (by show ((s.val * 128 + r.val) * 64 + d.val) / 8192 = s.val; omega)
  | ⟨1, _⟩ => exact Fin.ext (by show ((s.val * 128 + r.val) * 64 + d.val) / 1024 % 8 = r.val / 16; omega)
  | ⟨2, _⟩ => exact Fin.ext (by show ((s.val * 128 + r.val) * 64 + d.val) % 1024 = 0 * 1024 + r.val % 16 * 64 + d.val; omega)

theorem idx_k (r : Fin 128) (s : Fin 1024) (d : Fin 64) :
    idx_main_v5 (idx_main_v11 (idx_main_v12 (ix3 r s d))) = ix3 s (bOf r) (col 1 (hOf r) d) := by
  have hr := r.isLt; have hs := s.isLt; have hd := d.isLt
  funext a
  match a with
  | ⟨0, _⟩ => exact Fin.ext (by show ((s.val * 128 + r.val) * 64 + d.val) / 8192 = s.val; omega)
  | ⟨1, _⟩ => exact Fin.ext (by show ((s.val * 128 + r.val) * 64 + d.val) / 1024 % 8 = r.val / 16; omega)
  | ⟨2, _⟩ => exact Fin.ext (by show 1024 + ((s.val * 128 + r.val) * 64 + d.val) % 1024 = 1 * 1024 + r.val % 16 * 64 + d.val; omega)

theorem idx_v (r : Fin 128) (s : Fin 1024) (d : Fin 64) :
    idx_main_v6 (idx_main_v13 (idx_main_v14 (ix3 r s d))) = ix3 s (bOf r) (col 2 (hOf r) d) := by
  have hr := r.isLt; have hs := s.isLt; have hd := d.isLt
  funext a
  match a with
  | ⟨0, _⟩ => exact Fin.ext (by show ((s.val * 128 + r.val) * 64 + d.val) / 8192 = s.val; omega)
  | ⟨1, _⟩ => exact Fin.ext (by show ((s.val * 128 + r.val) * 64 + d.val) / 1024 % 8 = r.val / 16; omega)
  | ⟨2, _⟩ => exact Fin.ext (by show 2048 + ((s.val * 128 + r.val) * 64 + d.val) % 1024 = 2 * 1024 + r.val % 16 * 64 + d.val; omega)

/-- The scaled queries at row r, position s, place d. -/
theorem v10_at (x0 : AX) (x1 : AW) (x2 : AB) (r : Fin 128) (s : Fin 1024) (d : Fin 64) :
    val_main_v10 (F := Ideal) x0 x1 x2 (ix3 r s d)
      = qkv x0 x1 x2 s (bOf r) (col 0 (hOf r) d) * Ideal.ofBits .f32 0x3E000000#32 := by
  rw [val_main_v10_apply, val_main_v9_apply, val_main_v8_apply, val_main_v4_apply, val_main_v7_apply,
    val_main_cst_apply, idx_q, v3_at]
  rfl

/-- The keys at row r, position s, place d. -/
theorem v12_at (x0 : AX) (x1 : AW) (x2 : AB) (r : Fin 128) (s : Fin 1024) (d : Fin 64) :
    val_main_v12 (F := Ideal) x0 x1 x2 (ix3 r s d) = qkv x0 x1 x2 s (bOf r) (col 1 (hOf r) d) := by
  rw [val_main_v12_apply, val_main_v11_apply, val_main_v5_apply, idx_k, v3_at]

/-- The values at row r, position s, place d. -/
theorem v14_at (x0 : AX) (x1 : AW) (x2 : AB) (r : Fin 128) (s : Fin 1024) (d : Fin 64) :
    val_main_v14 (F := Ideal) x0 x1 x2 (ix3 r s d) = qkv x0 x1 x2 s (bOf r) (col 2 (hOf r) d) := by
  rw [val_main_v14_apply, val_main_v13_apply, val_main_v6_apply, idx_v, v3_at]

end Cert.RefA

end
-- ==== Proof.RefB.lean ====
/-
  The reference's scores, row maxima, shifted exponentials and attention weights, read at an index.

  Row r = b * 16 + h of the [128, 1024, 1024] arrays holds batch row b = r / 16 and head h = r % 16. The score
  contraction multiplies the scaled queries (factor 1/8 inside) by the keys; the factor, a nonnegative real, moves out
  of the finite sum, which gives the specification's score. The maximum over a row is the fold of max from minus
  infinity, the exponential is taken of the score minus that maximum, and the weight is its quotient by the row's sum.
-/
import proofs.«128804_j1632087573280_2_alg».proof.Proof.RefA

noncomputable section

open scoped BigOperators

namespace Cert.RefB

open Idealize.ShloMosaic Idealize.ShloMosaic.ValueIdx Cert.ReferenceIdeal Cert.ReferenceIdeal.Gen Cert.ReferenceIdeal.Read Cert.Attn Cert.RefA

/-- The pattern 0x3E000000 denotes the real 1/8. -/
theorem ofBits_eighth : Ideal.ofBits .f32 0x3E000000#32 = (((1 : ℝ) / 8 : ℝ) : EReal) := by
  simp [Ideal.ofBits, Ideal.ieee, -EReal.coe_mul]; norm_num

/-- A finite sum times a nonnegative real factor is the sum of the products (no infinity meets its opposite:
    multiplying by a nonnegative real keeps every term's sign). -/
theorem sum_mul_const {ι : Type} (t : Finset ι) (f : ι → EReal) (c : EReal) (h0 : 0 ≤ c) (ht : c ≠ ⊤) :
    (∑ d ∈ t, f d) * c = ∑ d ∈ t, f d * c := by
  classical
  induction t using Finset.induction_on with
  | empty => simp
  | insert a t ha ih =>
    rw [Finset.sum_insert ha, Finset.sum_insert ha, EReal.right_distrib_of_nonneg_of_ne_top h0 ht, ih]

/-- The score contraction at row r: the factor 1/8 on the queries moves out of the sum over the places. -/
theorem v15_at (x0 : AX) (x1 : AW) (x2 : AB) (r : Fin 128) (s s' : Fin 1024) :
    val_main_v15 (F := Ideal) x0 x1 x2 (ix3 r s s') = score x0 x1 x2 (bOf r) (hOf r) s s' := by
  rw [val_main_v15_apply]
  have hl : ∀ k : Fin 64, lidx_main_v15 (ix3 r s s') k = ix3 r s k := fun k => funext fun a =>
    match a with | ⟨0, _⟩ => rfl | ⟨1, _⟩ => rfl | ⟨2, _⟩ => rfl
  have hr : ∀ k : Fin 64, ridx_main_v15 (ix3 r s s') k = ix3 r s' k := fun k => funext fun a =>
    match a with | ⟨0, _⟩ => rfl | ⟨1, _⟩ => rfl | ⟨2, _⟩ => rfl
  simp only [hl, hr, v10_at, v12_at]
  unfold score
  have h0 : (0 : EReal) ≤ Ideal.ofBits .f32 0x3E000000#32 := by
    rw [ofBits_eighth]; exact EReal.coe_nonneg.mpr (by norm_num)
  have ht : Ideal.ofBits .f32 0x3E000000#32 ≠ ⊤ := by
    rw [ofBits_eighth]; exact EReal.coe_ne_top _
  rw [sum_mul_const _ _ _ h0 ht]
  exact Finset.sum_congr rfl fun d _ => mul_right_comm _ _ _

/-- The shape fact that names the index inserted on the last axis. -/
theorem hred : S128x1024x1024.Reduces [2] S128x1024 := by decide

/-- The host's maximum over the last axis of a [128, 1024, 1024] array, at row r and position s, is the fold of max
    over the row, from the initial value. -/
theorem reduce_max_row (y : S128x1024x1024.Idx → EReal) (init : S_.Idx → EReal) (r : Fin 128) (s : Fin 1024) :
    Host.reduce (FloatOps.maximumf (F := Ideal) (φ := .f32)) y init reducesTo_S128x1024x1024_S128x1024_d2 h_S_ (ix2 r s)
      = (Finset.univ : Finset (Fin 1024)).fold max (init (Shape.Idx.first h_S_)) (fun s' => y (ix3 r s s')) := by
  refine (Host.reduce_eq_fold_single (FloatOps.maximumf (F := Ideal) (φ := .f32)) y init
    reducesTo_S128x1024x1024_S128x1024_d2 hred h_S_ (ix2 r s)).trans ?_
  have hf : y ∘ hred.lift (ix2 r s) = fun s' : Fin 1024 => y (ix3 r s s') := by
    funext s'
    exact congrArg y (funext fun c => Fin.ext (by match c with | ⟨0, _⟩ => rfl | ⟨1, _⟩ => rfl | ⟨2, _⟩ => rfl))
  rw [hf]
  rfl

/-- The maximum over the last axis at row r, position s: the fold of max over the row's scores. -/
theorem v16_at (x0 : AX) (x1 : AW) (x2 : AB) (r : Fin 128) (s : Fin 1024) :
    val_main_v16 (F := Ideal) x0 x1 x2 (ix2 r s) = rowMax x0 x1 x2 (bOf r) (hOf r) s := by
  unfold val_main_v16
  refine (reduce_max_row _ _ r s).trans ?_
  rw [val_main_cst_0_apply]
  simp only [v15_at]
  rfl

/-- The reference takes the maximum once more against minus infinity, which changes nothing: the fold already starts there. -/
theorem v18_at (x0 : AX) (x1 : AW) (x2 : AB) (r : Fin 128) (s : Fin 1024) :
    val_main_v18 (F := Ideal) x0 x1 x2 (ix2 r s) = rowMax x0 x1 x2 (bOf r) (hOf r) s := by
  rw [val_main_v18_apply, v16_at, val_main_v17_apply, val_main_cst_1_apply]
  show max (Ideal.ofBits .f32 0xFF800000#32) (rowMax x0 x1 x2 (bOf r) (hOf r) s) = _
  exact max_eq_right (by unfold rowMax; exact (Finset.le_fold_max _).mpr (Or.inl le_rfl))

/-- The row maximum broadcast back along the row. -/
theorem v20_at (x0 : AX) (x1 : AW) (x2 : AB) (r : Fin 128) (s s' : Fin 1024) :
    val_main_v20 (F := Ideal) x0 x1 x2 (ix3 r s s') = rowMax x0 x1 x2 (bOf r) (hOf r) s := by
  rw [val_main_v20_apply, val_main_v19_apply]
  have hi : idx_main_v19 (idx_main_v20 (ix3 r s s')) = ix2 r s := funext fun a =>
    match a with | ⟨0, _⟩ => rfl | ⟨1, _⟩ => rfl
  rw [hi, v18_at]

/-- The shifted exponential. -/
theorem v22_at (x0 : AX) (x1 : AW) (x2 : AB) (r : Fin 128) (s s' : Fin 1024) :
    val_main_v22 (F := Ideal) x0 x1 x2 (ix3 r s s') = expo x0 x1 x2 (bOf r) (hOf r) s s' := by
  rw [val_main_v22_apply, val_main_v21_apply, v15_at, v20_at]
  rfl

/-- The row's sum of the shifted exponentials (the host's sum starts from zero). -/
theorem v23_at (x0 : AX) (x1 : AW) (x2 : AB) (r : Fin 128) (s : Fin 1024) :
    val_main_v23 (F := Ideal) x0 x1 x2 (ix2 r s) = ∑ s'' : Fin 1024, expo x0 x1 x2 (bOf r) (hOf r) s s'' := by
  rw [val_main_v23_apply, val_main_cst_2_apply]
  have hi : ∀ k : Fin 1024, idx_main_v23 (ix2 r s) k = ix3 r s k := fun k => funext fun a =>
    match a with | ⟨0, _⟩ => rfl | ⟨1, _⟩ => rfl | ⟨2, _⟩ => rfl
  simp only [hi, v22_at]
  rw [Ideal.ofBits_def, Ideal.ofBits_zero_f32, zero_add]

/-- The attention weight at row r: position s against position s'. -/
theorem v26_at (x0 : AX) (x1 : AW) (x2 : AB) (r : Fin 128) (s s' : Fin 1024) :
    val_main_v26 (F := Ideal) x0 x1 x2 (ix3 r s s') = weight x0 x1 x2 (bOf r) (hOf r) s s' := by
  rw [val_main_v26_apply, v22_at, val_main_v25_apply, val_main_v24_apply]
  have hi : idx_main_v24 (idx_main_v25 (ix3 r s s')) = ix2 r s := funext fun a =>
    match a with | ⟨0, _⟩ => rfl | ⟨1, _⟩ => rfl
  rw [hi, v23_at]
  rfl

/-- Row b * 16 + h of the arrays of 128 rows, and its batch row and head. -/
def row (b : Fin 8) (h : Fin 16) : Fin 128 := ⟨b.val * 16 + h.val, by omega⟩

theorem bOf_row (b : Fin 8) (h : Fin 16) : bOf (row b h) = b :=
  Fin.ext (by show (b.val * 16 + h.val) / 16 = b.val; omega)

theorem hOf_row (b : Fin 8) (h : Fin 16) : hOf (row b h) = h :=
  Fin.ext (by show (b.val * 16 + h.val) % 16 = h.val; omega)

end Cert.RefB

end
-- ==== Proof.RefC.lean ====
/-
  The reference's second result read at an index: the attention weights, reshaped from [128, 1024, 1024] to
  [8, 16, 1024, 1024] (row b * 16 + h is batch row b, head h), summed over the 16 heads from zero and divided by 16,
  which is the product with 1/16.
-/
import proofs.«128804_j1632087573280_2_alg».proof.Proof.RefB

noncomputable section

open scoped BigOperators

namespace Cert.RefC

open Idealize.ShloMosaic Idealize.ShloMosaic.ValueIdx Cert.ReferenceIdeal Cert.ReferenceIdeal.Gen Cert.ReferenceIdeal.Read Cert.Attn Cert.RefA Cert.RefB

/-- The pattern 0x41800000 denotes the real 16. -/
theorem ofBits_sixteen : Ideal.ofBits .f32 0x41800000#32 = ((16 : ℝ) : EReal) := by
  simp [Ideal.ofBits, Ideal.ieee, -EReal.coe_mul]; norm_num

/-- The pattern 0x3D800000 denotes the real 1/16. -/
theorem ofBits_sixteenth : Ideal.ofBits .f32 0x3D800000#32 = (((1 : ℝ) / 16 : ℝ) : EReal) := by
  simp [Ideal.ofBits, Ideal.ieee, -EReal.coe_mul]; norm_num

/-- Entry (b, h, s, s') of the weights reshaped to [8, 16, 1024, 1024] is entry (b * 16 + h, s, s'). -/
theorem idx_heads (b : Fin 8) (s s' : Fin 1024) (k : Fin 16) :
    idx_main_v34 (idx_main_v35 (ix3 b s s') k) = ix3 (row b k) s s' := by
  have hb := b.isLt; have hs := s.isLt; have hs' := s'.isLt; have hk := k.isLt
  funext a
  match a with
  | ⟨0, _⟩ => exact Fin.ext (by
      show (((b.val * 16 + k.val) * 1024 + s.val) * 1024 + s'.val) / 1048576 = b.val * 16 + k.val; omega)
  | ⟨1, _⟩ => exact Fin.ext (by
      show (((b.val * 16 + k.val) * 1024 + s.val) * 1024 + s'.val) / 1024 % 1024 = s.val; omega)
  | ⟨2, _⟩ => exact Fin.ext (by
      show (((b.val * 16 + k.val) * 1024 + s.val) * 1024 + s'.val) % 1024 = s'.val; omega)

/-- The second result at (b, s, s'): the weights summed over the heads, divided by 16, which is times 1/16. -/
theorem v37_at (x0 : AX) (x1 : AW) (x2 : AB) (b : Fin 8) (s s' : Fin 1024) :
    val_main_v37 (F := Ideal) x0 x1 x2 (ix3 b s s')
      = (∑ h : Fin 16, weight x0 x1 x2 b h s s') * Ideal.ofBits .f32 0x3D800000#32 := by
  rw [val_main_v37_apply, val_main_v36_apply, val_main_cst_4_apply, val_main_v35_apply, val_main_cst_3_apply]
  simp only [val_main_v34_apply, idx_heads, v26_at, bOf_row, hOf_row]
  rw [Ideal.ofBits_def, Ideal.ofBits_def, Ideal.ofBits_zero_f32, zero_add, Ideal.hostDivf_def, ofBits_sixteen,
    Ideal.div_coe (by norm_num), ofBits_sixteenth]

end Cert.RefC

end
-- ==== Proof.RefD.lean ====
/-
  The reference's first result read at an index: the weights times the values give, at row r = b * 16 + h, position s
  and place d, the specification's mixed value; transposed and reshaped back to [1024, 8, 1024], feature e of batch row
  b is head e / 64, place e % 64; the output projection contracts over the 1024 features and adds the output bias.
-/
import proofs.«128804_j1632087573280_2_alg».proof.Proof.RefB

noncomputable section

open scoped BigOperators

namespace Cert.RefD

open Idealize.ShloMosaic Idealize.ShloMosaic.ValueIdx Cert.ReferenceIdeal Cert.ReferenceIdeal.Gen Cert.ReferenceIdeal.Read Cert.Attn Cert.RefA Cert.RefB

/-- The weighted sum of the value rows at row r, position s, place d. -/
theorem v27_at (x0 : AX) (x1 : AW) (x2 : AB) (r : Fin 128) (s : Fin 1024) (d : Fin 64) :
    val_main_v27 (F := Ideal) x0 x1 x2 (ix3 r s d) = mix x0 x1 x2 s (bOf r) (hOf r) d := by
  rw [val_main_v27_apply]
  have hl : ∀ k : Fin 1024, lidx_main_v27 (ix3 r s d) k = ix3 r s k := fun k => funext fun a =>
    match a with | ⟨0, _⟩ => rfl | ⟨1, _⟩ => rfl | ⟨2, _⟩ => rfl
  have hr : ∀ k : Fin 1024, ridx_main_v27 (ix3 r s d) k = ix3 r k d := fun k => funext fun a =>
    match a with | ⟨0, _⟩ => rfl | ⟨1, _⟩ => rfl | ⟨2, _⟩ => rfl
  simp only [hl, hr, v26_at, v14_at]
  rfl

/-- Feature e of batch row b at position s, after the transpose and the reshape back to [1024, 8, 1024], is
    place e % 64 of row b * 16 + e / 64 at position s. -/
theorem idx_back (s : Fin 1024) (b : Fin 8) (e : Fin 1024) :
    idx_main_v28 (idx_main_v29 (ix3 s b e)) = ix3 (row b (headOf e)) s (placeOf e) := by
  have hs := s.isLt; have hb := b.isLt; have he := e.isLt
  funext a
  match a with
  | ⟨0, _⟩ => exact Fin.ext (by
      show ((s.val * 8 + b.val) * 1024 + e.val) / 64 % 128 = b.val * 16 + e.val / 64; omega)
  | ⟨1, _⟩ => exact Fin.ext (by
      show ((s.val * 8 + b.val) * 1024 + e.val) / 8192 = s.val; omega)
  | ⟨2, _⟩ => exact Fin.ext (by
      show ((s.val * 8 + b.val) * 1024 + e.val) % 64 = e.val % 64; omega)

/-- The mixed values laid out again as 1024 features. -/
theorem v29_at (x0 : AX) (x1 : AW) (x2 : AB) (s : Fin 1024) (b : Fin 8) (e : Fin 1024) :
    val_main_v29 (F := Ideal) x0 x1 x2 (ix3 s b e) = mix x0 x1 x2 s b (headOf e) (placeOf e) := by
  rw [val_main_v29_apply, val_main_v28_apply, idx_back, v27_at, bOf_row, hOf_row]

/-- The first result at (s, b, f): the output projection of the mixed values plus the output bias. -/
theorem v33_at (x0 : AX) (x1 : AW) (x2 : AB) (x3 : AWo) (x4 : ABo) (s : Fin 1024) (b : Fin 8) (f : Fin 1024) :
    val_main_v33 (F := Ideal) x0 x1 x2 x3 x4 (ix3 s b f)
      = (∑ e : Fin 1024, mix x0 x1 x2 s b (headOf e) (placeOf e) * x3 (ix2 f e)) + x4 (ix1 f) := by
  rw [val_main_v33_apply, val_main_v30_apply, val_main_v32_apply, val_main_v31_apply]
  have hl : ∀ k : Fin 1024, lidx_main_v30 (ix3 s b f) k = ix3 s b k := fun k => funext fun a =>
    match a with | ⟨0, _⟩ => rfl | ⟨1, _⟩ => rfl | ⟨2, _⟩ => rfl
  have hr : ∀ k : Fin 1024, ridx_main_v30 (ix3 s b f) k = ix2 f k := fun k => funext fun a =>
    match a with | ⟨0, _⟩ => rfl | ⟨1, _⟩ => rfl
  have hb : idx_main_v31 (idx_main_v32 (ix3 s b f)) = ix1 f := funext fun a =>
    match a with | ⟨0, _⟩ => rfl
  simp only [hl, hr, hb, v29_at]
  rfl

end Cert.RefD

end
-- ==== Proof.RefValue.lean ====
/-
  The reference program's two results are the specification's two results.
-/
import proofs.«128804_j1632087573280_2_alg».proof.Proof.RefC
import proofs.«128804_j1632087573280_2_alg».proof.Proof.RefD

noncomputable section

open scoped BigOperators

namespace Cert.RefValue

open Idealize.ShloMosaic Idealize.ShloMosaic.ValueIdx

/-- The reference's first result is the specification's output projection of the mixed values. -/
theorem out_eq (x0 : Cert.Attn.AX) (x1 : Cert.Attn.AW) (x2 : Cert.Attn.AB) (x3 : Cert.Attn.AWo) (x4 : Cert.Attn.ABo)
    (h0 : Cert.Attn.IsReal x0) (h1 : Cert.Attn.IsReal x1) (h2 : Cert.Attn.IsReal x2) :
    Cert.ReferenceIdeal.Read.val_main_v33 (F := Ideal) x0 x1 x2 x3 x4 = Cert.Attn.out x0 x1 x2 x3 x4 := by
  funext i
  obtain ⟨s, b, f, rfl⟩ : ∃ (s : Fin 1024) (b : Fin 8) (f : Fin 1024), i = ix3 s b f := ⟨i 0, i 1, i 2, eq_ix3 i⟩
  exact Cert.RefD.v33_at x0 x1 x2 x3 x4 s b f

/-- The reference's second result is the specification's head average of the attention weights. -/
theorem avg_eq (x0 : Cert.Attn.AX) (x1 : Cert.Attn.AW) (x2 : Cert.Attn.AB)
    (h0 : Cert.Attn.IsReal x0) (h1 : Cert.Attn.IsReal x1) (h2 : Cert.Attn.IsReal x2) :
    Cert.ReferenceIdeal.Read.val_main_v37 (F := Ideal) x0 x1 x2 = Cert.Attn.avg x0 x1 x2 := by
  funext i
  obtain ⟨b, s, s', rfl⟩ : ∃ (b : Fin 8) (s s' : Fin 1024), i = ix3 b s s' := ⟨i 0, i 1, i 2, eq_ix3 i⟩
  exact Cert.RefC.v37_at x0 x1 x2 b s s'

end Cert.RefValue

end
-- ==== Proof.PreReal.lean ====
import proofs.«128804_j1632087573280_2_alg».proof.Proof.Gen.Pre_finite_inputs
import proofs.«128804_j1632087573280_2_alg».proof.Proof.Spec
import Idealize.ShloMosaic.Lib.ReduceAll
import Idealize.ShloMosaic.PureOps.Ideal.Laws

noncomputable section

namespace Cert.PreReal

open Idealize.ShloMosaic Idealize.ShloMosaic.ValueIdx

instance : Subsingleton Cert.Pre_finite_inputs.S_.Idx := ⟨fun a b => funext fun d => d.elim0⟩

/-- An extended real whose absolute value is below +∞ is a real number. -/
theorem real_of_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- The precondition (every entry of every argument has absolute value below +∞) makes every entry a real. -/
theorem of_pre (a0 : Cert.Attn.AX) (a1 : Cert.Attn.AW) (a2 : Cert.Attn.AB) (a3 : Cert.Attn.AWo) (a4 : Cert.Attn.ABo)
    (h : Cert.Pre_finite_inputs.fn (F := Ideal) a0 a1 a2 a3 a4 = fun _ => 1#1) :
    Cert.Attn.IsReal a0 ∧ Cert.Attn.IsReal a1 ∧ Cert.Attn.IsReal a2 ∧ Cert.Attn.IsReal a3 ∧ Cert.Attn.IsReal a4 := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  refine ⟨fun i => ?_, fun i => ?_, fun i => ?_, fun i => ?_, fun i => ?_⟩
  · exact real_of_lt (a0 i) (Host.reduce_andi_all _ _ _ _ ix0 e0 i)
  · exact real_of_lt (a1 i) (Host.reduce_andi_all _ _ _ _ ix0 e1 i)
  · exact real_of_lt (a2 i) (Host.reduce_andi_all _ _ _ _ ix0 e2 i)
  · exact real_of_lt (a3 i) (Host.reduce_andi_all _ _ _ _ ix0 e3 i)
  · exact real_of_lt (a4 i) (Host.reduce_andi_all _ _ _ _ ix0 e4 i)

end Cert.PreReal

end
-- ==== Proof.lean ====
/-
  Multi-head self-attention as three kernel regions against its plain reference, over the extended reals.

  The kernel program: a tiled matrix product with a bias row packs the query, key and value projections of the
  [1024, 8, 1024] input into one [8192, 3072] array; an attention region, one grid point per (batch row, head), picks
  its head out of the 16-head-wide blocks by a one-hot product and sum, forms the scaled scores, the shifted
  exponentials and their row sums, adds the head's weights into a block shared by the sixteen heads (scaled by 1/16
  after the last) and the head's mixed values into its own column of the output block; a second tiled product with
  a bias row is the output projection.  The reference does the same with einsums, a softmax and a mean over heads.

  Both programs' results are one pair of functions of the five argument arrays (Proof/Spec.lean): the kernel's by
  reading each region's output array as a whole-array function and chaining them through the host lines' re-layings,
  the reference's by reading its host operations one at a time.  The differences are a factor 1/8 applied before or
  after a finite sum, a division by 16 against a product with 1/16, one-hot selections, and the order of sums: equal on
  the extended reals.  The three frames: the kernel programs' by running @main as host stretches around the three
  regions (the attention region's three input windows share one array, dealt a third each), the reference's from its
  run.  The ideal pass rewrote nothing, so the kernel's idealization is its own text.
-/
import proofs.«128804_j1632087573280_2_alg».proof.Defs
import proofs.«128804_j1632087573280_2_alg».proof.Proof.Gen.Kernel
import proofs.«128804_j1632087573280_2_alg».proof.Proof.Gen.KernelIdeal
import proofs.«128804_j1632087573280_2_alg».proof.Proof.Gen.ReferenceIdeal
import proofs.«128804_j1632087573280_2_alg».proof.Proof.Gen.Pre_finite_inputs
import proofs.«128804_j1632087573280_2_alg».proof.Proof.Gen.ReferenceIdeal.Run
import proofs.«128804_j1632087573280_2_alg».proof.Proof.Gen.ReferenceIdeal.Read
import proofs.«128804_j1632087573280_2_alg».proof.Proof.K.Main
import proofs.«128804_j1632087573280_2_alg».proof.Proof.ValueRun
import proofs.«128804_j1632087573280_2_alg».proof.Proof.RefValue
import proofs.«128804_j1632087573280_2_alg».proof.Proof.PreReal
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_k : Cert.frame_Kernel :=
  fun m ρ _ => Cert.Kernel.Hand.frame m ρ

/-- So does the idealized kernel. -/
theorem frame_ki : Cert.frame_KernelIdeal :=
  fun m ρ _ => Cert.KernelIdeal.Hand.frame m ρ

/-- The reference's frame is its run with the results dropped. -/
theorem frame_ri : Cert.frame_ReferenceIdeal :=
  fun m ρ _ => (θ_run Cert.ReferenceIdeal.defs _ _).mono (fun _ h c => (h c).2.2) (Cert.ReferenceIdeal.Value.run (F := Ideal) m ρ)

/-- Run from memories agreeing on the arguments, both idealized programs end with their two results at the
    specification's two functions of those arguments. -/
theorem algebraic :
    Cert.algebraic_KernelIdeal_ReferenceIdeal := by
  intro m ρ m' ρ' hpre hagree
  refine ⟨fun c => Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Attn.avg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ?_) (Cert.ReferenceIdeal.Value.run (F := Ideal) m' ρ')
  obtain ⟨r0, r1, r2, -, -⟩ := Cert.PreReal.of_pre _ _ _ _ _ (hpre c)
  obtain ⟨a0, a1, a2, a3, a4⟩ := hagree c
  refine ⟨?_, ?_, (h c).2.2⟩
  · rw [(h c).1, Cert.ReferenceIdeal.Read.val_main_v33_eq, a0, a1, a2, a3, a4]
    exact Cert.RefValue.out_eq _ _ _ _ _ r0 r1 r2
  · rw [(h c).2.1, Cert.ReferenceIdeal.Read.val_main_v37_eq, a0, a1, a2]
    exact Cert.RefValue.avg_eq _ _ _ r0 r1 r2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
